-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S2x512x4 : Shape := ⟨3, ![2, 512, 4]⟩
abbrev S512x512 : Shape := ⟨2, ![512, 512]⟩
abbrev S128x128 : Shape := ⟨2, ![128, 128]⟩
abbrev S128 : Shape := ⟨1, ![128]⟩
abbrev S4x128 : Shape := ⟨2, ![4, 128]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S2x512x4 : S_.BroadcastsInDim S2x512x4 (![] : Fin 0 → Fin S2x512x4.rank)
  reducesTo_S2x512x4_S_d0_1_2 : S2x512x4.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S4x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128 .f32) (main_arg6 : FVec F S128x128 .f32) (main_arg7 : FVec F S128 .f32) (main_arg8 : FVec F S4x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S2x512x128 .f32) (main_arg1 : FVec F S2x512x4 .f32) (main_arg2 : IVec S512x512 32) (main_arg3 : FVec F S128x128 .f32) (main_arg4 : FVec F S128x128 .f32) (main_arg5 : FVec F S128 .f32) (main_arg6 : FVec F S128x128 .f32) (main_arg7 : FVec F S128 .f32) (main_arg8 : FVec F S4x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S2x512x4 .f32 := Host.absf main_arg1
  let main_cst_0 : FVec F S_ .f32 := constant S_ .f32 0x7F800000#32
  let main_v5 : FVec F S2x512x4 .f32 := broadcastInDim S2x512x4 ![] bcast_S_S2x512x4 main_cst_0
  let main_v6 : IVec S2x512x4 1 := cmpf .olt main_v4 main_v5
  let main_c_1 : IVec S_ 1 := constantI S_ 1 1#1
  let main_v7 : IVec S_ 1 := (fun x v => Host.reduce IntOp.andi x v reducesTo_S2x512x4_S_d0_1_2 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S2x512x128 : Shape := ⟨3, ![2, 512, 128]⟩
abbrev S2x512x4 : Shape := ⟨3, ![2, 512, 4]⟩
abbrev S512x512 : Shape := ⟨2, ![512, 512]⟩
abbrev S128x128 : Shape := ⟨2, ![128, 128]⟩
abbrev S128 : Shape := ⟨1, ![128]⟩
abbrev S4x128 : Shape := ⟨2, ![4, 128]⟩
abbrev S_ : Shape := ⟨0, ![]⟩
abbrev S512 : Shape := ⟨1, ![512]⟩
abbrev S512x1 : Shape := ⟨2, ![512, 1]⟩
abbrev S1x128 : Shape := ⟨2, ![1, 128]⟩
abbrev S1x32x128 : Shape := ⟨3, ![1, 32, 128]⟩
abbrev S1x128x128 : Shape := ⟨3, ![1, 128, 128]⟩
abbrev S1x32x4 : Shape := ⟨3, ![1, 32, 4]⟩
abbrev S1x128x4 : Shape := ⟨3, ![1, 128, 4]⟩
abbrev S32x128 : Shape := ⟨2, ![32, 128]⟩
abbrev S32x1 : Shape := ⟨2, ![32, 1]⟩
abbrev S32x4 : Shape := ⟨2, ![32, 4]⟩
abbrev S128x4 : Shape := ⟨2, ![128, 4]⟩
abbrev S32x1x128 : Shape := ⟨3, ![32, 1, 128]⟩
abbrev S32x128x128 : Shape := ⟨3, ![32, 128, 128]⟩
abbrev S1x1x128 : Shape := ⟨3, ![1, 1, 128]⟩
abbrev S4096x128 : Shape := ⟨2, ![4096, 128]⟩
abbrev S32x1x4 : Shape := ⟨3, ![32, 1, 4]⟩
abbrev S32x128x4 : Shape := ⟨3, ![32, 128, 4]⟩
abbrev S4096x4 : Shape := ⟨2, ![4096, 4]⟩
abbrev S32x128x1 : Shape := ⟨3, ![32, 128, 1]⟩

abbrev nBuf : Space → Nat
  | .hbm => 34
  | .vmem => 27
  | .smem => 0
  | _ => 0

abbrev bufTy : (tb : Table) → Fin (tcTables nBuf tb) → BufTy
  | .hbm, ⟨0, _⟩ => ⟨S2x512x128, .f32⟩
  | .hbm, ⟨1, _⟩ => ⟨S2x512x4, .f32⟩
  | .hbm, ⟨2, _⟩ => ⟨S512x512, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S4x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S512x512, .f32⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512x1, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S2x512x128, .f32⟩
  | .local _ .vmem, ⟨0, _⟩ => ⟨S1x32x128, .f32⟩
  | .local _ .vmem, ⟨1, _⟩ => ⟨S1x32x128, .f32⟩
  | .local _ .vmem, ⟨2, _⟩ => ⟨S1x128x128, .f32⟩
  | .local _ .vmem, ⟨3, _⟩ => ⟨S1x128x128, .f32⟩
  | .local _ .vmem, ⟨4, _⟩ => ⟨S1x32x4, .f32⟩
  | .local _ .vmem, ⟨5, _⟩ => ⟨S1x32x4, .f32⟩
  | .local _ .vmem, ⟨6, _⟩ => ⟨S1x128x4, .f32⟩
  | .local _ .vmem, ⟨7, _⟩ => ⟨S1x128x4, .f32⟩
  | .local _ .vmem, ⟨8, _⟩ => ⟨S32x128, .f32⟩
  | .local _ .vmem, ⟨9, _⟩ => ⟨S32x128, .f32⟩
  | .local _ .vmem, ⟨10, _⟩ => ⟨S32x1, .f32⟩
  | .local _ .vmem, ⟨11, _⟩ => ⟨S32x1, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S4x128, .f32⟩
  | .local _ .vmem, ⟨18, _⟩ => ⟨S1x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x32x128, .f32⟩
  | .local _ .vmem, ⟨25, _⟩ => ⟨S1x32x128, .f32⟩
  | .local _ .vmem, ⟨26, _⟩ => ⟨S32x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨3, ![2, 16, 4], ![false, false, false]⟩

def k0_cond2 (i : grid0.Coords) : BitVec 1 :=
  let arg2 : BitVec 32 := BitVec.ofNat 32 (i 2).val
  let c3_i32 : BitVec 32 := 3#32
  let v75 : BitVec 1 := Scalar.cmpi .eq arg2 c3_i32
  let v76 : BitVec 32 := Scalar.extui v75
  let c0_i32_37 : BitVec 32 := 0#32
  let v77 : BitVec 1 := Scalar.cmpi .ne v76 c0_i32_37
  v77

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]

abbrev stage0_18 : Fin 2 → Memref sig .tc .vmem S1x32x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

class Facts₀ : Prop where
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  shapeCasts_S512_S512x1 : S512.ShapeCasts S512x1
  shapeCasts_S128_S1x128 : S128.ShapeCasts S1x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x32x4_S1x32x4_0_0_0 : ∀ a, (![0, 0, 0] : Fin 3 → Nat) a + S1x32x4.size a ≤ S1x32x4.size a
  h_S1x32x4 : 0 < S1x32x4.numel
  shapeCasts_S1x32x4_S32x4 : S1x32x4.ShapeCasts S32x4
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  shapeCasts_S1x128_S128 : S1x128.ShapeCasts S128
  shapeCasts_S128_S1x1x128 : S128.ShapeCasts S1x1x128
  broadcasts_S1x1x128_S32x128x128 : S1x1x128.Broadcasts S32x128x128
  shapeCasts_S32x128x128_S4096x128 : S32x128x128.ShapeCasts S4096x128
  broadcasts_S1x128_S4096x128 : S1x128.Broadcasts S4096x128
  shapeCasts_S4096x128_S32x128x128 : S4096x128.ShapeCasts S32x128x128
  shapeCasts_S32x4_S32x1x4 : S32x4.ShapeCasts S32x1x4
  shapeCasts_S128x4_S1x128x4 : S128x4.ShapeCasts S1x128x4
  broadcasts_S32x1x4_S32x128x4 : S32x1x4.Broadcasts S32x128x4
  broadcasts_S1x128x4_S32x128x4 : S1x128x4.Broadcasts S32x128x4
  shapeCasts_S32x128x4_S4096x4 : S32x128x4.ShapeCasts S4096x4
  inb_S4x128_S4x128_0_0 : ∀ a, (![0, 0] : Fin 2 → Nat) a + S4x128.size a ≤ S4x128.size a
  h_S4x128 : 0 < S4x128.numel
  shapeCasts_S32x128_S32x128x1 : S32x128.ShapeCasts S32x128x1
  broadcasts_S32x128x1_S32x128x128 : S32x128x1.Broadcasts S32x128x128
  reduces_S32x128x128_S32x128 : S32x128x128.Reduces [1] S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  broadcasts_S1x128_S32x128 : S1x128.Broadcasts S32x128
  shapeCasts_S32x128_S1x32x128 : S32x128.ShapeCasts S1x32x128
  dot_S32x128_S128x128_S32x128_1_0_0_1_n_n_wf : DotDims.WF S32x128 S128x128 S32x128 [1] [0] [0] [1] [] []
  dot_S128x128_S128x128_S128x128_1_0_0_1_n_n_wf : DotDims.WF S128x128 S128x128 S128x128 [1] [0] [0] [1] [] []
  dot_S4096x128_S128x128_S4096x128_1_0_0_1_n_n_wf : DotDims.WF S4096x128 S128x128 S4096x128 [1] [0] [0] [1] [] []
  dot_S4096x4_S4x128_S4096x128_1_0_0_1_n_n_wf : DotDims.WF S4096x4 S4x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128.size a ≤ S2x512x128.size a
  hwx0_0 : ∀ i : grid0.Coords, EltTy.bits .f32 = 32 ∨ (Rect.block (s := S2x512x128) S1x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S2x512x128.size a
  hwx0_1 : ∀ i : grid0.Coords, EltTy.bits .f32 = 32 ∨ (Rect.block (s := S2x512x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x4.size a ≤ S2x512x4.size a
  hwx0_2 : ∀ i : grid0.Coords, EltTy.bits .f32 = 32 ∨ (Rect.block (s := S2x512x4) S1x32x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4.size a ≤ S2x512x4.size a
  hwx0_3 : ∀ i : grid0.Coords, EltTy.bits .f32 = 32 ∨ (Rect.block (s := S2x512x4) S1x128x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S512x512.size a
  hwx0_4 : ∀ i : grid0.Coords, EltTy.bits .f32 = 32 ∨ (Rect.block (s := S512x512) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S512x1.size a
  hwx0_5 : ∀ i : grid0.Coords, EltTy.bits .f32 = 32 ∨ (Rect.block (s := S512x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x128.size a ≤ S4x128.size a
  hwx0_11 : ∀ i : grid0.Coords, EltTy.bits .f32 = 32 ∨ (Rect.block (s := S4x128) S4x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x32x128.size a ≤ S2x512x128.size a
  hwx0_18 : ∀ i : grid0.Coords, EltTy.bits .f32 = 32 ∨ (Rect.block (s := S2x512x128) S1x32x128.size (cc0_transform_18 i) (hinb0_18 i)).WholeWords (EltTy.packing .f32)

variable [Facts₀]

def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4_S4x128_S4096x128_1_0_0_1_n_n : DotDims S4096x4 S4x128 S4096x128 where
  lhsContracting := [1]
  rhsContracting := [0]
  lhsNonContracting := [0]
  rhsNonContracting := [1]
  lhsBatch := []
  rhsBatch := []
  wf := dot_S4096x4_S4x128_S4096x128_1_0_0_1_n_n_wf

abbrev win0_0 : Pipeline.Window sig grid0 :=
  Pipeline.Window.ofSpec (Memref.whole main_arg0) S1x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x128x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S4x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg13) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v13) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v14) S1x32x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev idle0 : Fin 19 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun i => !(k0_cond2 i == 1#1) | ⟨_ + 19, h⟩ => absurd h (Nat.not_lt.2 (Nat.le_add_left _ _))

class Facts : Prop extends Facts₀ where

variable [Facts]
-- ==== ReferenceIdeal.lean ====
abbrev S2x512x128 : Shape := ⟨3, ![2, 512, 128]⟩
abbrev S2x512x4 : Shape := ⟨3, ![2, 512, 4]⟩
abbrev S512x512 : Shape := ⟨2, ![512, 512]⟩
abbrev S128x128 : Shape := ⟨2, ![128, 128]⟩
abbrev S128 : Shape := ⟨1, ![128]⟩
abbrev S4x128 : Shape := ⟨2, ![4, 128]⟩
abbrev S_ : Shape := ⟨0, ![]⟩
abbrev S2x512x1x128 : Shape := ⟨4, ![2, 512, 1, 128]⟩
abbrev S2x1x512x128 : Shape := ⟨4, ![2, 1, 512, 128]⟩
abbrev S2x512x512x128 : Shape := ⟨4, ![2, 512, 512, 128]⟩
abbrev S1x1x1x128 : Shape := ⟨4, ![1, 1, 1, 128]⟩
abbrev S2x512x1x4 : Shape := ⟨4, ![2, 512, 1, 4]⟩
abbrev S2x1x512x4 : Shape := ⟨4, ![2, 1, 512, 4]⟩
abbrev S2x512x512x4 : Shape := ⟨4, ![2, 512, 512, 4]⟩
abbrev S1x512x512x1 : Shape := ⟨4, ![1, 512, 512, 1]⟩
abbrev S512 : Shape := ⟨1, ![512]⟩
abbrev S1x512x1 : Shape := ⟨3, ![1, 512, 1]⟩
abbrev S1x1x128 : Shape := ⟨3, ![1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x4, .f32⟩
  | .hbm, ⟨2, _⟩ => ⟨S512x512, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S4x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S2x512x128, .f32⟩
  | .hbm, ⟨19, _⟩ => ⟨S2x512x128, .f32⟩
  | .hbm, ⟨20, _⟩ => ⟨S2x512x1x128, .f32⟩
  | .hbm, ⟨21, _⟩ => ⟨S2x1x512x128, .f32⟩
  | .hbm, ⟨22, _⟩ => ⟨S2x512x512x128, .f32⟩
  | .hbm, ⟨23, _⟩ => ⟨S2x512x512x128, .f32⟩
  | .hbm, ⟨24, _⟩ => ⟨S2x512x512x128, .f32⟩
  | .hbm, ⟨25, _⟩ => ⟨S1x1x1x128, .f32⟩
  | .hbm, ⟨26, _⟩ => ⟨S2x512x512x128, .f32⟩
  | .hbm, ⟨27, _⟩ => ⟨S2x512x512x128, .f32⟩
  | .hbm, ⟨28, _⟩ => ⟨S_, .f32⟩
  | .hbm, ⟨29, _⟩ => ⟨S2x512x512x128, .f32⟩
  | .hbm, ⟨30, _⟩ => ⟨S2x512x512x128, .f32⟩
  | .hbm, ⟨31, _⟩ => ⟨S2x512x512x128, .f32⟩
  | .hbm, ⟨32, _⟩ => ⟨S1x1x1x128, .f32⟩
  | .hbm, ⟨33, _⟩ => ⟨S2x512x512x128, .f32⟩
  | .hbm, ⟨34, _⟩ => ⟨S2x512x512x128, .f32⟩
  | .hbm, ⟨35, _⟩ => ⟨S2x512x1x4, .f32⟩
  | .hbm, ⟨36, _⟩ => ⟨S2x1x512x4, .f32⟩
  | .hbm, ⟨37, _⟩ => ⟨S2x512x512x4, .f32⟩
  | .hbm, ⟨38, _⟩ => ⟨S2x512x512x4, .f32⟩
  | .hbm, ⟨39, _⟩ => ⟨S2x512x512x4, .f32⟩
  | .hbm, ⟨40, _⟩ => ⟨S2x512x512x4, .f32⟩
  | .hbm, ⟨41, _⟩ => ⟨S2x512x512x128, .f32⟩
  | .hbm, ⟨42, _⟩ => ⟨S1x1x1x128, .f32⟩
  | .hbm, ⟨43, _⟩ => ⟨S2x512x512x128, .f32⟩
  | .hbm, ⟨44, _⟩ => ⟨S2x512x512x128, .f32⟩
  | .hbm, ⟨45, _⟩ => ⟨S2x512x512x128, .f32⟩
  | .hbm, ⟨46, _⟩ => ⟨S2x512x512x128, .f32⟩
  | .hbm, ⟨47, _⟩ => ⟨S_, .f32⟩
  | .hbm, ⟨48, _⟩ => ⟨S2x512x512x128, .f32⟩
  | .hbm, ⟨49, _⟩ => ⟨S2x512x512x128, .f32⟩
  | .hbm, ⟨50, _⟩ => ⟨S_, .f32⟩
  | .hbm, ⟨51, _⟩ => ⟨S2x512x512x128, .f32⟩
  | .hbm, ⟨52, _⟩ => ⟨S2x512x512x128, .f32⟩
  | .hbm, ⟨53, _⟩ => ⟨S2x512x512x128, .f32⟩
  | .hbm, ⟨54, _⟩ => ⟨S1x512x512x1, .i1⟩
  | .hbm, ⟨55, _⟩ => ⟨S1x512x512x1, .f32⟩
  | .hbm, ⟨56, _⟩ => ⟨S2x512x512x128, .f32⟩
  | .hbm, ⟨57, _⟩ => ⟨S2x512x512x128, .f32⟩
  | .hbm, ⟨58, _⟩ => ⟨S_, .f32⟩
  | .hbm, ⟨59, _⟩ => ⟨S2x512x128, .f32⟩
  | .hbm, ⟨60, _⟩ => ⟨S512x512, .i32⟩
  | .hbm, ⟨61, _⟩ => ⟨S_, .i32⟩
  | .hbm, ⟨62, _⟩ => ⟨S512, .i32⟩
  | .hbm, ⟨63, _⟩ => ⟨S_, .i32⟩
  | .hbm, ⟨64, _⟩ => ⟨S512, .i32⟩
  | .hbm, ⟨65, _⟩ => ⟨S512, .i32⟩
  | .hbm, ⟨66, _⟩ => ⟨S512, .f32⟩
  | .hbm, ⟨67, _⟩ => ⟨S1x512x1, .f32⟩
  | .hbm, ⟨68, _⟩ => ⟨S2x512x128, .f32⟩
  | .hbm, ⟨69, _⟩ => ⟨S2x512x128, .f32⟩
  | .hbm, ⟨70, _⟩ => ⟨S2x512x128, .f32⟩
  | .hbm, ⟨71, _⟩ => ⟨S2x512x128, .f32⟩
  | .hbm, ⟨72, _⟩ => ⟨S2x512x128, .f32⟩
  | .hbm, ⟨73, _⟩ => ⟨S1x1x128, .f32⟩
  | .hbm, ⟨74, _⟩ => ⟨S2x512x128, .f32⟩
  | .hbm, ⟨75, _⟩ => ⟨S2x512x128, .f32⟩
  | .hbm, ⟨76, _⟩ => ⟨S_, .f32⟩
  | .hbm, ⟨77, _⟩ => ⟨S2x512x128, .f32⟩
  | .hbm, ⟨78, _⟩ => ⟨S2x512x128, .f32⟩
  | .hbm, ⟨79, _⟩ => ⟨S2x512x128, .f32⟩
  | .hbm, ⟨80, _⟩ => ⟨S1x1x128, .f32⟩
  | .hbm, ⟨81, _⟩ => ⟨S2x512x128, .f32⟩
  | .hbm, ⟨82, _⟩ => ⟨S2x512x128, .f32⟩
  | .hbm, ⟨83, _⟩ => ⟨S2x512x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_cst : Ref sig .tc := ⟨.hbm, 28, rfl⟩
abbrev main_call0_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_cst_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_1 : Ref sig .tc := ⟨.hbm, 58, rfl⟩
abbrev main_v38 : Ref sig .tc := ⟨.hbm, 59, rfl⟩
abbrev main_v39 : Ref sig .tc := ⟨.hbm, 60, rfl⟩
abbrev main_c_2 : Ref sig .tc := ⟨.hbm, 61, rfl⟩
abbrev main_v40 : Ref sig .tc := ⟨.hbm, 62, rfl⟩
abbrev main_c_3 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S2x512x128_S2x512x1x128_0_1_3 : S2x512x128.BroadcastsInDim S2x512x1x128 (![0, 1, 3] : Fin 3 → Fin S2x512x1x128.rank)
  bcast_S2x512x128_S2x1x512x128_0_2_3 : S2x512x128.BroadcastsInDim S2x1x512x128 (![0, 2, 3] : Fin 3 → Fin S2x1x512x128.rank)
  bcast_S2x512x1x128_S2x512x512x128_0_1_2_3 : S2x512x1x128.BroadcastsInDim S2x512x512x128 (![0, 1, 2, 3] : Fin 4 → Fin S2x512x512x128.rank)
  bcast_S2x1x512x128_S2x512x512x128_0_1_2_3 : S2x1x512x128.BroadcastsInDim S2x512x512x128 (![0, 1, 2, 3] : Fin 4 → Fin S2x512x512x128.rank)
  bcast_S128_S1x1x1x128_3 : S128.BroadcastsInDim S1x1x1x128 (![3] : Fin 1 → Fin S1x1x1x128.rank)
  bcast_S1x1x1x128_S2x512x512x128_0_1_2_3 : S1x1x1x128.BroadcastsInDim S2x512x512x128 (![0, 1, 2, 3] : Fin 4 → Fin S2x512x512x128.rank)
  bcast_S_S2x512x512x128 : S_.BroadcastsInDim S2x512x512x128 (![] : Fin 0 → Fin S2x512x512x128.rank)
  bcast_S2x512x4_S2x512x1x4_0_1_3 : S2x512x4.BroadcastsInDim S2x512x1x4 (![0, 1, 3] : Fin 3 → Fin S2x512x1x4.rank)
  bcast_S2x512x4_S2x1x512x4_0_2_3 : S2x512x4.BroadcastsInDim S2x1x512x4 (![0, 2, 3] : Fin 3 → Fin S2x1x512x4.rank)
  bcast_S2x512x1x4_S2x512x512x4_0_1_2_3 : S2x512x1x4.BroadcastsInDim S2x512x512x4 (![0, 1, 2, 3] : Fin 4 → Fin S2x512x512x4.rank)
  bcast_S2x1x512x4_S2x512x512x4_0_1_2_3 : S2x1x512x4.BroadcastsInDim S2x512x512x4 (![0, 1, 2, 3] : Fin 4 → Fin S2x512x512x4.rank)
  bcast_S512x512_S1x512x512x1_1_2 : S512x512.BroadcastsInDim S1x512x512x1 (![1, 2] : Fin 2 → Fin S1x512x512x1.rank)
  bcast_S1x512x512x1_S2x512x512x128_0_1_2_3 : S1x512x512x1.BroadcastsInDim S2x512x512x128 (![0, 1, 2, 3] : Fin 4 → Fin S2x512x512x128.rank)
  reducesTo_S2x512x512x128_S2x512x128_d2 : S2x512x512x128.ReducesTo [2] S2x512x128
  h_S_ : 0 < S_.numel
  natLt_1_32 : 1 < 32
  reducesTo_S512x512_S512_d1 : S512x512.ReducesTo [1] S512
  bcast_S_S512 : S_.BroadcastsInDim S512 (![] : Fin 0 → Fin S512.rank)
  bcast_S512_S1x512x1_1 : S512.BroadcastsInDim S1x512x1 (![1] : Fin 1 → Fin S1x512x1.rank)
  bcast_S1x512x1_S2x512x128_0_1_2 : S1x512x1.BroadcastsInDim S2x512x128 (![0, 1, 2] : Fin 3 → Fin S2x512x128.rank)
  bcast_S128_S1x1x128_2 : S128.BroadcastsInDim S1x1x128 (![2] : Fin 1 → Fin S1x1x128.rank)
  bcast_S1x1x128_S2x512x128_0_1_2 : S1x1x128.BroadcastsInDim S2x512x128 (![0, 1, 2] : Fin 3 → Fin S2x512x128.rank)
  bcast_S_S2x512x128 : S_.BroadcastsInDim S2x512x128 (![] : Fin 0 → Fin S2x512x128.rank)
  dot_S2x512x128_S128x128_S2x512x128_2_0_01_1_n_n_wf : DotDims.WF S2x512x128 S128x128 S2x512x128 [2] [0] [0, 1] [1] [] []
  dot_S2x512x512x128_S128x128_S2x512x512x128_3_0_012_1_n_n_wf : DotDims.WF S2x512x512x128 S128x128 S2x512x512x128 [3] [0] [0, 1, 2] [1] [] []
  dot_S2x512x512x4_S4x128_S2x512x512x128_3_0_012_1_n_n_wf : DotDims.WF S2x512x512x4 S4x128 S2x512x512x128 [3] [0] [0, 1, 2] [1] [] []

variable [Facts₀]

def dot_S2x512x128_S128x128_S2x512x128_2_0_01_1_n_n : DotDims S2x512x128 S128x128 S2x512x128 where
  lhsContracting := [2]
  rhsContracting := [0]
  lhsNonContracting := [0, 1]
  rhsNonContracting := [1]
  lhsBatch := []
  rhsBatch := []
  wf := dot_S2x512x128_S128x128_S2x512x128_2_0_01_1_n_n_wf
def dot_S2x512x512x128_S128x128_S2x512x512x128_3_0_012_1_n_n : DotDims S2x512x512x128 S128x128 S2x512x512x128 where
  lhsContracting := [3]
  rhsContracting := [0]
  lhsNonContracting := [0, 1, 2]
  rhsNonContracting := [1]
  lhsBatch := []
  rhsBatch := []
  wf := dot_S2x512x512x128_S128x128_S2x512x512x128_3_0_012_1_n_n_wf
def dot_S2x512x512x4_S4x128_S2x512x512x128_3_0_012_1_n_n : DotDims S2x512x512x4 S4x128 S2x512x512x128 where
  lhsContracting := [3]
  rhsContracting := [0]
  lhsNonContracting := [0, 1, 2]
  rhsNonContracting := [1]
  lhsBatch := []
  rhsBatch := []
  wf := dot_S2x512x512x4_S4x128_S2x512x512x128_3_0_012_1_n_n_wf

class Facts : Prop extends Facts₀ where

variable [Facts]
-- ==== Proof.LibSharedFrame.lean ====
/-
  The frame run of a TensorCore program with one kernel region whose INPUT WINDOWS MAY SHARE AN ARRAY (one array handed
  to the kernel through several input windows), for a kernel with no semaphore of its own and a tracking invariant over
  its scratch: at the compiled mesh, for any values, from any memory with zero counters, every weakly fair execution of
  the program terminates and ends with every windowed array at what the proof data compute (an input array unchanged,
  an output array overwritten block by block at each write-back) and every other unscoped buffer as the region found it.

  The certificate supplies: the layout facts apart from the arrays' distinctness; the proof data and its body
  obligation; the program's shape up to the region, with the buffers' contents there; how the distinct buffers behind
  the windows' arrays, each whole at the full share, are dealt to the windows at the proof data's shares; and that the
  kernel's scoped rest yields the invariant before the first point and is given back after the last.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

set_option backward.isDefEq.respectTransparency.types false in
/-- The frame run when input windows may share an array: `hsplit` says how the distinct array buffers are dealt to
    the windows at the proof data's shares; the invariant tracks the kernel's scratch (`hin`, `hout`). -/
theorem θ_run_frame_track_shared
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) ⟨m, fun _ => 0, g⟩
      (FramePost cfgs dats p V) :=
  θ_run_region_noSem_shared cfgs dats () hinj p hw emb₁ defs₀ 𝒱₀ m g main hbody hne harr hstage howed
    (initOf (cells cfgs hinj) (launchToks cfgs hinj)) (BI.Entails.refl _) V hmain hsplit
    (fun _ => iprop(emp)) (fun _ => iprop(emp))
    (fun c => unscopedRest (Ix := Unit) (Name := ℕ) (U := UR sig nD τ) (Lvl := ℕ) (cfgs p).spec c (V c))
    (fun c => by iintro H; isplitr; · iempintro
                 iexact H)
    (fun c => (show _ ⊢ (scopedRest (cfgs p).spec c : sProp 𝕄) from by iintro ⟨-, H⟩; iexact H).trans (hin c))
    (fun c => (hout c).trans (by iintro H; isplitr; · iempintro
                                 iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Idealize.ShloMosaic.Pipeline.SharedFrame

end
-- ==== Proof.FrameK.Common.lean ====
/-
  What the frame of the message-passing kernel's program shares between its parts: the buffers' contents when the
  region is entered (after the host lines that build the neighbour mask, the reciprocal counts and the bias rows), the
  program's shape up to the region, each window's block at a grid point, that an input window's staging buffer holds
  its block at every point whether or not it was fetched there, the two conditions of the body (first sender tile,
  last sender tile) in closed form over the grid, where the output window is idle, and the staging and scratch
  buffers as the body is handed them.
-/
import proofs.«119065_j24043226923414_1_alg».proof.Proof.Gen.Kernel.Launch
import proofs.«119065_j24043226923414_1_alg».proof.Proof.Gen.Kernel.Skeleton
import proofs.«119065_j24043226923414_1_alg».proof.Proof.Gen.Kernel.Points
import proofs.«119065_j24043226923414_1_alg».proof.Proof.LibSharedFrame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s TensorCore buffers when the region is entered: the launch contents after the host lines. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is its host lines, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's staging buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's staging buffer holds its block at every point, fetched there or not. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's staging buffer holds its block at every point, fetched there or not. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's staging buffer holds its block at every point, fetched there or not. -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input window 17's staging buffer holds its block at every point, fetched there or not. -/
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "This is the first sender tile": the condition of the body's first conditional. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- "This is the last sender tile": the condition of the body's second conditional. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the output window is idle -/

theorem idleAt18 : ∀ t : Fin cfg0.N, ¬cond1 (grid0.coords t) → cfg0.idle 18 (grid0.coords t) = true := by decide +kernel
theorem noFlush18 : ∀ t : Fin cfg0.N, ¬cond1 (grid0.coords t) → (cfg0.win 18).flush t = false := by decide +kernel
theorem liveAt18 : ∀ t : Fin cfg0.N, cond1 (grid0.coords t) → cfg0.idle 18 (grid0.coords t) = false := by decide +kernel

/-! ## The staging and scratch buffers as the body is handed them -/

abbrev ms0 (t : Fin cfg0.N) : Memref sig .tc .vmem S1x32x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x4 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x4 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S4x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S128x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x128 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x32x128 .f32 := win0_18.stage (cfg0.slots t 18)
abbrev hs18 (t : Fin cfg0.N) : (ms18 t).IsWhole := hstage0_18 ((cfg0.slots t 18).cast nbuf0_18)
/-- The accumulator scratch, a whole scoped buffer of the kernel's own. -/
abbrev scM : Memref sig .tc .vmem S32x128 .f32 := Memref.whole cc0_scratch0
/-- The scratch as a view: what it holds is stated through it. -/
abbrev VS : View sig .tc .vmem S32x128 .f32 := (scM : Memref sig .tc .vmem S32x128 .f32).view
/-- One staging buffer of the output window, through which its contents are stated. -/
abbrev VO : View sig .tc .vmem S1x32x128 .f32 := (Memref.whole cc0_stg18_0 : Memref sig .tc .vmem S1x32x128 .f32).view

/-- The kernel's scoped rest is its scratch, owned at some contents. -/
theorem scopedRest_eq (c : Dev nD) :
    (Pipeline.scopedRest spec0 c : sProp 𝕄) = iprop(∃ d, owns (c : Thread nD τ) scM fullShare d) := by
  rw [scopedRest0_eq]; simp only [scM, owns_whole]; try rfl

end Cert.Kernel.Hand

end
-- ==== Proof.FrameK.RunA.lean ====
/-
  The kernel body run once at a first sender tile (the accumulator is reset, then the tile's sum is added; the output window is left untouched): on whole staging buffers holding the
  input blocks, the body runs to its end holding the inputs as they were, with the stores it made into the scratch
  (and the output window) recorded as the pieces written, last first.
-/
import proofs.«119065_j24043226923414_1_alg».proof.Proof.FrameK.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run in this case, and the pieces its stores leave. -/
noncomputable def kernelRun_A (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) :
    Σ' (L18 : List (View.Piece (Elt F) S1x32x128 .f32)), { LS : List (View.Piece (Elt F) S32x128 .f32) //
      ∀ (xi18 : Vec F S1x32x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi18 ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi18 ∗ (∃ f, arg22.view.loc (c : Thread nD τ) ↦[arg22.view.set]{fullShare} arg22.view.writes (Elt F) f LS)) -∗ K ⟨⟩))
          ⊢ wp frame (wpE (defs₀ (F := F)) Variants.none c none) E (cc0__mp_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, fun xi18 E K => ?run⟩
  case run =>
    simp only [cc0__mp_kernel_eq_skeleton]; unfold cc0__mp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    iexists _; iexact HS

end Cert.Kernel.Hand

end
-- ==== Proof.FrameK.RunB.lean ====
/-
  The kernel body run once at a middle sender tile (the tile's sum is added to the accumulator; the output window is left untouched): on whole staging buffers holding the
  input blocks, the body runs to its end holding the inputs as they were, with the stores it made into the scratch
  (and the output window) recorded as the pieces written, last first.
-/
import proofs.«119065_j24043226923414_1_alg».proof.Proof.FrameK.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run in this case, and the pieces its stores leave. -/
noncomputable def kernelRun_B (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) :
    Σ' (L18 : List (View.Piece (Elt F) S1x32x128 .f32)), { LS : List (View.Piece (Elt F) S32x128 .f32) //
      ∀ (xi18 : Vec F S1x32x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi18 ∗ owns (c : Thread nD τ) arg22 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi18 ∗ (∃ f, arg22.view.loc (c : Thread nD τ) ↦[arg22.view.set]{fullShare} arg22.view.writes (Elt F) f LS)) -∗ K ⟨⟩))
          ⊢ wp frame (wpE (defs₀ (F := F)) Variants.none c none) E (cc0__mp_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, fun xi18 E K => ?run⟩
  case run =>
    simp only [cc0__mp_kernel_eq_skeleton]; unfold cc0__mp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    iexists _; iexact HS

end Cert.Kernel.Hand

end
-- ==== Proof.FrameK.RunC.lean ====
/-
  The kernel body run once at a last sender tile (the tile's sum is added to the accumulator, and the updated rows are stored to the output window): on whole staging buffers holding the
  input blocks, the body runs to its end holding the inputs as they were, with the stores it made into the scratch
  (and the output window) recorded as the pieces written, last first.
-/
import proofs.«119065_j24043226923414_1_alg».proof.Proof.FrameK.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run in this case, and the pieces its stores leave. -/
noncomputable def kernelRun_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) :
    Σ' (L18 : List (View.Piece (Elt F) S1x32x128 .f32)), { LS : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ (∃ d, owns (c : Thread nD τ) arg21 fullShare d) ∗ owns (c : Thread nD τ) arg22 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ (∃ f, arg21.view.loc (c : Thread nD τ) ↦[arg21.view.set]{fullShare} arg21.view.writes (Elt F) f L18) ∗ (∃ f, arg22.view.loc (c : Thread nD τ) ↦[arg22.view.set]{fullShare} arg22.view.writes (Elt F) f LS)) -∗ K ⟨⟩))
          ⊢ wp frame (wpE (defs₀ (F := F)) Variants.none c none) E (cc0__mp_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, fun E K => ?run⟩
  case run =>
    simp only [cc0__mp_kernel_eq_skeleton]; unfold cc0__mp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg22.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]; · iexists _; iexact H18
    iexists _; iexact HS

end Cert.Kernel.Hand

end
-- ==== Proof.FrameK.Data.lean ====
/-
  The frame of the message-passing kernel's program: what each case of the body leaves in the accumulator scratch and
  in the output window (the pieces its stores wrote, read back), what they hold point by point over the grid (the
  accumulator reset at each first sender tile and added to at every tile; the output window written at each last
  sender tile and otherwise untouched), the region's invariant (the scratch at what the point before left), the proof
  data, the body obligation at every point, how the two feature and the two phase windows share their arrays, and
  the run of the whole program.
-/
import proofs.«119065_j24043226923414_1_alg».proof.Proof.FrameK.RunC
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces case A wrote into the scratch cover it. -/
theorem scover_A (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32)  (y : S32x128.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17).2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17).2.1 S32x128.size (by sl_kernel_rfl) y

/-- What case A leaves in the scratch: its pieces read back. -/
def sout_A (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32)  : Vec F S32x128 .f32 :=
  VS.read (Elt F) (VS.writes (Elt F) VS.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17).2.1)

/-- The pieces case B wrote into the scratch cover it. -/
theorem scover_B (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) (y : S32x128.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1 S32x128.size (by sl_kernel_rfl) y

/-- What case B leaves in the scratch: its pieces read back. -/
def sout_B (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) : Vec F S32x128 .f32 :=
  VS.read (Elt F) (VS.writes (Elt F) VS.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1)

/-- The pieces case C wrote into the scratch cover it. -/
theorem scover_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) (y : S32x128.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1 S32x128.size (by sl_kernel_rfl) y

/-- What case C leaves in the scratch: its pieces read back. -/
def sout_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) : Vec F S32x128 .f32 :=
  VS.read (Elt F) (VS.writes (Elt F) VS.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1)

/-- The pieces case C wrote into the output window cover its block. -/
theorem cover_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) (y : S1x32x128.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).1 S1x32x128.size (by sl_kernel_rfl) y

/-- What case C leaves in the output window's staging buffer: its pieces read back. -/
def out_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) : Vec F S1x32x128 .f32 :=
  VO.read (Elt F) (VO.writes (Elt F) VO.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).1)

/-- A placeholder for the output window at the points where it is idle: nothing consults it. -/
def idleOut : Vec F S1x32x128 .f32 := VO.read (Elt F) VO.junk

/-! ## The cases at a grid point -/

/-- Case A's scratch at point `t` (a first sender tile). -/
def soutA_at (c : Dev nD) (t : Fin cfg0.N) (h0 : t.val % 4 = 0) (h1 : ¬t.val % 4 = 3) : Vec F S32x128 .f32 :=
  sout_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
/-- Case B's scratch at point `t`, over what the point before left. -/
def soutB_at (c : Dev nD) (t : Fin cfg0.N) (h0 : ¬t.val % 4 = 0) (h1 : ¬t.val % 4 = 3) (xs : Vec F S32x128 .f32) : Vec F S32x128 .f32 :=
  sout_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs
/-- Case C's scratch at point `t`, over what the point before left. -/
def soutC_at (c : Dev nD) (t : Fin cfg0.N) (h0 : ¬t.val % 4 = 0) (h1 : t.val % 4 = 3) (xs : Vec F S32x128 .f32) : Vec F S32x128 .f32 :=
  sout_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs
/-- Case C's output block at point `t`, over what the point before left in the scratch. -/
def outC_at (c : Dev nD) (t : Fin cfg0.N) (h0 : ¬t.val % 4 = 0) (h1 : t.val % 4 = 3) (xs : Vec F S32x128 .f32) : Vec F S1x32x128 .f32 :=
  out_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs

/-! ## What the output window and the scratch hold after each point -/

/-- The accumulation: the output window's staging buffer and the scratch after the body at position `n`. -/
def outsAt (c : Dev nD) : (n : ℕ) → n < cfg0.N → Vec F S1x32x128 .f32 × Vec F S32x128 .f32
  | 0, hn => (idleOut, soutA_at m c ⟨0, hn⟩ (Nat.zero_mod _) (by show ¬0 % 4 = 3; decide))
  | n + 1, hn =>
    if h0 : (n + 1) % 4 = 0 then
      if h1 : (n + 1) % 4 = 3 then False.elim (by omega)
      else (idleOut, soutA_at m c ⟨n + 1, hn⟩ h0 h1)
    else
      if h1 : (n + 1) % 4 = 3 then
        (outC_at m c ⟨n + 1, hn⟩ h0 h1 (outsAt c n (Nat.lt_of_succ_lt hn)).2, soutC_at m c ⟨n + 1, hn⟩ h0 h1 (outsAt c n (Nat.lt_of_succ_lt hn)).2)
      else (idleOut, soutB_at m c ⟨n + 1, hn⟩ h0 h1 (outsAt c n (Nat.lt_of_succ_lt hn)).2)

theorem outsAt_A (c : Dev nD) (t : Fin cfg0.N) (h0 : t.val % 4 = 0) (h1 : ¬t.val % 4 = 3) :
    outsAt m c t.val t.isLt = (idleOut, soutA_at m c t h0 h1) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt m c t.val t.isLt = (idleOut, soutB_at m c t h0 h1 (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 4 = 0) (h1 : t.val % 4 = 3) :
    outsAt m c t.val t.isLt = (outC_at m c t h0 h1 (outsAt m c (t.val - 1) (Nat.lt_of_le_of_lt (Nat.sub_le _ _) t.isLt)).2,
      soutC_at m c t h0 h1 (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position `n`: at the first point the kernel's scoped rest (the scratch at anything); afterwards the
    scratch at what the point before left in it. -/
def PhiS (c : Dev nD) : (n : ℕ) → n ≤ cfg0.N → sProp 𝕄
  | 0, _ => Pipeline.scopedRest spec0 c
  | n + 1, hn => owns (c : Thread nD τ) scM fullShare ((outsAt m c n hn).2)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM fullShare ((outsAt m c n hn).2) := rfl
theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The proof data of the one pipeline on core `c`: the arrays as the region finds them; after the body each input's
    buffer at its block and the output's at `outsAt`; the invariant `PhiS`; nothing owed; the two windows on the
    feature array hold half of it each, as do the two on the phase array, every other window its whole array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt m c t.val t.isLt).1
    | ⟨_ + 19, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨_ + 19, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d
theorem before17 (c : Dev nD) (t : Fin cfg0.N) (d) : (dats m 0 c).before 17 t d = iblk m c 17 t :=
  before17_of m (dats m 0 c) (A_eq m c 17) (after17 m c) t d

end Cert.Kernel.Hand

end
-- ==== Proof.FrameK.Body.lean ====
/-
  The body obligation of the message-passing kernel at every grid point: the input windows' buffers hold their blocks;
  the point's position among the four sender tiles says which case the body is in; the case's run applies, taking
  the scratch at what the point before left (at anything at the very first point) and giving it back at this point's
  contents; at a last sender tile the output window's buffer is left at the updated rows, elsewhere it is handed
  back untouched.
-/
import proofs.«119065_j24043226923414_1_alg».proof.Proof.FrameK.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (iblk m c 2 t) := by
  rw [← after2 m c t]
theorem leaves3 (c : Dev nD) (t : Fin cfg0.N) :
    (dats m 0 c).leavesExact 3 t = owns (c : Thread nD τ) (ms3 t) fullShare (iblk m c 3 t) := by
  rw [← after3 m c t]
theorem leaves4 (c : Dev nD) (t : Fin cfg0.N) :
    (dats m 0 c).leavesExact 4 t = owns (c : Thread nD τ) (ms4 t) fullShare (iblk m c 4 t) := by
  rw [← after4 m c t]
theorem leaves5 (c : Dev nD) (t : Fin cfg0.N) :
    (dats m 0 c).leavesExact 5 t = owns (c : Thread nD τ) (ms5 t) fullShare (iblk m c 5 t) := by
  rw [← after5 m c t]
theorem leaves6 (c : Dev nD) (t : Fin cfg0.N) :
    (dats m 0 c).leavesExact 6 t = owns (c : Thread nD τ) (ms6 t) fullShare (iblk m c 6 t) := by
  rw [← after6 m c t]
theorem leaves7 (c : Dev nD) (t : Fin cfg0.N) :
    (dats m 0 c).leavesExact 7 t = owns (c : Thread nD τ) (ms7 t) fullShare (iblk m c 7 t) := by
  rw [← after7 m c t]
theorem leaves8 (c : Dev nD) (t : Fin cfg0.N) :
    (dats m 0 c).leavesExact 8 t = owns (c : Thread nD τ) (ms8 t) fullShare (iblk m c 8 t) := by
  rw [← after8 m c t]
theorem leaves9 (c : Dev nD) (t : Fin cfg0.N) :
    (dats m 0 c).leavesExact 9 t = owns (c : Thread nD τ) (ms9 t) fullShare (iblk m c 9 t) := by
  rw [← after9 m c t]
theorem leaves10 (c : Dev nD) (t : Fin cfg0.N) :
    (dats m 0 c).leavesExact 10 t = owns (c : Thread nD τ) (ms10 t) fullShare (iblk m c 10 t) := by
  rw [← after10 m c t]
theorem leaves11 (c : Dev nD) (t : Fin cfg0.N) :
    (dats m 0 c).leavesExact 11 t = owns (c : Thread nD τ) (ms11 t) fullShare (iblk m c 11 t) := by
  rw [← after11 m c t]
theorem leaves12 (c : Dev nD) (t : Fin cfg0.N) :
    (dats m 0 c).leavesExact 12 t = owns (c : Thread nD τ) (ms12 t) fullShare (iblk m c 12 t) := by
  rw [← after12 m c t]
theorem leaves13 (c : Dev nD) (t : Fin cfg0.N) :
    (dats m 0 c).leavesExact 13 t = owns (c : Thread nD τ) (ms13 t) fullShare (iblk m c 13 t) := by
  rw [← after13 m c t]
theorem leaves14 (c : Dev nD) (t : Fin cfg0.N) :
    (dats m 0 c).leavesExact 14 t = owns (c : Thread nD τ) (ms14 t) fullShare (iblk m c 14 t) := by
  rw [← after14 m c t]
theorem leaves15 (c : Dev nD) (t : Fin cfg0.N) :
    (dats m 0 c).leavesExact 15 t = owns (c : Thread nD τ) (ms15 t) fullShare (iblk m c 15 t) := by
  rw [← after15 m c t]
theorem leaves16 (c : Dev nD) (t : Fin cfg0.N) :
    (dats m 0 c).leavesExact 16 t = owns (c : Thread nD τ) (ms16 t) fullShare (iblk m c 16 t) := by
  rw [← after16 m c t]
theorem leaves17 (c : Dev nD) (t : Fin cfg0.N) :
    (dats m 0 c).leavesExact 17 t = owns (c : Thread nD τ) (ms17 t) fullShare (iblk m c 17 t) := by
  rw [← after17 m c t]

set_option maxHeartbeats 32000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t, leaves14 m c t, leaves15 m c t, leaves16 m c t, leaves17 m c t]
  have hN : t.val < 128 := lt_of_lt_of_eq t.isLt (show cfg0.N = 128 from N_0)
  by_cases h0 : t.val % 4 = 0
  · have h1 : ¬t.val % 4 = 3 := by omega
    rw [Dat.leavesExact_idle (dats m 0 c) 18 t (idleAt18 t (fun h => h1 ((hcond1 t).mp h))) (noFlush18 t (fun h => h1 ((hcond1 t).mp h)))]
    rw [outsAt_A m c t h0 h1]
    unfold soutA_at sout_A; (try dsimp only)
    by_cases hz : t.val = 0
    ·
      rw [PhiS_castSucc m c t, PhiS_zero m c _ _ hz, scopedRest_eq]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexact HS
      iintro ⟨H0, H1, H2, H3, H4, H5, H6, H7, H8, H9, H10, H11, H12, H13, H14, H15, H16, H17, H18, ⟨%es, HS⟩⟩
      isplitl [HS]
      · unfold owns; iexists _; isplitr
        swap; · iexact HS
        ipureintro; exact View.read_writes_of_cover _ _ _ _ _ (scover_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
    ·
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexists _; iexact HS
      iintro ⟨H0, H1, H2, H3, H4, H5, H6, H7, H8, H9, H10, H11, H12, H13, H14, H15, H16, H17, H18, ⟨%es, HS⟩⟩
      isplitl [HS]
      · unfold owns; iexists _; isplitr
        swap; · iexact HS
        ipureintro; exact View.read_writes_of_cover _ _ _ _ _ (scover_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
  · have hz : t.val ≠ 0 := fun e => h0 (by rw [e])
    by_cases h1 : t.val % 4 = 3
    · rw [show (dats m 0 c).leavesExact 18 t = owns (c : Thread nD τ) (ms18 t) fullShare ((dats m 0 c).after 18 t) from by
        unfold Dat.leavesExact; rw [liveAt18 t ((hcond1 t).mpr h1)], after18]
      rw [outsAt_C m c t h0 h1]
      unfold outC_at soutC_at out_C sout_C; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS]; · iexact HS
      iintro ⟨H0, H1, H2, H3, H4, H5, H6, H7, H8, H9, H10, H11, H12, H13, H14, H15, H16, H17, ⟨%e18, H18⟩, ⟨%es, HS⟩⟩
      isplitl [HS]
      · unfold owns; iexists _; isplitr
        swap; · iexact HS
        ipureintro; exact View.read_writes_of_cover _ _ _ _ _ (scover_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2)
    · rw [Dat.leavesExact_idle (dats m 0 c) 18 t (idleAt18 t (fun h => h1 ((hcond1 t).mp h))) (noFlush18 t (fun h => h1 ((hcond1 t).mp h)))]
      rw [outsAt_B m c t h0 h1]
      unfold soutB_at sout_B; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexact HS
      iintro ⟨H0, H1, H2, H3, H4, H5, H6, H7, H8, H9, H10, H11, H12, H13, H14, H15, H16, H17, H18, ⟨%es, HS⟩⟩
      isplitl [HS]
      · unfold owns; iexists _; isplitr
        swap; · iexact HS
        ipureintro; exact View.read_writes_of_cover _ _ _ _ _ (scover_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives the scoped rest back: the scratch's named contents are forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_eq]
  iintro HS
  iexists _; iexact HS

end Cert.Kernel.Hand

end
-- ==== Proof.FrameK.Run.lean ====
/-
  The run of the message-passing kernel's whole program, and its frame. The feature array is handed to the kernel
  through two input windows (receiver rows and sender rows), and so is the phase array: each of the two arrays, held
  whole when the region is entered, is dealt to its two windows half and half. The host lines before the region write
  none of the fifteen argument arrays, so each ends as launched: a staged one because an input array is never written,
  the others because they bypass the region.
-/
import proofs.«119065_j24043226923414_1_alg».proof.Proof.FrameK.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- The distinct buffers behind the windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1) ∗ (((c : Thread nD τ).loc main_v2) ↦{fullShare} W main_v2) ∗ (((c : Thread nD τ).loc main_v8) ↦{fullShare} W main_v8) ∗ (((c : Thread nD τ).loc main_arg3) ↦{fullShare} W main_arg3) ∗ (((c : Thread nD τ).loc main_arg4) ↦{fullShare} W main_arg4) ∗ (((c : Thread nD τ).loc main_v9) ↦{fullShare} W main_v9) ∗ (((c : Thread nD τ).loc main_arg6) ↦{fullShare} W main_arg6) ∗ (((c : Thread nD τ).loc main_v10) ↦{fullShare} W main_v10) ∗ (((c : Thread nD τ).loc main_arg8) ↦{fullShare} W main_arg8) ∗ (((c : Thread nD τ).loc main_v11) ↦{fullShare} W main_v11) ∗ (((c : Thread nD τ).loc main_arg10) ↦{fullShare} W main_arg10) ∗ (((c : Thread nD τ).loc main_arg11) ↦{fullShare} W main_arg11) ∗ (((c : Thread nD τ).loc main_v12) ↦{fullShare} W main_v12) ∗ (((c : Thread nD τ).loc main_arg13) ↦{fullShare} W main_arg13) ∗ (((c : Thread nD τ).loc main_v13) ↦{fullShare} W main_v13) ∗ (((c : Thread nD τ).loc main_v14) ↦{fullShare} W main_v14)) := by
  unfold Pipeline.arrBufs
  exact bigSep_eq_bigSepL_of_eq [main_arg0, main_arg1, main_v2, main_v8, main_arg3, main_arg4, main_v9, main_arg6, main_v10, main_arg8, main_v11, main_arg10, main_arg11, main_v12, main_arg13, main_v13, main_v14] (by decide) (by decide) _

/-- One window's array, for any proof data whose entry contents are `W` of the window's array reference `ref`, held
    at the share `sh`: the buffer behind it at that share and those contents. -/
theorem arr_one (c : Dev nD) (dat : Dat τ (Elt F) Unit ℕ (UR sig nD τ) ℕ cfg0 c)
    (W : (b : Ref sig .tc) → Buf (Elt F) ((c : Thread nD τ).loc b)) (w : Fin cfg0.W) (ref : Ref sig .tc)
    (href : Pipeline.arrRef spec0 w = ref) (sh : PosShare TreeShare)
    (hA : dat.A w = W (Pipeline.arrRef spec0 w)) (hs : dat.share w = sh) :
    ((cfg0.win w).arr.view.loc (c : Thread nD τ) ↦[(cfg0.win w).arr.view.set]{dat.share w} dat.arrAt w 0 : sProp 𝕄)
      = (((c : Thread nD τ).loc ref) ↦{sh} W ref) := by
  subst href
  rw [(arr_whole0 w).set_eq_univ, hs, show dat.arrAt w 0 = dat.A w from rfl, hA]

theorem give0 (c : Dev nD) : (((c : Thread nD τ).loc main_arg0) ↦{fullShare.left} V m c main_arg0) ⊢ ((cfg0.win 0).arr.view.loc (c : Thread nD τ) ↦[(cfg0.win 0).arr.view.set]{(dats m 0 c).share 0} (dats m 0 c).arrAt 0 0 : sProp 𝕄) :=
  Entails.of_eq (arr_one c (dats m 0 c) (V m c) 0 main_arg0 rfl fullShare.left (A_eq m c 0) rfl).symm
theorem give1 (c : Dev nD) : (((c : Thread nD τ).loc main_arg0) ↦{fullShare.right} V m c main_arg0) ⊢ ((cfg0.win 1).arr.view.loc (c : Thread nD τ) ↦[(cfg0.win 1).arr.view.set]{(dats m 0 c).share 1} (dats m 0 c).arrAt 1 0 : sProp 𝕄) :=
  Entails.of_eq (arr_one c (dats m 0 c) (V m c) 1 main_arg0 rfl fullShare.right (A_eq m c 1) rfl).symm
theorem give2 (c : Dev nD) : (((c : Thread nD τ).loc main_arg1) ↦{fullShare.left} V m c main_arg1) ⊢ ((cfg0.win 2).arr.view.loc (c : Thread nD τ) ↦[(cfg0.win 2).arr.view.set]{(dats m 0 c).share 2} (dats m 0 c).arrAt 2 0 : sProp 𝕄) :=
  Entails.of_eq (arr_one c (dats m 0 c) (V m c) 2 main_arg1 rfl fullShare.left (A_eq m c 2) rfl).symm
theorem give3 (c : Dev nD) : (((c : Thread nD τ).loc main_arg1) ↦{fullShare.right} V m c main_arg1) ⊢ ((cfg0.win 3).arr.view.loc (c : Thread nD τ) ↦[(cfg0.win 3).arr.view.set]{(dats m 0 c).share 3} (dats m 0 c).arrAt 3 0 : sProp 𝕄) :=
  Entails.of_eq (arr_one c (dats m 0 c) (V m c) 3 main_arg1 rfl fullShare.right (A_eq m c 3) rfl).symm
theorem give4 (c : Dev nD) : (((c : Thread nD τ).loc main_v2) ↦{fullShare} V m c main_v2) ⊢ ((cfg0.win 4).arr.view.loc (c : Thread nD τ) ↦[(cfg0.win 4).arr.view.set]{(dats m 0 c).share 4} (dats m 0 c).arrAt 4 0 : sProp 𝕄) :=
  Entails.of_eq (arr_one c (dats m 0 c) (V m c) 4 main_v2 rfl fullShare (A_eq m c 4) rfl).symm
theorem give5 (c : Dev nD) : (((c : Thread nD τ).loc main_v8) ↦{fullShare} V m c main_v8) ⊢ ((cfg0.win 5).arr.view.loc (c : Thread nD τ) ↦[(cfg0.win 5).arr.view.set]{(dats m 0 c).share 5} (dats m 0 c).arrAt 5 0 : sProp 𝕄) :=
  Entails.of_eq (arr_one c (dats m 0 c) (V m c) 5 main_v8 rfl fullShare (A_eq m c 5) rfl).symm
theorem give6 (c : Dev nD) : (((c : Thread nD τ).loc main_arg3) ↦{fullShare} V m c main_arg3) ⊢ ((cfg0.win 6).arr.view.loc (c : Thread nD τ) ↦[(cfg0.win 6).arr.view.set]{(dats m 0 c).share 6} (dats m 0 c).arrAt 6 0 : sProp 𝕄) :=
  Entails.of_eq (arr_one c (dats m 0 c) (V m c) 6 main_arg3 rfl fullShare (A_eq m c 6) rfl).symm
theorem give7 (c : Dev nD) : (((c : Thread nD τ).loc main_arg4) ↦{fullShare} V m c main_arg4) ⊢ ((cfg0.win 7).arr.view.loc (c : Thread nD τ) ↦[(cfg0.win 7).arr.view.set]{(dats m 0 c).share 7} (dats m 0 c).arrAt 7 0 : sProp 𝕄) :=
  Entails.of_eq (arr_one c (dats m 0 c) (V m c) 7 main_arg4 rfl fullShare (A_eq m c 7) rfl).symm
theorem give8 (c : Dev nD) : (((c : Thread nD τ).loc main_v9) ↦{fullShare} V m c main_v9) ⊢ ((cfg0.win 8).arr.view.loc (c : Thread nD τ) ↦[(cfg0.win 8).arr.view.set]{(dats m 0 c).share 8} (dats m 0 c).arrAt 8 0 : sProp 𝕄) :=
  Entails.of_eq (arr_one c (dats m 0 c) (V m c) 8 main_v9 rfl fullShare (A_eq m c 8) rfl).symm
theorem give9 (c : Dev nD) : (((c : Thread nD τ).loc main_arg6) ↦{fullShare} V m c main_arg6) ⊢ ((cfg0.win 9).arr.view.loc (c : Thread nD τ) ↦[(cfg0.win 9).arr.view.set]{(dats m 0 c).share 9} (dats m 0 c).arrAt 9 0 : sProp 𝕄) :=
  Entails.of_eq (arr_one c (dats m 0 c) (V m c) 9 main_arg6 rfl fullShare (A_eq m c 9) rfl).symm
theorem give10 (c : Dev nD) : (((c : Thread nD τ).loc main_v10) ↦{fullShare} V m c main_v10) ⊢ ((cfg0.win 10).arr.view.loc (c : Thread nD τ) ↦[(cfg0.win 10).arr.view.set]{(dats m 0 c).share 10} (dats m 0 c).arrAt 10 0 : sProp 𝕄) :=
  Entails.of_eq (arr_one c (dats m 0 c) (V m c) 10 main_v10 rfl fullShare (A_eq m c 10) rfl).symm
theorem give11 (c : Dev nD) : (((c : Thread nD τ).loc main_arg8) ↦{fullShare} V m c main_arg8) ⊢ ((cfg0.win 11).arr.view.loc (c : Thread nD τ) ↦[(cfg0.win 11).arr.view.set]{(dats m 0 c).share 11} (dats m 0 c).arrAt 11 0 : sProp 𝕄) :=
  Entails.of_eq (arr_one c (dats m 0 c) (V m c) 11 main_arg8 rfl fullShare (A_eq m c 11) rfl).symm
theorem give12 (c : Dev nD) : (((c : Thread nD τ).loc main_v11) ↦{fullShare} V m c main_v11) ⊢ ((cfg0.win 12).arr.view.loc (c : Thread nD τ) ↦[(cfg0.win 12).arr.view.set]{(dats m 0 c).share 12} (dats m 0 c).arrAt 12 0 : sProp 𝕄) :=
  Entails.of_eq (arr_one c (dats m 0 c) (V m c) 12 main_v11 rfl fullShare (A_eq m c 12) rfl).symm
theorem give13 (c : Dev nD) : (((c : Thread nD τ).loc main_arg10) ↦{fullShare} V m c main_arg10) ⊢ ((cfg0.win 13).arr.view.loc (c : Thread nD τ) ↦[(cfg0.win 13).arr.view.set]{(dats m 0 c).share 13} (dats m 0 c).arrAt 13 0 : sProp 𝕄) :=
  Entails.of_eq (arr_one c (dats m 0 c) (V m c) 13 main_arg10 rfl fullShare (A_eq m c 13) rfl).symm
theorem give14 (c : Dev nD) : (((c : Thread nD τ).loc main_arg11) ↦{fullShare} V m c main_arg11) ⊢ ((cfg0.win 14).arr.view.loc (c : Thread nD τ) ↦[(cfg0.win 14).arr.view.set]{(dats m 0 c).share 14} (dats m 0 c).arrAt 14 0 : sProp 𝕄) :=
  Entails.of_eq (arr_one c (dats m 0 c) (V m c) 14 main_arg11 rfl fullShare (A_eq m c 14) rfl).symm
theorem give15 (c : Dev nD) : (((c : Thread nD τ).loc main_v12) ↦{fullShare} V m c main_v12) ⊢ ((cfg0.win 15).arr.view.loc (c : Thread nD τ) ↦[(cfg0.win 15).arr.view.set]{(dats m 0 c).share 15} (dats m 0 c).arrAt 15 0 : sProp 𝕄) :=
  Entails.of_eq (arr_one c (dats m 0 c) (V m c) 15 main_v12 rfl fullShare (A_eq m c 15) rfl).symm
theorem give16 (c : Dev nD) : (((c : Thread nD τ).loc main_arg13) ↦{fullShare} V m c main_arg13) ⊢ ((cfg0.win 16).arr.view.loc (c : Thread nD τ) ↦[(cfg0.win 16).arr.view.set]{(dats m 0 c).share 16} (dats m 0 c).arrAt 16 0 : sProp 𝕄) :=
  Entails.of_eq (arr_one c (dats m 0 c) (V m c) 16 main_arg13 rfl fullShare (A_eq m c 16) rfl).symm
theorem give17 (c : Dev nD) : (((c : Thread nD τ).loc main_v13) ↦{fullShare} V m c main_v13) ⊢ ((cfg0.win 17).arr.view.loc (c : Thread nD τ) ↦[(cfg0.win 17).arr.view.set]{(dats m 0 c).share 17} (dats m 0 c).arrAt 17 0 : sProp 𝕄) :=
  Entails.of_eq (arr_one c (dats m 0 c) (V m c) 17 main_v13 rfl fullShare (A_eq m c 17) rfl).symm
theorem give18 (c : Dev nD) : (((c : Thread nD τ).loc main_v14) ↦{fullShare} V m c main_v14) ⊢ ((cfg0.win 18).arr.view.loc (c : Thread nD τ) ↦[(cfg0.win 18).arr.view.set]{(dats m 0 c).share 18} (dats m 0 c).arrAt 18 0 : sProp 𝕄) :=
  Entails.of_eq (arr_one c (dats m 0 c) (V m c) 18 main_v14 rfl fullShare (A_eq m c 18) rfl).symm

set_option maxHeartbeats 4000000 in
/-- The feature array and the phase array are each split between their two windows; every other array goes whole to
    its one window. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  iintro ⟨G0, G1, G2, G3, G4, G5, G6, G7, G8, G9, G10, G11, G12, G13, G14, G15, G16⟩
  ihave G0' := (pointsTo_share (PosShare.mem_left_op_right fullShare)).1 $$ G0
  icases G0' with ⟨G0a, G0b⟩
  ihave G1' := (pointsTo_share (PosShare.mem_left_op_right fullShare)).1 $$ G1
  icases G1' with ⟨G1a, G1b⟩
  isplitl [G0a]; · iapply (give0 m c); iexact G0a
  isplitl [G0b]; · iapply (give1 m c); iexact G0b
  isplitl [G1a]; · iapply (give2 m c); iexact G1a
  isplitl [G1b]; · iapply (give3 m c); iexact G1b
  isplitl [G2]; · iapply (give4 m c); iexact G2
  isplitl [G3]; · iapply (give5 m c); iexact G3
  isplitl [G4]; · iapply (give6 m c); iexact G4
  isplitl [G5]; · iapply (give7 m c); iexact G5
  isplitl [G6]; · iapply (give8 m c); iexact G6
  isplitl [G7]; · iapply (give9 m c); iexact G7
  isplitl [G8]; · iapply (give10 m c); iexact G8
  isplitl [G9]; · iapply (give11 m c); iexact G9
  isplitl [G10]; · iapply (give12 m c); iexact G10
  isplitl [G11]; · iapply (give13 m c); iexact G11
  isplitl [G12]; · iapply (give14 m c); iexact G12
  isplitl [G13]; · iapply (give15 m c); iexact G13
  isplitl [G14]; · iapply (give16 m c); iexact G14
  isplitl [G15]; · iapply (give17 m c); iexact G15
  iapply (give18 m c); iexact G16

/-! ## The argument arrays as the region finds them -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The run and the frame -/

set_option backward.isDefEq.respectTransparency.types false in
/-- At the compiled mesh, for any values, from any memory with zero counters: every weakly fair execution of the
    program terminates, and every final state has every windowed array at what the proof data compute and every
    other unscoped buffer as the region found it. -/
theorem run_main : θ_run defs (onTc (τ := τ) (main (F := F))) ⟨m, fun _ => 0, ρ⟩ (Pipeline.FramePost cfgs (dats m) 0 (V m)) :=
  Pipeline.SharedFrame.θ_run_frame_track_shared cfgs (dats m) (0 : Fin 1) defs₀ Variants.none
    cellOf_inj winFacts₀0 block_pos0 arr_whole0 stage_whole0 m ρ main
    (fun c => (body_obligation m c).loose) (fun _ _ => rfl) (V m) (hmain m Variants.none) (hsplit m) (hin m) (hout m)

/-- The frame: the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).1 7).trans (((dats m 0 c).arrAt_in 7 rfl _).trans ((A_eq m c 7).trans (V_main_arg4 m c))),
      ((h c).2 main_arg5 (Pipeline.mem_restRefs_of main_arg5 (by decide) (by decide))).trans (V_main_arg5 m c),
      ((h c).1 9).trans (((dats m 0 c).arrAt_in 9 rfl _).trans ((A_eq m c 9).trans (V_main_arg6 m c))),
      ((h c).2 main_arg7 (Pipeline.mem_restRefs_of main_arg7 (by decide) (by decide))).trans (V_main_arg7 m c),
      ((h c).1 11).trans (((dats m 0 c).arrAt_in 11 rfl _).trans ((A_eq m c 11).trans (V_main_arg8 m c))),
      ((h c).2 main_arg9 (Pipeline.mem_restRefs_of main_arg9 (by decide) (by decide))).trans (V_main_arg9 m c),
      ((h c).1 13).trans (((dats m 0 c).arrAt_in 13 rfl _).trans ((A_eq m c 13).trans (V_main_arg10 m c))),
      ((h c).1 14).trans (((dats m 0 c).arrAt_in 14 rfl _).trans ((A_eq m c 14).trans (V_main_arg11 m c))),
      ((h c).2 main_arg12 (Pipeline.mem_restRefs_of main_arg12 (by decide) (by decide))).trans (V_main_arg12 m c),
      ((h c).1 16).trans (((dats m 0 c).arrAt_in 16 rfl _).trans ((A_eq m c 16).trans (V_main_arg13 m c))),
      ((h c).2 main_arg14 (Pipeline.mem_restRefs_of main_arg14 (by decide) (by decide))).trans (V_main_arg14 m c)⟩) (run_main m ρ)

end Cert.Kernel.Hand

end
-- ==== Proof.FrameKI.Common.lean ====
/-
  What the frame of the message-passing kernel's program shares between its parts: the buffers' contents when the
  region is entered (after the host lines that build the neighbour mask, the reciprocal counts and the bias rows), the
  program's shape up to the region, each window's block at a grid point, that an input window's staging buffer holds
  its block at every point whether or not it was fetched there, the two conditions of the body (first sender tile,
  last sender tile) in closed form over the grid, where the output window is idle, and the staging and scratch
  buffers as the body is handed them.
-/
import proofs.«119065_j24043226923414_1_alg».proof.Proof.Gen.KernelIdeal.Launch
import proofs.«119065_j24043226923414_1_alg».proof.Proof.Gen.KernelIdeal.Skeleton
import proofs.«119065_j24043226923414_1_alg».proof.Proof.Gen.KernelIdeal.Points
import proofs.«119065_j24043226923414_1_alg».proof.Proof.LibSharedFrame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s TensorCore buffers when the region is entered: the launch contents after the host lines. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is its host lines, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's staging buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's staging buffer holds its block at every point, fetched there or not. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's staging buffer holds its block at every point, fetched there or not. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's staging buffer holds its block at every point, fetched there or not. -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input window 17's staging buffer holds its block at every point, fetched there or not. -/
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "This is the first sender tile": the condition of the body's first conditional. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- "This is the last sender tile": the condition of the body's second conditional. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the output window is idle -/

theorem idleAt18 : ∀ t : Fin cfg0.N, ¬cond1 (grid0.coords t) → cfg0.idle 18 (grid0.coords t) = true := by decide +kernel
theorem noFlush18 : ∀ t : Fin cfg0.N, ¬cond1 (grid0.coords t) → (cfg0.win 18).flush t = false := by decide +kernel
theorem liveAt18 : ∀ t : Fin cfg0.N, cond1 (grid0.coords t) → cfg0.idle 18 (grid0.coords t) = false := by decide +kernel

/-! ## The staging and scratch buffers as the body is handed them -/

abbrev ms0 (t : Fin cfg0.N) : Memref sig .tc .vmem S1x32x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x4 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x4 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S4x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S128x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x128 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x32x128 .f32 := win0_18.stage (cfg0.slots t 18)
abbrev hs18 (t : Fin cfg0.N) : (ms18 t).IsWhole := hstage0_18 ((cfg0.slots t 18).cast nbuf0_18)
/-- The accumulator scratch, a whole scoped buffer of the kernel's own. -/
abbrev scM : Memref sig .tc .vmem S32x128 .f32 := Memref.whole cc0_scratch0
/-- The scratch as a view: what it holds is stated through it. -/
abbrev VS : View sig .tc .vmem S32x128 .f32 := (scM : Memref sig .tc .vmem S32x128 .f32).view
/-- One staging buffer of the output window, through which its contents are stated. -/
abbrev VO : View sig .tc .vmem S1x32x128 .f32 := (Memref.whole cc0_stg18_0 : Memref sig .tc .vmem S1x32x128 .f32).view

/-- The kernel's scoped rest is its scratch, owned at some contents. -/
theorem scopedRest_eq (c : Dev nD) :
    (Pipeline.scopedRest spec0 c : sProp 𝕄) = iprop(∃ d, owns (c : Thread nD τ) scM fullShare d) := by
  rw [scopedRest0_eq]; simp only [scM, owns_whole]; try rfl

end Cert.KernelIdeal.Hand

end
-- ==== Proof.FrameKI.RunA.lean ====
/-
  The kernel body run once at a first sender tile (the accumulator is reset, then the tile's sum is added; the output window is left untouched): on whole staging buffers holding the
  input blocks, the body runs to its end holding the inputs as they were, with the stores it made into the scratch
  (and the output window) recorded as the pieces written, last first.
-/
import proofs.«119065_j24043226923414_1_alg».proof.Proof.FrameKI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run in this case, and the pieces its stores leave. -/
noncomputable def kernelRun_A (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) :
    Σ' (L18 : List (View.Piece (Elt F) S1x32x128 .f32)), { LS : List (View.Piece (Elt F) S32x128 .f32) //
      ∀ (xi18 : Vec F S1x32x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi18 ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi18 ∗ (∃ f, arg22.view.loc (c : Thread nD τ) ↦[arg22.view.set]{fullShare} arg22.view.writes (Elt F) f LS)) -∗ K ⟨⟩))
          ⊢ wp frame (wpE (defs₀ (F := F)) Variants.none c none) E (cc0__mp_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, fun xi18 E K => ?run⟩
  case run =>
    simp only [cc0__mp_kernel_eq_skeleton]; unfold cc0__mp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    iexists _; iexact HS

end Cert.KernelIdeal.Hand

end
-- ==== Proof.FrameKI.RunB.lean ====
/-
  The kernel body run once at a middle sender tile (the tile's sum is added to the accumulator; the output window is left untouched): on whole staging buffers holding the
  input blocks, the body runs to its end holding the inputs as they were, with the stores it made into the scratch
  (and the output window) recorded as the pieces written, last first.
-/
import proofs.«119065_j24043226923414_1_alg».proof.Proof.FrameKI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run in this case, and the pieces its stores leave. -/
noncomputable def kernelRun_B (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) :
    Σ' (L18 : List (View.Piece (Elt F) S1x32x128 .f32)), { LS : List (View.Piece (Elt F) S32x128 .f32) //
      ∀ (xi18 : Vec F S1x32x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi18 ∗ owns (c : Thread nD τ) arg22 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi18 ∗ (∃ f, arg22.view.loc (c : Thread nD τ) ↦[arg22.view.set]{fullShare} arg22.view.writes (Elt F) f LS)) -∗ K ⟨⟩))
          ⊢ wp frame (wpE (defs₀ (F := F)) Variants.none c none) E (cc0__mp_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, fun xi18 E K => ?run⟩
  case run =>
    simp only [cc0__mp_kernel_eq_skeleton]; unfold cc0__mp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    iexists _; iexact HS

end Cert.KernelIdeal.Hand

end
-- ==== Proof.FrameKI.RunC.lean ====
/-
  The kernel body run once at a last sender tile (the tile's sum is added to the accumulator, and the updated rows are stored to the output window): on whole staging buffers holding the
  input blocks, the body runs to its end holding the inputs as they were, with the stores it made into the scratch
  (and the output window) recorded as the pieces written, last first.
-/
import proofs.«119065_j24043226923414_1_alg».proof.Proof.FrameKI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run in this case, and the pieces its stores leave. -/
noncomputable def kernelRun_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) :
    Σ' (L18 : List (View.Piece (Elt F) S1x32x128 .f32)), { LS : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ (∃ d, owns (c : Thread nD τ) arg21 fullShare d) ∗ owns (c : Thread nD τ) arg22 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ (∃ f, arg21.view.loc (c : Thread nD τ) ↦[arg21.view.set]{fullShare} arg21.view.writes (Elt F) f L18) ∗ (∃ f, arg22.view.loc (c : Thread nD τ) ↦[arg22.view.set]{fullShare} arg22.view.writes (Elt F) f LS)) -∗ K ⟨⟩))
          ⊢ wp frame (wpE (defs₀ (F := F)) Variants.none c none) E (cc0__mp_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, fun E K => ?run⟩
  case run =>
    simp only [cc0__mp_kernel_eq_skeleton]; unfold cc0__mp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg22.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]; · iexists _; iexact H18
    iexists _; iexact HS

end Cert.KernelIdeal.Hand

end
-- ==== Proof.FrameKI.Data.lean ====
/-
  The frame of the message-passing kernel's program: what each case of the body leaves in the accumulator scratch and
  in the output window (the pieces its stores wrote, read back), what they hold point by point over the grid (the
  accumulator reset at each first sender tile and added to at every tile; the output window written at each last
  sender tile and otherwise untouched), the region's invariant (the scratch at what the point before left), the proof
  data, the body obligation at every point, how the two feature and the two phase windows share their arrays, and
  the run of the whole program.
-/
import proofs.«119065_j24043226923414_1_alg».proof.Proof.FrameKI.RunC
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces case A wrote into the scratch cover it. -/
theorem scover_A (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32)  (y : S32x128.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17).2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17).2.1 S32x128.size (by sl_kernel_rfl) y

/-- What case A leaves in the scratch: its pieces read back. -/
def sout_A (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32)  : Vec F S32x128 .f32 :=
  VS.read (Elt F) (VS.writes (Elt F) VS.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17).2.1)

/-- The pieces case B wrote into the scratch cover it. -/
theorem scover_B (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) (y : S32x128.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1 S32x128.size (by sl_kernel_rfl) y

/-- What case B leaves in the scratch: its pieces read back. -/
def sout_B (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) : Vec F S32x128 .f32 :=
  VS.read (Elt F) (VS.writes (Elt F) VS.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1)

/-- The pieces case C wrote into the scratch cover it. -/
theorem scover_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) (y : S32x128.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1 S32x128.size (by sl_kernel_rfl) y

/-- What case C leaves in the scratch: its pieces read back. -/
def sout_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) : Vec F S32x128 .f32 :=
  VS.read (Elt F) (VS.writes (Elt F) VS.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).2.1)

/-- The pieces case C wrote into the output window cover its block. -/
theorem cover_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) (y : S1x32x128.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).1 S1x32x128.size (by sl_kernel_rfl) y

/-- What case C leaves in the output window's staging buffer: its pieces read back. -/
def out_C (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) : Vec F S1x32x128 .f32 :=
  VO.read (Elt F) (VO.writes (Elt F) VO.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs).1)

/-- A placeholder for the output window at the points where it is idle: nothing consults it. -/
def idleOut : Vec F S1x32x128 .f32 := VO.read (Elt F) VO.junk

/-! ## The cases at a grid point -/

/-- Case A's scratch at point `t` (a first sender tile). -/
def soutA_at (c : Dev nD) (t : Fin cfg0.N) (h0 : t.val % 4 = 0) (h1 : ¬t.val % 4 = 3) : Vec F S32x128 .f32 :=
  sout_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
/-- Case B's scratch at point `t`, over what the point before left. -/
def soutB_at (c : Dev nD) (t : Fin cfg0.N) (h0 : ¬t.val % 4 = 0) (h1 : ¬t.val % 4 = 3) (xs : Vec F S32x128 .f32) : Vec F S32x128 .f32 :=
  sout_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs
/-- Case C's scratch at point `t`, over what the point before left. -/
def soutC_at (c : Dev nD) (t : Fin cfg0.N) (h0 : ¬t.val % 4 = 0) (h1 : t.val % 4 = 3) (xs : Vec F S32x128 .f32) : Vec F S32x128 .f32 :=
  sout_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs
/-- Case C's output block at point `t`, over what the point before left in the scratch. -/
def outC_at (c : Dev nD) (t : Fin cfg0.N) (h0 : ¬t.val % 4 = 0) (h1 : t.val % 4 = 3) (xs : Vec F S32x128 .f32) : Vec F S1x32x128 .f32 :=
  out_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs

/-! ## What the output window and the scratch hold after each point -/

/-- The accumulation: the output window's staging buffer and the scratch after the body at position `n`. -/
def outsAt (c : Dev nD) : (n : ℕ) → n < cfg0.N → Vec F S1x32x128 .f32 × Vec F S32x128 .f32
  | 0, hn => (idleOut, soutA_at m c ⟨0, hn⟩ (Nat.zero_mod _) (by show ¬0 % 4 = 3; decide))
  | n + 1, hn =>
    if h0 : (n + 1) % 4 = 0 then
      if h1 : (n + 1) % 4 = 3 then False.elim (by omega)
      else (idleOut, soutA_at m c ⟨n + 1, hn⟩ h0 h1)
    else
      if h1 : (n + 1) % 4 = 3 then
        (outC_at m c ⟨n + 1, hn⟩ h0 h1 (outsAt c n (Nat.lt_of_succ_lt hn)).2, soutC_at m c ⟨n + 1, hn⟩ h0 h1 (outsAt c n (Nat.lt_of_succ_lt hn)).2)
      else (idleOut, soutB_at m c ⟨n + 1, hn⟩ h0 h1 (outsAt c n (Nat.lt_of_succ_lt hn)).2)

theorem outsAt_A (c : Dev nD) (t : Fin cfg0.N) (h0 : t.val % 4 = 0) (h1 : ¬t.val % 4 = 3) :
    outsAt m c t.val t.isLt = (idleOut, soutA_at m c t h0 h1) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt m c t.val t.isLt = (idleOut, soutB_at m c t h0 h1 (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 4 = 0) (h1 : t.val % 4 = 3) :
    outsAt m c t.val t.isLt = (outC_at m c t h0 h1 (outsAt m c (t.val - 1) (Nat.lt_of_le_of_lt (Nat.sub_le _ _) t.isLt)).2,
      soutC_at m c t h0 h1 (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position `n`: at the first point the kernel's scoped rest (the scratch at anything); afterwards the
    scratch at what the point before left in it. -/
def PhiS (c : Dev nD) : (n : ℕ) → n ≤ cfg0.N → sProp 𝕄
  | 0, _ => Pipeline.scopedRest spec0 c
  | n + 1, hn => owns (c : Thread nD τ) scM fullShare ((outsAt m c n hn).2)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM fullShare ((outsAt m c n hn).2) := rfl
theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The proof data of the one pipeline on core `c`: the arrays as the region finds them; after the body each input's
    buffer at its block and the output's at `outsAt`; the invariant `PhiS`; nothing owed; the two windows on the
    feature array hold half of it each, as do the two on the phase array, every other window its whole array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt m c t.val t.isLt).1
    | ⟨_ + 19, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨_ + 19, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d
theorem before17 (c : Dev nD) (t : Fin cfg0.N) (d) : (dats m 0 c).before 17 t d = iblk m c 17 t :=
  before17_of m (dats m 0 c) (A_eq m c 17) (after17 m c) t d

end Cert.KernelIdeal.Hand

end
-- ==== Proof.FrameKI.Body.lean ====
/-
  The body obligation of the message-passing kernel at every grid point: the input windows' buffers hold their blocks;
  the point's position among the four sender tiles says which case the body is in; the case's run applies, taking
  the scratch at what the point before left (at anything at the very first point) and giving it back at this point's
  contents; at a last sender tile the output window's buffer is left at the updated rows, elsewhere it is handed
  back untouched.
-/
import proofs.«119065_j24043226923414_1_alg».proof.Proof.FrameKI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (iblk m c 2 t) := by
  rw [← after2 m c t]
theorem leaves3 (c : Dev nD) (t : Fin cfg0.N) :
    (dats m 0 c).leavesExact 3 t = owns (c : Thread nD τ) (ms3 t) fullShare (iblk m c 3 t) := by
  rw [← after3 m c t]
theorem leaves4 (c : Dev nD) (t : Fin cfg0.N) :
    (dats m 0 c).leavesExact 4 t = owns (c : Thread nD τ) (ms4 t) fullShare (iblk m c 4 t) := by
  rw [← after4 m c t]
theorem leaves5 (c : Dev nD) (t : Fin cfg0.N) :
    (dats m 0 c).leavesExact 5 t = owns (c : Thread nD τ) (ms5 t) fullShare (iblk m c 5 t) := by
  rw [← after5 m c t]
theorem leaves6 (c : Dev nD) (t : Fin cfg0.N) :
    (dats m 0 c).leavesExact 6 t = owns (c : Thread nD τ) (ms6 t) fullShare (iblk m c 6 t) := by
  rw [← after6 m c t]
theorem leaves7 (c : Dev nD) (t : Fin cfg0.N) :
    (dats m 0 c).leavesExact 7 t = owns (c : Thread nD τ) (ms7 t) fullShare (iblk m c 7 t) := by
  rw [← after7 m c t]
theorem leaves8 (c : Dev nD) (t : Fin cfg0.N) :
    (dats m 0 c).leavesExact 8 t = owns (c : Thread nD τ) (ms8 t) fullShare (iblk m c 8 t) := by
  rw [← after8 m c t]
theorem leaves9 (c : Dev nD) (t : Fin cfg0.N) :
    (dats m 0 c).leavesExact 9 t = owns (c : Thread nD τ) (ms9 t) fullShare (iblk m c 9 t) := by
  rw [← after9 m c t]
theorem leaves10 (c : Dev nD) (t : Fin cfg0.N) :
    (dats m 0 c).leavesExact 10 t = owns (c : Thread nD τ) (ms10 t) fullShare (iblk m c 10 t) := by
  rw [← after10 m c t]
theorem leaves11 (c : Dev nD) (t : Fin cfg0.N) :
    (dats m 0 c).leavesExact 11 t = owns (c : Thread nD τ) (ms11 t) fullShare (iblk m c 11 t) := by
  rw [← after11 m c t]
theorem leaves12 (c : Dev nD) (t : Fin cfg0.N) :
    (dats m 0 c).leavesExact 12 t = owns (c : Thread nD τ) (ms12 t) fullShare (iblk m c 12 t) := by
  rw [← after12 m c t]
theorem leaves13 (c : Dev nD) (t : Fin cfg0.N) :
    (dats m 0 c).leavesExact 13 t = owns (c : Thread nD τ) (ms13 t) fullShare (iblk m c 13 t) := by
  rw [← after13 m c t]
theorem leaves14 (c : Dev nD) (t : Fin cfg0.N) :
    (dats m 0 c).leavesExact 14 t = owns (c : Thread nD τ) (ms14 t) fullShare (iblk m c 14 t) := by
  rw [← after14 m c t]
theorem leaves15 (c : Dev nD) (t : Fin cfg0.N) :
    (dats m 0 c).leavesExact 15 t = owns (c : Thread nD τ) (ms15 t) fullShare (iblk m c 15 t) := by
  rw [← after15 m c t]
theorem leaves16 (c : Dev nD) (t : Fin cfg0.N) :
    (dats m 0 c).leavesExact 16 t = owns (c : Thread nD τ) (ms16 t) fullShare (iblk m c 16 t) := by
  rw [← after16 m c t]
theorem leaves17 (c : Dev nD) (t : Fin cfg0.N) :
    (dats m 0 c).leavesExact 17 t = owns (c : Thread nD τ) (ms17 t) fullShare (iblk m c 17 t) := by
  rw [← after17 m c t]

set_option maxHeartbeats 32000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t, leaves14 m c t, leaves15 m c t, leaves16 m c t, leaves17 m c t]
  have hN : t.val < 128 := lt_of_lt_of_eq t.isLt (show cfg0.N = 128 from N_0)
  by_cases h0 : t.val % 4 = 0
  · have h1 : ¬t.val % 4 = 3 := by omega
    rw [Dat.leavesExact_idle (dats m 0 c) 18 t (idleAt18 t (fun h => h1 ((hcond1 t).mp h))) (noFlush18 t (fun h => h1 ((hcond1 t).mp h)))]
    rw [outsAt_A m c t h0 h1]
    unfold soutA_at sout_A; (try dsimp only)
    by_cases hz : t.val = 0
    ·
      rw [PhiS_castSucc m c t, PhiS_zero m c _ _ hz, scopedRest_eq]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexact HS
      iintro ⟨H0, H1, H2, H3, H4, H5, H6, H7, H8, H9, H10, H11, H12, H13, H14, H15, H16, H17, H18, ⟨%es, HS⟩⟩
      isplitl [HS]
      · unfold owns; iexists _; isplitr
        swap; · iexact HS
        ipureintro; exact View.read_writes_of_cover _ _ _ _ _ (scover_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
    ·
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexists _; iexact HS
      iintro ⟨H0, H1, H2, H3, H4, H5, H6, H7, H8, H9, H10, H11, H12, H13, H14, H15, H16, H17, H18, ⟨%es, HS⟩⟩
      isplitl [HS]
      · unfold owns; iexists _; isplitr
        swap; · iexact HS
        ipureintro; exact View.read_writes_of_cover _ _ _ _ _ (scover_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
  · have hz : t.val ≠ 0 := fun e => h0 (by rw [e])
    by_cases h1 : t.val % 4 = 3
    · rw [show (dats m 0 c).leavesExact 18 t = owns (c : Thread nD τ) (ms18 t) fullShare ((dats m 0 c).after 18 t) from by
        unfold Dat.leavesExact; rw [liveAt18 t ((hcond1 t).mpr h1)], after18]
      rw [outsAt_C m c t h0 h1]
      unfold outC_at soutC_at out_C sout_C; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS]; · iexact HS
      iintro ⟨H0, H1, H2, H3, H4, H5, H6, H7, H8, H9, H10, H11, H12, H13, H14, H15, H16, H17, ⟨%e18, H18⟩, ⟨%es, HS⟩⟩
      isplitl [HS]
      · unfold owns; iexists _; isplitr
        swap; · iexact HS
        ipureintro; exact View.read_writes_of_cover _ _ _ _ _ (scover_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2)
    · rw [Dat.leavesExact_idle (dats m 0 c) 18 t (idleAt18 t (fun h => h1 ((hcond1 t).mp h))) (noFlush18 t (fun h => h1 ((hcond1 t).mp h)))]
      rw [outsAt_B m c t h0 h1]
      unfold soutB_at sout_B; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexact HS
      iintro ⟨H0, H1, H2, H3, H4, H5, H6, H7, H8, H9, H10, H11, H12, H13, H14, H15, H16, H17, H18, ⟨%es, HS⟩⟩
      isplitl [HS]
      · unfold owns; iexists _; isplitr
        swap; · iexact HS
        ipureintro; exact View.read_writes_of_cover _ _ _ _ _ (scover_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt m c (t.val - 1) (Nat.lt_of_le_of_lt (Nat.sub_le _ _) t.isLt)).2)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives the scoped rest back: the scratch's named contents are forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_eq]
  iintro HS
  iexists _; iexact HS

end Cert.KernelIdeal.Hand

end
-- ==== Proof.FrameKI.Run.lean ====
/-
  The run of the message-passing kernel's whole program, and its frame. The feature array is handed to the kernel
  through two input windows (receiver rows and sender rows), and so is the phase array: each of the two arrays, held
  whole when the region is entered, is dealt to its two windows half and half. The host lines before the region write
  none of the fifteen argument arrays, so each ends as launched: a staged one because an input array is never written,
  the others because they bypass the region.
-/
import proofs.«119065_j24043226923414_1_alg».proof.Proof.FrameKI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- The distinct buffers behind the windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1) ∗ (((c : Thread nD τ).loc main_v2) ↦{fullShare} W main_v2) ∗ (((c : Thread nD τ).loc main_v8) ↦{fullShare} W main_v8) ∗ (((c : Thread nD τ).loc main_arg3) ↦{fullShare} W main_arg3) ∗ (((c : Thread nD τ).loc main_arg4) ↦{fullShare} W main_arg4) ∗ (((c : Thread nD τ).loc main_v9) ↦{fullShare} W main_v9) ∗ (((c : Thread nD τ).loc main_arg6) ↦{fullShare} W main_arg6) ∗ (((c : Thread nD τ).loc main_v10) ↦{fullShare} W main_v10) ∗ (((c : Thread nD τ).loc main_arg8) ↦{fullShare} W main_arg8) ∗ (((c : Thread nD τ).loc main_v11) ↦{fullShare} W main_v11) ∗ (((c : Thread nD τ).loc main_arg10) ↦{fullShare} W main_arg10) ∗ (((c : Thread nD τ).loc main_arg11) ↦{fullShare} W main_arg11) ∗ (((c : Thread nD τ).loc main_v12) ↦{fullShare} W main_v12) ∗ (((c : Thread nD τ).loc main_arg13) ↦{fullShare} W main_arg13) ∗ (((c : Thread nD τ).loc main_v13) ↦{fullShare} W main_v13) ∗ (((c : Thread nD τ).loc main_v14) ↦{fullShare} W main_v14)) := by
  unfold Pipeline.arrBufs
  exact bigSep_eq_bigSepL_of_eq [main_arg0, main_arg1, main_v2, main_v8, main_arg3, main_arg4, main_v9, main_arg6, main_v10, main_arg8, main_v11, main_arg10, main_arg11, main_v12, main_arg13, main_v13, main_v14] (by decide) (by decide) _

/-- One window's array, for any proof data whose entry contents are `W` of the window's array reference `ref`, held
    at the share `sh`: the buffer behind it at that share and those contents. -/
theorem arr_one (c : Dev nD) (dat : Dat τ (Elt F) Unit ℕ (UR sig nD τ) ℕ cfg0 c)
    (W : (b : Ref sig .tc) → Buf (Elt F) ((c : Thread nD τ).loc b)) (w : Fin cfg0.W) (ref : Ref sig .tc)
    (href : Pipeline.arrRef spec0 w = ref) (sh : PosShare TreeShare)
    (hA : dat.A w = W (Pipeline.arrRef spec0 w)) (hs : dat.share w = sh) :
    ((cfg0.win w).arr.view.loc (c : Thread nD τ) ↦[(cfg0.win w).arr.view.set]{dat.share w} dat.arrAt w 0 : sProp 𝕄)
      = (((c : Thread nD τ).loc ref) ↦{sh} W ref) := by
  subst href
  rw [(arr_whole0 w).set_eq_univ, hs, show dat.arrAt w 0 = dat.A w from rfl, hA]

theorem give0 (c : Dev nD) : (((c : Thread nD τ).loc main_arg0) ↦{fullShare.left} V m c main_arg0) ⊢ ((cfg0.win 0).arr.view.loc (c : Thread nD τ) ↦[(cfg0.win 0).arr.view.set]{(dats m 0 c).share 0} (dats m 0 c).arrAt 0 0 : sProp 𝕄) :=
  Entails.of_eq (arr_one c (dats m 0 c) (V m c) 0 main_arg0 rfl fullShare.left (A_eq m c 0) rfl).symm
theorem give1 (c : Dev nD) : (((c : Thread nD τ).loc main_arg0) ↦{fullShare.right} V m c main_arg0) ⊢ ((cfg0.win 1).arr.view.loc (c : Thread nD τ) ↦[(cfg0.win 1).arr.view.set]{(dats m 0 c).share 1} (dats m 0 c).arrAt 1 0 : sProp 𝕄) :=
  Entails.of_eq (arr_one c (dats m 0 c) (V m c) 1 main_arg0 rfl fullShare.right (A_eq m c 1) rfl).symm
theorem give2 (c : Dev nD) : (((c : Thread nD τ).loc main_arg1) ↦{fullShare.left} V m c main_arg1) ⊢ ((cfg0.win 2).arr.view.loc (c : Thread nD τ) ↦[(cfg0.win 2).arr.view.set]{(dats m 0 c).share 2} (dats m 0 c).arrAt 2 0 : sProp 𝕄) :=
  Entails.of_eq (arr_one c (dats m 0 c) (V m c) 2 main_arg1 rfl fullShare.left (A_eq m c 2) rfl).symm
theorem give3 (c : Dev nD) : (((c : Thread nD τ).loc main_arg1) ↦{fullShare.right} V m c main_arg1) ⊢ ((cfg0.win 3).arr.view.loc (c : Thread nD τ) ↦[(cfg0.win 3).arr.view.set]{(dats m 0 c).share 3} (dats m 0 c).arrAt 3 0 : sProp 𝕄) :=
  Entails.of_eq (arr_one c (dats m 0 c) (V m c) 3 main_arg1 rfl fullShare.right (A_eq m c 3) rfl).symm
theorem give4 (c : Dev nD) : (((c : Thread nD τ).loc main_v2) ↦{fullShare} V m c main_v2) ⊢ ((cfg0.win 4).arr.view.loc (c : Thread nD τ) ↦[(cfg0.win 4).arr.view.set]{(dats m 0 c).share 4} (dats m 0 c).arrAt 4 0 : sProp 𝕄) :=
  Entails.of_eq (arr_one c (dats m 0 c) (V m c) 4 main_v2 rfl fullShare (A_eq m c 4) rfl).symm
theorem give5 (c : Dev nD) : (((c : Thread nD τ).loc main_v8) ↦{fullShare} V m c main_v8) ⊢ ((cfg0.win 5).arr.view.loc (c : Thread nD τ) ↦[(cfg0.win 5).arr.view.set]{(dats m 0 c).share 5} (dats m 0 c).arrAt 5 0 : sProp 𝕄) :=
  Entails.of_eq (arr_one c (dats m 0 c) (V m c) 5 main_v8 rfl fullShare (A_eq m c 5) rfl).symm
theorem give6 (c : Dev nD) : (((c : Thread nD τ).loc main_arg3) ↦{fullShare} V m c main_arg3) ⊢ ((cfg0.win 6).arr.view.loc (c : Thread nD τ) ↦[(cfg0.win 6).arr.view.set]{(dats m 0 c).share 6} (dats m 0 c).arrAt 6 0 : sProp 𝕄) :=
  Entails.of_eq (arr_one c (dats m 0 c) (V m c) 6 main_arg3 rfl fullShare (A_eq m c 6) rfl).symm
theorem give7 (c : Dev nD) : (((c : Thread nD τ).loc main_arg4) ↦{fullShare} V m c main_arg4) ⊢ ((cfg0.win 7).arr.view.loc (c : Thread nD τ) ↦[(cfg0.win 7).arr.view.set]{(dats m 0 c).share 7} (dats m 0 c).arrAt 7 0 : sProp 𝕄) :=
  Entails.of_eq (arr_one c (dats m 0 c) (V m c) 7 main_arg4 rfl fullShare (A_eq m c 7) rfl).symm
theorem give8 (c : Dev nD) : (((c : Thread nD τ).loc main_v9) ↦{fullShare} V m c main_v9) ⊢ ((cfg0.win 8).arr.view.loc (c : Thread nD τ) ↦[(cfg0.win 8).arr.view.set]{(dats m 0 c).share 8} (dats m 0 c).arrAt 8 0 : sProp 𝕄) :=
  Entails.of_eq (arr_one c (dats m 0 c) (V m c) 8 main_v9 rfl fullShare (A_eq m c 8) rfl).symm
theorem give9 (c : Dev nD) : (((c : Thread nD τ).loc main_arg6) ↦{fullShare} V m c main_arg6) ⊢ ((cfg0.win 9).arr.view.loc (c : Thread nD τ) ↦[(cfg0.win 9).arr.view.set]{(dats m 0 c).share 9} (dats m 0 c).arrAt 9 0 : sProp 𝕄) :=
  Entails.of_eq (arr_one c (dats m 0 c) (V m c) 9 main_arg6 rfl fullShare (A_eq m c 9) rfl).symm
theorem give10 (c : Dev nD) : (((c : Thread nD τ).loc main_v10) ↦{fullShare} V m c main_v10) ⊢ ((cfg0.win 10).arr.view.loc (c : Thread nD τ) ↦[(cfg0.win 10).arr.view.set]{(dats m 0 c).share 10} (dats m 0 c).arrAt 10 0 : sProp 𝕄) :=
  Entails.of_eq (arr_one c (dats m 0 c) (V m c) 10 main_v10 rfl fullShare (A_eq m c 10) rfl).symm
theorem give11 (c : Dev nD) : (((c : Thread nD τ).loc main_arg8) ↦{fullShare} V m c main_arg8) ⊢ ((cfg0.win 11).arr.view.loc (c : Thread nD τ) ↦[(cfg0.win 11).arr.view.set]{(dats m 0 c).share 11} (dats m 0 c).arrAt 11 0 : sProp 𝕄) :=
  Entails.of_eq (arr_one c (dats m 0 c) (V m c) 11 main_arg8 rfl fullShare (A_eq m c 11) rfl).symm
theorem give12 (c : Dev nD) : (((c : Thread nD τ).loc main_v11) ↦{fullShare} V m c main_v11) ⊢ ((cfg0.win 12).arr.view.loc (c : Thread nD τ) ↦[(cfg0.win 12).arr.view.set]{(dats m 0 c).share 12} (dats m 0 c).arrAt 12 0 : sProp 𝕄) :=
  Entails.of_eq (arr_one c (dats m 0 c) (V m c) 12 main_v11 rfl fullShare (A_eq m c 12) rfl).symm
theorem give13 (c : Dev nD) : (((c : Thread nD τ).loc main_arg10) ↦{fullShare} V m c main_arg10) ⊢ ((cfg0.win 13).arr.view.loc (c : Thread nD τ) ↦[(cfg0.win 13).arr.view.set]{(dats m 0 c).share 13} (dats m 0 c).arrAt 13 0 : sProp 𝕄) :=
  Entails.of_eq (arr_one c (dats m 0 c) (V m c) 13 main_arg10 rfl fullShare (A_eq m c 13) rfl).symm
theorem give14 (c : Dev nD) : (((c : Thread nD τ).loc main_arg11) ↦{fullShare} V m c main_arg11) ⊢ ((cfg0.win 14).arr.view.loc (c : Thread nD τ) ↦[(cfg0.win 14).arr.view.set]{(dats m 0 c).share 14} (dats m 0 c).arrAt 14 0 : sProp 𝕄) :=
  Entails.of_eq (arr_one c (dats m 0 c) (V m c) 14 main_arg11 rfl fullShare (A_eq m c 14) rfl).symm
theorem give15 (c : Dev nD) : (((c : Thread nD τ).loc main_v12) ↦{fullShare} V m c main_v12) ⊢ ((cfg0.win 15).arr.view.loc (c : Thread nD τ) ↦[(cfg0.win 15).arr.view.set]{(dats m 0 c).share 15} (dats m 0 c).arrAt 15 0 : sProp 𝕄) :=
  Entails.of_eq (arr_one c (dats m 0 c) (V m c) 15 main_v12 rfl fullShare (A_eq m c 15) rfl).symm
theorem give16 (c : Dev nD) : (((c : Thread nD τ).loc main_arg13) ↦{fullShare} V m c main_arg13) ⊢ ((cfg0.win 16).arr.view.loc (c : Thread nD τ) ↦[(cfg0.win 16).arr.view.set]{(dats m 0 c).share 16} (dats m 0 c).arrAt 16 0 : sProp 𝕄) :=
  Entails.of_eq (arr_one c (dats m 0 c) (V m c) 16 main_arg13 rfl fullShare (A_eq m c 16) rfl).symm
theorem give17 (c : Dev nD) : (((c : Thread nD τ).loc main_v13) ↦{fullShare} V m c main_v13) ⊢ ((cfg0.win 17).arr.view.loc (c : Thread nD τ) ↦[(cfg0.win 17).arr.view.set]{(dats m 0 c).share 17} (dats m 0 c).arrAt 17 0 : sProp 𝕄) :=
  Entails.of_eq (arr_one c (dats m 0 c) (V m c) 17 main_v13 rfl fullShare (A_eq m c 17) rfl).symm
theorem give18 (c : Dev nD) : (((c : Thread nD τ).loc main_v14) ↦{fullShare} V m c main_v14) ⊢ ((cfg0.win 18).arr.view.loc (c : Thread nD τ) ↦[(cfg0.win 18).arr.view.set]{(dats m 0 c).share 18} (dats m 0 c).arrAt 18 0 : sProp 𝕄) :=
  Entails.of_eq (arr_one c (dats m 0 c) (V m c) 18 main_v14 rfl fullShare (A_eq m c 18) rfl).symm

set_option maxHeartbeats 4000000 in
/-- The feature array and the phase array are each split between their two windows; every other array goes whole to
    its one window. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  iintro ⟨G0, G1, G2, G3, G4, G5, G6, G7, G8, G9, G10, G11, G12, G13, G14, G15, G16⟩
  ihave G0' := (pointsTo_share (PosShare.mem_left_op_right fullShare)).1 $$ G0
  icases G0' with ⟨G0a, G0b⟩
  ihave G1' := (pointsTo_share (PosShare.mem_left_op_right fullShare)).1 $$ G1
  icases G1' with ⟨G1a, G1b⟩
  isplitl [G0a]; · iapply (give0 m c); iexact G0a
  isplitl [G0b]; · iapply (give1 m c); iexact G0b
  isplitl [G1a]; · iapply (give2 m c); iexact G1a
  isplitl [G1b]; · iapply (give3 m c); iexact G1b
  isplitl [G2]; · iapply (give4 m c); iexact G2
  isplitl [G3]; · iapply (give5 m c); iexact G3
  isplitl [G4]; · iapply (give6 m c); iexact G4
  isplitl [G5]; · iapply (give7 m c); iexact G5
  isplitl [G6]; · iapply (give8 m c); iexact G6
  isplitl [G7]; · iapply (give9 m c); iexact G7
  isplitl [G8]; · iapply (give10 m c); iexact G8
  isplitl [G9]; · iapply (give11 m c); iexact G9
  isplitl [G10]; · iapply (give12 m c); iexact G10
  isplitl [G11]; · iapply (give13 m c); iexact G11
  isplitl [G12]; · iapply (give14 m c); iexact G12
  isplitl [G13]; · iapply (give15 m c); iexact G13
  isplitl [G14]; · iapply (give16 m c); iexact G14
  isplitl [G15]; · iapply (give17 m c); iexact G15
  iapply (give18 m c); iexact G16

/-! ## The argument arrays as the region finds them -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The run and the frame -/

set_option backward.isDefEq.respectTransparency.types false in
/-- At the compiled mesh, for any values, from any memory with zero counters: every weakly fair execution of the
    program terminates, and every final state has every windowed array at what the proof data compute and every
    other unscoped buffer as the region found it. -/
theorem run_main : θ_run defs (onTc (τ := τ) (main (F := F))) ⟨m, fun _ => 0, ρ⟩ (Pipeline.FramePost cfgs (dats m) 0 (V m)) :=
  Pipeline.SharedFrame.θ_run_frame_track_shared cfgs (dats m) (0 : Fin 1) defs₀ Variants.none
    cellOf_inj winFacts₀0 block_pos0 arr_whole0 stage_whole0 m ρ main
    (fun c => (body_obligation m c).loose) (fun _ _ => rfl) (V m) (hmain m Variants.none) (hsplit m) (hin m) (hout m)

/-- The frame: the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).1 7).trans (((dats m 0 c).arrAt_in 7 rfl _).trans ((A_eq m c 7).trans (V_main_arg4 m c))),
      ((h c).2 main_arg5 (Pipeline.mem_restRefs_of main_arg5 (by decide) (by decide))).trans (V_main_arg5 m c),
      ((h c).1 9).trans (((dats m 0 c).arrAt_in 9 rfl _).trans ((A_eq m c 9).trans (V_main_arg6 m c))),
      ((h c).2 main_arg7 (Pipeline.mem_restRefs_of main_arg7 (by decide) (by decide))).trans (V_main_arg7 m c),
      ((h c).1 11).trans (((dats m 0 c).arrAt_in 11 rfl _).trans ((A_eq m c 11).trans (V_main_arg8 m c))),
      ((h c).2 main_arg9 (Pipeline.mem_restRefs_of main_arg9 (by decide) (by decide))).trans (V_main_arg9 m c),
      ((h c).1 13).trans (((dats m 0 c).arrAt_in 13 rfl _).trans ((A_eq m c 13).trans (V_main_arg10 m c))),
      ((h c).1 14).trans (((dats m 0 c).arrAt_in 14 rfl _).trans ((A_eq m c 14).trans (V_main_arg11 m c))),
      ((h c).2 main_arg12 (Pipeline.mem_restRefs_of main_arg12 (by decide) (by decide))).trans (V_main_arg12 m c),
      ((h c).1 16).trans (((dats m 0 c).arrAt_in 16 rfl _).trans ((A_eq m c 16).trans (V_main_arg13 m c))),
      ((h c).2 main_arg14 (Pipeline.mem_restRefs_of main_arg14 (by decide) (by decide))).trans (V_main_arg14 m c)⟩) (run_main m ρ)

end Cert.KernelIdeal.Hand

end
-- ==== Proof.FrameKI.Pieces.lean ====
/-
  What each case of the message-passing kernel's body leaves, as the body's own arithmetic of the blocks it loaded:
  the accumulator after a tile is the accumulation payload of the point's input blocks over what the accumulator held
  (zero at a first sender tile), and the output block at a last sender tile is the update payload of the receiver
  block, the final accumulator, the reciprocal counts and the update weights.
-/
import proofs.«119065_j24043226923414_1_alg».proof.Proof.FrameKI.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- At a middle sender tile the accumulator ends at the accumulation payload over what it held. -/
theorem sout_B_eq (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) :
    sout_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs = k0_pay9 (k0_pay4 x2) (k0_pay5 x3) (k0_pay6 x4) (k0_pay8 x0 x1 x6 x7 x8) x9 x10 x11 x12 xs := by
  unfold sout_B
  rw [View.read_writes_eq_canon _ _ _ (scover_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs)]
  unfold kernelRun_B
  dsimp only
  sl_unfold_words
  rw [View.canon_unit_zero hz2]
  simp only [View.readAt_eq_ld, Memref.IsWhole.read_unread, View.ld_unit_zero (S := S32x128) hz2, View.ld_unit_zero (S := S128x128) hz2, View.ld_unit_zero (S := S1x128) hz2, View.ld_unit_zero (S := S4x128) hz2, View.ld_unit_zero (S := S32x1) hz2, View.ld_unit_zero (S := S1x32x128) hz3, View.ld_unit_zero (S := S1x128x128) hz3, View.ld_unit_zero (S := S1x32x4) hz3, View.ld_unit_zero (S := S1x128x4) hz3]

/-- At a last sender tile likewise. -/
theorem sout_C_eq (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) :
    sout_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs = k0_pay9 (k0_pay4 x2) (k0_pay5 x3) (k0_pay6 x4) (k0_pay8 x0 x1 x6 x7 x8) x9 x10 x11 x12 xs := by
  unfold sout_C
  rw [View.read_writes_eq_canon _ _ _ (scover_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs)]
  unfold kernelRun_C
  dsimp only
  sl_unfold_words
  rw [View.canon_unit_zero hz2]
  simp only [View.readAt_eq_ld, Memref.IsWhole.read_unread, View.ld_unit_zero (S := S32x128) hz2, View.ld_unit_zero (S := S128x128) hz2, View.ld_unit_zero (S := S1x128) hz2, View.ld_unit_zero (S := S4x128) hz2, View.ld_unit_zero (S := S32x1) hz2, View.ld_unit_zero (S := S1x32x128) hz3, View.ld_unit_zero (S := S1x128x128) hz3, View.ld_unit_zero (S := S1x32x4) hz3, View.ld_unit_zero (S := S1x128x4) hz3]

/-- At a last sender tile the output block is the update payload over the final accumulator. -/
theorem out_C_eq (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : ¬cond0 i) (hc1 : cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32) (xs : Vec F S32x128 .f32) :
    out_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs = k0_pay1 (k0_pay3 x0) (k0_pay7 x0) (k0_pay9 (k0_pay4 x2) (k0_pay5 x3) (k0_pay6 x4) (k0_pay8 x0 x1 x6 x7 x8) x9 x10 x11 x12 xs) x5 x13 x14 x15 x16 x17 := by
  unfold out_C
  rw [View.read_writes_eq_canon _ _ _ (cover_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 xs)]
  unfold kernelRun_C
  dsimp only
  sl_unfold_words
  rw [View.canon_unit_zero hz3]
  simp only [View.readAt_eq_ld, Memref.IsWhole.read_unread, View.readCov_unit_zero (S := S32x128) _ hz2, View.ld_unit_zero (S := S32x128) hz2, View.ld_unit_zero (S := S128x128) hz2, View.ld_unit_zero (S := S1x128) hz2, View.ld_unit_zero (S := S4x128) hz2, View.ld_unit_zero (S := S32x1) hz2, View.ld_unit_zero (S := S1x32x128) hz3, View.ld_unit_zero (S := S1x128x128) hz3, View.ld_unit_zero (S := S1x32x4) hz3, View.ld_unit_zero (S := S1x128x4) hz3]

/-- At a first sender tile the accumulator is reset to the zero payload and the tile is added to it. -/
theorem sout_A_eq (c : Dev nD) (i : grid0.Coords) (arg3 : Memref sig .tc .vmem S1x32x128 .f32) (harg3 : arg3.IsWhole) (arg4 : Memref sig .tc .vmem S1x128x128 .f32) (harg4 : arg4.IsWhole) (arg5 : Memref sig .tc .vmem S1x32x4 .f32) (harg5 : arg5.IsWhole) (arg6 : Memref sig .tc .vmem S1x128x4 .f32) (harg6 : arg6.IsWhole) (arg7 : Memref sig .tc .vmem S32x128 .f32) (harg7 : arg7.IsWhole) (arg8 : Memref sig .tc .vmem S32x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S4x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x32x128 .f32) (harg21 : arg21.IsWhole) (arg22 : Memref sig .tc .vmem S32x128 .f32) (harg22 : arg22.IsWhole) (hc0 : cond0 i) (hc1 : ¬cond1 i)
    (x0 : Vec F S1x32x128 .f32) (x1 : Vec F S1x128x128 .f32) (x2 : Vec F S1x32x4 .f32) (x3 : Vec F S1x128x4 .f32) (x4 : Vec F S32x128 .f32) (x5 : Vec F S32x1 .f32) (x6 : Vec F S128x128 .f32) (x7 : Vec F S128x128 .f32) (x8 : Vec F S1x128 .f32) (x9 : Vec F S128x128 .f32) (x10 : Vec F S1x128 .f32) (x11 : Vec F S4x128 .f32) (x12 : Vec F S1x128 .f32) (x13 : Vec F S128x128 .f32) (x14 : Vec F S128x128 .f32) (x15 : Vec F S1x128 .f32) (x16 : Vec F S128x128 .f32) (x17 : Vec F S1x128 .f32)  :
    sout_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 = k0_pay9 (k0_pay4 x2) (k0_pay5 x3) (k0_pay6 x4) (k0_pay8 x0 x1 x6 x7 x8) x9 x10 x11 x12 (k0_pay2 (F := F)) := by
  unfold sout_A
  rw [View.read_writes_eq_canon _ _ _ (scover_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17)]
  unfold kernelRun_A
  dsimp only
  sl_unfold_words
  rw [View.canon_cons_unit_zero hz2]
  simp only [View.readAt_eq_ld, Memref.IsWhole.read_unread, View.readCov_unit_zero (S := S32x128) _ hz2, View.ld_unit_zero (S := S32x128) hz2, View.ld_unit_zero (S := S128x128) hz2, View.ld_unit_zero (S := S1x128) hz2, View.ld_unit_zero (S := S4x128) hz2, View.ld_unit_zero (S := S32x1) hz2, View.ld_unit_zero (S := S1x32x128) hz3, View.ld_unit_zero (S := S1x128x128) hz3, View.ld_unit_zero (S := S1x32x4) hz3, View.ld_unit_zero (S := S1x128x4) hz3]

end Cert.KernelIdeal.Hand

end
-- ==== Proof.KBlocks.lean ====
/-
  What each input window of the message-passing kernel holds at a grid point.

  The grid is (2, 16, 4) in row-major order: point `t` has batch `t / 64`, receiver tile `(t / 4) % 16` and sender tile
  `t % 4`. A window's block at `t` is the rectangle of its array that starts at block index times block size on every
  axis, so an entry of the block is the array's entry at (block index × block size + the coordinate inside the block).
  The receiver windows (features, phases, reciprocal counts) take 32 rows at the receiver tile; the sender windows
  (features, phases) take 128 rows at the sender tile; the mask window takes the 32 × 128 tile at (receiver tile,
  sender tile); the twelve weight and bias windows are whole arrays at every point. The output window's block index is
  (batch, receiver tile, 0). The block indices are decided once over the 128 grid points.
-/
import proofs.«119065_j24043226923414_1_alg».proof.Proof.FrameKI.Common
import Idealize.ShloMosaic.Lib.ValueIdx
import Idealize.ShloMosaic.Lib.Pipeline.Value

set_option maxRecDepth 16384

noncomputable section

namespace Cert.MsgPass.Blocks

open Cert.KernelIdeal Cert.KernelIdeal.Gen Cert.KernelIdeal.Hand
open Idealize.ShloMosaic Idealize.ShloMosaic.TcCoe Idealize.ShloMosaic.ValueIdx Idealize.SL.Sem

variable {F : FTy → Type} [FloatOps F]
variable (m : (ℓ : Loc nD τ sig) → Buf (Elt F) ℓ) (c : Dev nD)

/-- The grid has 128 points. -/
theorem tlt (t : Fin cfg0.N) : t.val < 128 := lt_of_lt_of_eq t.isLt N_0

/-! ## The block indices over the grid -/

/-- Window 0's block index: (batch, receiver tile, 0). -/
theorem idx0 : ∀ t : Fin cfg0.N, win0_0.index t (0 : Fin 3) = t.val / 64 ∧ win0_0.index t (1 : Fin 3) = (t.val / 4) % 16
    ∧ win0_0.index t (2 : Fin 3) = 0 :=
  (by decide +kernel : ∀ t : Fin grid0.N, win0_0.index t (0 : Fin 3) = t.val / 64 ∧ win0_0.index t (1 : Fin 3) = (t.val / 4) % 16
    ∧ win0_0.index t (2 : Fin 3) = 0)

/-- Window 1's block index: (batch, sender tile, 0). -/
theorem idx1 : ∀ t : Fin cfg0.N, win0_1.index t (0 : Fin 3) = t.val / 64 ∧ win0_1.index t (1 : Fin 3) = t.val % 4
    ∧ win0_1.index t (2 : Fin 3) = 0 :=
  (by decide +kernel : ∀ t : Fin grid0.N, win0_1.index t (0 : Fin 3) = t.val / 64 ∧ win0_1.index t (1 : Fin 3) = t.val % 4
    ∧ win0_1.index t (2 : Fin 3) = 0)

/-- Window 2's block index: (batch, receiver tile, 0). -/
theorem idx2 : ∀ t : Fin cfg0.N, win0_2.index t (0 : Fin 3) = t.val / 64 ∧ win0_2.index t (1 : Fin 3) = (t.val / 4) % 16
    ∧ win0_2.index t (2 : Fin 3) = 0 :=
  (by decide +kernel : ∀ t : Fin grid0.N, win0_2.index t (0 : Fin 3) = t.val / 64 ∧ win0_2.index t (1 : Fin 3) = (t.val / 4) % 16
    ∧ win0_2.index t (2 : Fin 3) = 0)

/-- Window 3's block index: (batch, sender tile, 0). -/
theorem idx3 : ∀ t : Fin cfg0.N, win0_3.index t (0 : Fin 3) = t.val / 64 ∧ win0_3.index t (1 : Fin 3) = t.val % 4
    ∧ win0_3.index t (2 : Fin 3) = 0 :=
  (by decide +kernel : ∀ t : Fin grid0.N, win0_3.index t (0 : Fin 3) = t.val / 64 ∧ win0_3.index t (1 : Fin 3) = t.val % 4
    ∧ win0_3.index t (2 : Fin 3) = 0)

/-- Window 4's block index: (receiver tile, sender tile). -/
theorem idx4 : ∀ t : Fin cfg0.N, win0_4.index t (0 : Fin 2) = (t.val / 4) % 16 ∧ win0_4.index t (1 : Fin 2) = t.val % 4 :=
  (by decide +kernel : ∀ t : Fin grid0.N, win0_4.index t (0 : Fin 2) = (t.val / 4) % 16 ∧ win0_4.index t (1 : Fin 2) = t.val % 4)

/-- Window 5's block index: (receiver tile, 0). -/
theorem idx5 : ∀ t : Fin cfg0.N, win0_5.index t (0 : Fin 2) = (t.val / 4) % 16 ∧ win0_5.index t (1 : Fin 2) = 0 :=
  (by decide +kernel : ∀ t : Fin grid0.N, win0_5.index t (0 : Fin 2) = (t.val / 4) % 16 ∧ win0_5.index t (1 : Fin 2) = 0)

/-- Window 6's block index: (0, 0) at every point. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 7's block index: (0, 0) at every point. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 8's block index: (0, 0) at every point. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 9's block index: (0, 0) at every point. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 10's block index: (0, 0) at every point. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 11's block index: (0, 0) at every point. -/
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Window 12's block index: (0, 0) at every point. -/
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-- Window 13's block index: (0, 0) at every point. -/
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- Window 14's block index: (0, 0) at every point. -/
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

/-- Window 15's block index: (0, 0) at every point. -/
theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)

/-- Window 16's block index: (0, 0) at every point. -/
theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

/-- Window 17's block index: (0, 0) at every point. -/
theorem idx17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)

/-- The output window's block index: (batch, receiver tile, 0). -/
theorem idx18 : ∀ t : Fin cfg0.N, win0_18.index t (0 : Fin 3) = t.val / 64 ∧ win0_18.index t (1 : Fin 3) = (t.val / 4) % 16
    ∧ win0_18.index t (2 : Fin 3) = 0 :=
  (by decide +kernel : ∀ t : Fin grid0.N, win0_18.index t (0 : Fin 3) = t.val / 64 ∧ win0_18.index t (1 : Fin 3) = (t.val / 4) % 16
    ∧ win0_18.index t (2 : Fin 3) = 0)

/-! ## The blocks of the tiled windows -/

/-- Receiver features: row `p` of the block is row `32 · (receiver tile) + p` of the batch's features. -/
theorem blk0 (t : Fin cfg0.N) (p : Fin 32) (d : Fin 128) :
    (iblk m c 0 t : S1x32x128.Idx → Elt F .f32) (ix3 0 p d)
      = (V m c main_arg0 : S2x512x128.Idx → Elt F .f32)
          (ix3 ⟨t.val / 64, by have := tlt t; omega⟩ ⟨32 * ((t.val / 4) % 16) + p.val, by omega⟩ d) := by
  obtain ⟨e0, e1, e2⟩ := idx0 t
  show V m c main_arg0 (((cfg0.win 0).blk t).view.emb (ix3 0 p d)) = _
  refine congrArg _ (funext fun a => Fin.ext ?_)
  match a with
  | ⟨0, _⟩ => show win0_0.index t (0 : Fin 3) * 1 + 1 * 0 = t.val / 64; omega
  | ⟨1, _⟩ => show win0_0.index t (1 : Fin 3) * 32 + 1 * p.val = 32 * ((t.val / 4) % 16) + p.val; omega
  | ⟨2, _⟩ => show win0_0.index t (2 : Fin 3) * 128 + 1 * d.val = d.val; omega

/-- Sender features: row `jj` of the block is row `128 · (sender tile) + jj` of the batch's features. -/
theorem blk1 (t : Fin cfg0.N) (jj : Fin 128) (d : Fin 128) :
    (iblk m c 1 t : S1x128x128.Idx → Elt F .f32) (ix3 0 jj d)
      = (V m c main_arg0 : S2x512x128.Idx → Elt F .f32)
          (ix3 ⟨t.val / 64, by have := tlt t; omega⟩ ⟨128 * (t.val % 4) + jj.val, by omega⟩ d) := by
  obtain ⟨e0, e1, e2⟩ := idx1 t
  show V m c main_arg0 (((cfg0.win 1).blk t).view.emb (ix3 0 jj d)) = _
  refine congrArg _ (funext fun a => Fin.ext ?_)
  match a with
  | ⟨0, _⟩ => show win0_1.index t (0 : Fin 3) * 1 + 1 * 0 = t.val / 64; omega
  | ⟨1, _⟩ => show win0_1.index t (1 : Fin 3) * 128 + 1 * jj.val = 128 * (t.val % 4) + jj.val; omega
  | ⟨2, _⟩ => show win0_1.index t (2 : Fin 3) * 128 + 1 * d.val = d.val; omega

/-- Receiver phases: row `p` of the block is row `32 · (receiver tile) + p` of the batch's phases. -/
theorem blk2 (t : Fin cfg0.N) (p : Fin 32) (o : Fin 4) :
    (iblk m c 2 t : S1x32x4.Idx → Elt F .f32) (ix3 0 p o)
      = (V m c main_arg1 : S2x512x4.Idx → Elt F .f32)
          (ix3 ⟨t.val / 64, by have := tlt t; omega⟩ ⟨32 * ((t.val / 4) % 16) + p.val, by omega⟩ o) := by
  obtain ⟨e0, e1, e2⟩ := idx2 t
  show V m c main_arg1 (((cfg0.win 2).blk t).view.emb (ix3 0 p o)) = _
  refine congrArg _ (funext fun a => Fin.ext ?_)
  match a with
  | ⟨0, _⟩ => show win0_2.index t (0 : Fin 3) * 1 + 1 * 0 = t.val / 64; omega
  | ⟨1, _⟩ => show win0_2.index t (1 : Fin 3) * 32 + 1 * p.val = 32 * ((t.val / 4) % 16) + p.val; omega
  | ⟨2, _⟩ => show win0_2.index t (2 : Fin 3) * 4 + 1 * o.val = o.val; omega

/-- Sender phases: row `jj` of the block is row `128 · (sender tile) + jj` of the batch's phases. -/
theorem blk3 (t : Fin cfg0.N) (jj : Fin 128) (o : Fin 4) :
    (iblk m c 3 t : S1x128x4.Idx → Elt F .f32) (ix3 0 jj o)
      = (V m c main_arg1 : S2x512x4.Idx → Elt F .f32)
          (ix3 ⟨t.val / 64, by have := tlt t; omega⟩ ⟨128 * (t.val % 4) + jj.val, by omega⟩ o) := by
  obtain ⟨e0, e1, e2⟩ := idx3 t
  show V m c main_arg1 (((cfg0.win 3).blk t).view.emb (ix3 0 jj o)) = _
  refine congrArg _ (funext fun a => Fin.ext ?_)
  match a with
  | ⟨0, _⟩ => show win0_3.index t (0 : Fin 3) * 1 + 1 * 0 = t.val / 64; omega
  | ⟨1, _⟩ => show win0_3.index t (1 : Fin 3) * 128 + 1 * jj.val = 128 * (t.val % 4) + jj.val; omega
  | ⟨2, _⟩ => show win0_3.index t (2 : Fin 3) * 4 + 1 * o.val = o.val; omega

/-- The mask tile: entry (p, jj) is the mask at (32 · (receiver tile) + p, 128 · (sender tile) + jj). -/
theorem blk4 (t : Fin cfg0.N) (p : Fin 32) (jj : Fin 128) :
    (iblk m c 4 t : S32x128.Idx → Elt F .f32) (ix2 p jj)
      = (V m c main_v2 : S512x512.Idx → Elt F .f32)
          (ix2 ⟨32 * ((t.val / 4) % 16) + p.val, by omega⟩ ⟨128 * (t.val % 4) + jj.val, by omega⟩) := by
  obtain ⟨e0, e1⟩ := idx4 t
  show V m c main_v2 (((cfg0.win 4).blk t).view.emb (ix2 p jj)) = _
  refine congrArg _ (funext fun a => Fin.ext ?_)
  match a with
  | ⟨0, _⟩ => show win0_4.index t (0 : Fin 2) * 32 + 1 * p.val = 32 * ((t.val / 4) % 16) + p.val; omega
  | ⟨1, _⟩ => show win0_4.index t (1 : Fin 2) * 128 + 1 * jj.val = 128 * (t.val % 4) + jj.val; omega

/-- The reciprocal counts: row `p` of the block is the count column's row `32 · (receiver tile) + p`. -/
theorem blk5 (t : Fin cfg0.N) (p : Fin 32) :
    (iblk m c 5 t : S32x1.Idx → Elt F .f32) (ix2 p 0)
      = (V m c main_v8 : S512x1.Idx → Elt F .f32) (ix2 ⟨32 * ((t.val / 4) % 16) + p.val, by omega⟩ 0) := by
  obtain ⟨e0, e1⟩ := idx5 t
  show V m c main_v8 (((cfg0.win 5).blk t).view.emb (ix2 p 0)) = _
  refine congrArg _ (funext fun a => Fin.ext ?_)
  match a with
  | ⟨0, _⟩ => show win0_5.index t (0 : Fin 2) * 32 + 1 * p.val = 32 * ((t.val / 4) % 16) + p.val; omega
  | ⟨1, _⟩ => show win0_5.index t (1 : Fin 2) * 1 + 1 * 0 = 0; omega

/-! ## The whole-array windows -/

/-- Window 6 holds its whole array at every point. -/
theorem blk6 (t : Fin cfg0.N) :
    (iblk m c 6 t : S128x128.Idx → Elt F .f32) = (V m c main_arg3 : S128x128.Idx → Elt F .f32) := by
  obtain ⟨e0, e1⟩ := idx6 t
  funext y
  show V m c main_arg3 (((cfg0.win 6).blk t).view.emb y) = V m c main_arg3 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Window 7 holds its whole array at every point. -/
theorem blk7 (t : Fin cfg0.N) :
    (iblk m c 7 t : S128x128.Idx → Elt F .f32) = (V m c main_arg4 : S128x128.Idx → Elt F .f32) := by
  obtain ⟨e0, e1⟩ := idx7 t
  funext y
  show V m c main_arg4 (((cfg0.win 7).blk t).view.emb y) = V m c main_arg4 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8 holds its whole array at every point. -/
theorem blk8 (t : Fin cfg0.N) :
    (iblk m c 8 t : S1x128.Idx → Elt F .f32) = (V m c main_v9 : S1x128.Idx → Elt F .f32) := by
  obtain ⟨e0, e1⟩ := idx8 t
  funext y
  show V m c main_v9 (((cfg0.win 8).blk t).view.emb y) = V m c main_v9 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9 holds its whole array at every point. -/
theorem blk9 (t : Fin cfg0.N) :
    (iblk m c 9 t : S128x128.Idx → Elt F .f32) = (V m c main_arg6 : S128x128.Idx → Elt F .f32) := by
  obtain ⟨e0, e1⟩ := idx9 t
  funext y
  show V m c main_arg6 (((cfg0.win 9).blk t).view.emb y) = V m c main_arg6 y
  refine congrArg _ (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 10 holds its whole array at every point. -/
theorem blk10 (t : Fin cfg0.N) :
    (iblk m c 10 t : S1x128.Idx → Elt F .f32) = (V m c main_v10 : S1x128.Idx → Elt F .f32) := by
  obtain ⟨e0, e1⟩ := idx10 t
  funext y
  show V m c main_v10 (((cfg0.win 10).blk t).view.emb y) = V m c main_v10 y
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 11 holds its whole array at every point. -/
theorem blk11 (t : Fin cfg0.N) :
    (iblk m c 11 t : S4x128.Idx → Elt F .f32) = (V m c main_arg8 : S4x128.Idx → Elt F .f32) := by
  obtain ⟨e0, e1⟩ := idx11 t
  funext y
  show V m c main_arg8 (((cfg0.win 11).blk t).view.emb y) = V m c main_arg8 y
  refine congrArg _ (funext fun a => Fin.ext ?_)
  match a with
  | ⟨0, _⟩ => show win0_11.index t (0 : Fin 2) * 4 + 1 * (y 0).val = (y 0).val; omega
  | ⟨1, _⟩ => show win0_11.index t (1 : Fin 2) * 128 + 1 * (y 1).val = (y 1).val; omega

/-- Window 12 holds its whole array at every point. -/
theorem blk12 (t : Fin cfg0.N) :
    (iblk m c 12 t : S1x128.Idx → Elt F .f32) = (V m c main_v11 : S1x128.Idx → Elt F .f32) := by
  obtain ⟨e0, e1⟩ := idx12 t
  funext y
  show V m c main_v11 (((cfg0.win 12).blk t).view.emb y) = V m c main_v11 y
  refine congrArg _ (funext fun a => Fin.ext ?_)
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Window 13 holds its whole array at every point. -/
theorem blk13 (t : Fin cfg0.N) :
    (iblk m c 13 t : S128x128.Idx → Elt F .f32) = (V m c main_arg10 : S128x128.Idx → Elt F .f32) := by
  obtain ⟨e0, e1⟩ := idx13 t
  funext y
  show V m c main_arg10 (((cfg0.win 13).blk t).view.emb y) = V m c main_arg10 y
  refine congrArg _ (funext fun a => Fin.ext ?_)
  match a with
  | ⟨0, _⟩ => show win0_13.index t (0 : Fin 2) * 128 + 1 * (y 0).val = (y 0).val; omega
  | ⟨1, _⟩ => show win0_13.index t (1 : Fin 2) * 128 + 1 * (y 1).val = (y 1).val; omega

/-- Window 14 holds its whole array at every point. -/
theorem blk14 (t : Fin cfg0.N) :
    (iblk m c 14 t : S128x128.Idx → Elt F .f32) = (V m c main_arg11 : S128x128.Idx → Elt F .f32) := by
  obtain ⟨e0, e1⟩ := idx14 t
  funext y
  show V m c main_arg11 (((cfg0.win 14).blk t).view.emb y) = V m c main_arg11 y
  refine congrArg _ (funext fun a => Fin.ext ?_)
  match a with
  | ⟨0, _⟩ => show win0_14.index t (0 : Fin 2) * 128 + 1 * (y 0).val = (y 0).val; omega
  | ⟨1, _⟩ => show win0_14.index t (1 : Fin 2) * 128 + 1 * (y 1).val = (y 1).val; omega

/-- Window 15 holds its whole array at every point. -/
theorem blk15 (t : Fin cfg0.N) :
    (iblk m c 15 t : S1x128.Idx → Elt F .f32) = (V m c main_v12 : S1x128.Idx → Elt F .f32) := by
  obtain ⟨e0, e1⟩ := idx15 t
  funext y
  show V m c main_v12 (((cfg0.win 15).blk t).view.emb y) = V m c main_v12 y
  refine congrArg _ (funext fun a => Fin.ext ?_)
  match a with
  | ⟨0, _⟩ => show win0_15.index t (0 : Fin 2) * 1 + 1 * (y 0).val = (y 0).val; omega
  | ⟨1, _⟩ => show win0_15.index t (1 : Fin 2) * 128 + 1 * (y 1).val = (y 1).val; omega

/-- Window 16 holds its whole array at every point. -/
theorem blk16 (t : Fin cfg0.N) :
    (iblk m c 16 t : S128x128.Idx → Elt F .f32) = (V m c main_arg13 : S128x128.Idx → Elt F .f32) := by
  obtain ⟨e0, e1⟩ := idx16 t
  funext y
  show V m c main_arg13 (((cfg0.win 16).blk t).view.emb y) = V m c main_arg13 y
  refine congrArg _ (funext fun a => Fin.ext ?_)
  match a with
  | ⟨0, _⟩ => show win0_16.index t (0 : Fin 2) * 128 + 1 * (y 0).val = (y 0).val; omega
  | ⟨1, _⟩ => show win0_16.index t (1 : Fin 2) * 128 + 1 * (y 1).val = (y 1).val; omega

/-- Window 17 holds its whole array at every point. -/
theorem blk17 (t : Fin cfg0.N) :
    (iblk m c 17 t : S1x128.Idx → Elt F .f32) = (V m c main_v13 : S1x128.Idx → Elt F .f32) := by
  obtain ⟨e0, e1⟩ := idx17 t
  funext y
  show V m c main_v13 (((cfg0.win 17).blk t).view.emb y) = V m c main_v13 y
  refine congrArg _ (funext fun a => Fin.ext ?_)
  match a with
  | ⟨0, _⟩ => show win0_17.index t (0 : Fin 2) * 1 + 1 * (y 0).val = (y 0).val; omega
  | ⟨1, _⟩ => show win0_17.index t (1 : Fin 2) * 128 + 1 * (y 1).val = (y 1).val; omega

end Cert.MsgPass.Blocks

end
-- ==== Proof.Spec.lean ====
/-
  The mathematics of one message-passing layer with a phase gate, stated once over explicit coordinates on the
  extended reals, so that a tile of the computation and the whole arrays are instances of the same functions.

  A receiver row `xi` and a sender row `xj` (128 features each), with their phase rows `pi`, `pj` (4 phases each), give
  the gated message `pairTerm`: the hidden layer `max (xi·W1r + xj·W1s + b1) 0`, pushed through `W2` and `b2`, times
  the logistic gate of `cos (pi - pj)·Wg + bg`. A receiver row and its aggregated row give the updated row
  `updTerm`: the residual `xi + ((max (xi·Wu1x + ai·Wu1a + bu1) 0)·Wu2 + bu2)`. The layer's output `out` aggregates the
  gated messages of every sender under a 0/1 mask and scales the sum by a per-receiver factor `r`; `layer` is `out` at
  the mask of the nonzero adjacency words and the reciprocal of each receiver's neighbour count (at least one).
-/
import Idealize.ShloMosaic.PureOps.Ideal

noncomputable section

namespace Cert.MsgPass

open Idealize.ShloMosaic

/-- The weights of the message network and of the phase gate, each read by coordinates. -/
structure MsgWeights where
  W1r : Fin 128 → Fin 128 → EReal
  W1s : Fin 128 → Fin 128 → EReal
  b1 : Fin 128 → EReal
  W2 : Fin 128 → Fin 128 → EReal
  b2 : Fin 128 → EReal
  Wg : Fin 4 → Fin 128 → EReal
  bg : Fin 128 → EReal

/-- The weights of the update network, each read by coordinates. -/
structure UpdWeights where
  Wu1x : Fin 128 → Fin 128 → EReal
  Wu1a : Fin 128 → Fin 128 → EReal
  bu1 : Fin 128 → EReal
  Wu2 : Fin 128 → Fin 128 → EReal
  bu2 : Fin 128 → EReal

/-- A row times a 128 x 128 matrix, at output feature `e`. -/
def lin (W : Fin 128 → Fin 128 → EReal) (v : Fin 128 → EReal) (e : Fin 128) : EReal := ∑ d : Fin 128, v d * W d e

variable (P : MsgWeights) (Q : UpdWeights)

/-- The hidden unit `d` of the message network for receiver row `xi` and sender row `xj`. -/
def hidden (xi xj : Fin 128 → EReal) (d : Fin 128) : EReal := max ((lin P.W1r xi d + lin P.W1s xj d) + P.b1 d) 0

/-- The message feature `e` before gating. -/
def message (xi xj : Fin 128 → EReal) (e : Fin 128) : EReal := lin P.W2 (hidden P xi xj) e + P.b2 e

/-- The phase gate at feature `e`: the logistic of the phase coherence pushed through `Wg`, `bg`. -/
def gate (pi pj : Fin 4 → EReal) (e : Fin 128) : EReal :=
  Ideal.logistic ((∑ o : Fin 4, Ideal.cos (pi o - pj o) * P.Wg o e) + P.bg e)

/-- The gated message from a sender row to a receiver row, at feature `e`. -/
def pairTerm (xi xj : Fin 128 → EReal) (pi pj : Fin 4 → EReal) (e : Fin 128) : EReal :=
  message P xi xj e * gate P pi pj e

/-- The updated receiver row at feature `e`, from the row `xi` and its aggregated row `ai`. -/
def updTerm (xi ai : Fin 128 → EReal) (e : Fin 128) : EReal :=
  xi e + (lin Q.Wu2 (fun d => max ((lin Q.Wu1x xi d + lin Q.Wu1a ai d) + Q.bu1 d) 0) e + Q.bu2 e)

/-- The masked sum over all 512 senders of the gated messages into receiver `n` of batch `b`. -/
def aggSum (x : Fin 2 → Fin 512 → Fin 128 → EReal) (ph : Fin 2 → Fin 512 → Fin 4 → EReal)
    (mask : Fin 512 → Fin 512 → EReal) (b : Fin 2) (n : Fin 512) (k : Fin 128) : EReal :=
  ∑ j : Fin 512, pairTerm P (x b n) (x b j) (ph b n) (ph b j) k * mask n j

/-- The layer's output at batch `b`, node `n`, feature `e`, for a mask and a per-receiver factor. -/
def out (x : Fin 2 → Fin 512 → Fin 128 → EReal) (ph : Fin 2 → Fin 512 → Fin 4 → EReal)
    (mask : Fin 512 → Fin 512 → EReal) (r : Fin 512 → EReal) (b : Fin 2) (n : Fin 512) (e : Fin 128) : EReal :=
  updTerm Q (x b n) (fun k => aggSum P x ph mask b n k * r n) e

/-- The neighbour flag of an adjacency word: 1 when the word is nonzero, else 0. -/
def maskOf (adj : Fin 512 → Fin 512 → BitVec 32) (i j : Fin 512) : EReal := if adj i j = 0#32 then 0 else 1

/-- The reciprocal of receiver `i`'s neighbour count, the count taken as at least one. -/
def recipOf (adj : Fin 512 → Fin 512 → BitVec 32) (i : Fin 512) : EReal :=
  Ideal.div 1 (max (∑ j : Fin 512, maskOf adj i j) 1)

/-- The layer at the adjacency's own mask and reciprocal counts. -/
def layer (x : Fin 2 → Fin 512 → Fin 128 → EReal) (ph : Fin 2 → Fin 512 → Fin 4 → EReal)
    (adj : Fin 512 → Fin 512 → BitVec 32) (b : Fin 2) (n : Fin 512) (e : Fin 128) : EReal :=
  out P Q x ph (maskOf adj) (recipOf adj) b n e

end Cert.MsgPass

end
-- ==== Proof.HostArrays.lean ====
/-
  The arrays the host lines build before the region, read at one element, on the extended reals.

  Before the kernel runs, the program turns the adjacency words into the neighbour mask (a word that is not zero gives
  1, the zero word gives 0), sums each row of the mask, takes the larger of that count and one, divides one by it and
  lays the 512 quotients out as a 512 x 1 column, and lays each of the five bias vectors out as a 1 x 128 row. Read at
  a coordinate these are Spec.lean's `maskOf`, `recipOf` and the bias vectors themselves: the host's row sum is the
  zero initial value plus the sum over the row's 512 entries, the word 0x3F800000 is one, and a reshape keeps the
  row-major position.
-/
import proofs.«119065_j24043226923414_1_alg».proof.Proof.FrameKI.Common
import proofs.«119065_j24043226923414_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.MsgPass.Host

open Idealize.ShloMosaic Idealize.ShloMosaic.ValueIdx Idealize.ShloMosaic.TcCoe Idealize.ShloMosaic.StableHlo
open Idealize.SL.Sem
open Cert.KernelIdeal Cert.KernelIdeal.Gen Cert.KernelIdeal.Hand

variable (m : (ℓ : Loc nD τ sig) → Buf (Elt Ideal) ℓ) (c : Dev nD)

/-! ## Small general facts -/

/-- The flag "the word is not zero", converted to a float: 0 at the zero word, else 1. -/
theorem uitofp_ne_zero (a : BitVec 32) :
    FloatOps.uitofp (F := Ideal) .f32 (IntOp.cmpi .ne a 0#32) = if a = 0#32 then (0 : EReal) else 1 := by
  show (((IntOp.cmpi .ne a 0#32).toNat : ℝ) : EReal) = _
  by_cases h : a = 0#32
  · subst h
    rw [if_pos rfl, show IntOp.cmpi .ne (0#32 : BitVec 32) 0#32 = 0#1 by decide]
    simp
  · have hb : (a != 0#32) = true := bne_iff_ne.mpr h
    have hc : IntOp.cmpi .ne a 0#32 = 1#1 := by
      show BitVec.ofBool (a != 0#32) = 1#1
      rw [hb]; rfl
    rw [if_neg h, hc]
    simp

/-- The float word 0x3F800000 is one. -/
theorem ofBits_one_f32 : Ideal.ofBits .f32 0x3F800000#32 = 1 := IdealRules.sign_bit.ideal_onePat .f32

/-- An [a] array cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The neighbour mask -/

/-- The adjacency words as the launch left them. -/
abbrev adjOf : Fin 512 → Fin 512 → BitVec 32 :=
  fun i j => (m ((c : Thread nD τ).loc main_arg2) : IVec S512x512 32) (ix2 i j)

/-- The mask array as the host lines compute it: the flag "the adjacency word is not zero" as a float. -/
abbrev maskArr : S512x512.Idx → EReal :=
  uitofp (F := Ideal) .f32 (cmpi .ne (m ((c : Thread nD τ).loc main_arg2) : IVec S512x512 32)
    (broadcastInDim S512x512 ![] bcast_S_S512x512 (constantI S_ 32 0#32)))

theorem v2_eq : (V m c main_v2 : S512x512.Idx → EReal) = maskArr m c := by
  dsimp only [V, V0, hostOps0]; after_results

theorem maskArr_apply (i j : Fin 512) : maskArr m c (ix2 i j) = maskOf (adjOf m c) i j :=
  uitofp_ne_zero _

/-- The mask array holds, at (i, j), the neighbour flag of the adjacency word. -/
theorem mask_apply (i j : Fin 512) : (V m c main_v2 : S512x512.Idx → EReal) (ix2 i j) = maskOf (adjOf m c) i j := by
  rw [v2_eq]; exact maskArr_apply m c i j

/-! ## The reciprocal counts -/

/-- The reciprocal-count column as the host lines compute it. -/
abbrev recipArr : S512x1.Idx → EReal :=
  shapeCast S512x1
    (Host.divf (broadcastInDim S512 ![] bcast_S_S512 (constant (F := Ideal) S_ .f32 0x3F800000#32))
      (maximumf (Host.reduceAdd (maskArr m c) (constant (F := Ideal) S_ .f32 0x00000000#32) reducesTo_S512x512_S512_d1 h_S_)
        (broadcastInDim S512 ![] bcast_S_S512 (constant (F := Ideal) S_ .f32 0x3F800000#32))))
    shapeCasts_S512_S512x1

theorem v8_eq : (V m c main_v8 : S512x1.Idx → EReal) = recipArr m c := by
  dsimp only [V, V0, hostOps0]; after_results <;> rfl

/-- The row sum of the mask, as the host's reduction gives it: zero plus the sum over the row. -/
theorem rowSum_apply (i : Fin 512) :
    (Host.reduceAdd (maskArr m c) (constant (F := Ideal) S_ .f32 0x00000000#32) reducesTo_S512x512_S512_d1 h_S_ : S512.Idx → EReal) (ix1 i)
      = ∑ j : Fin 512, maskOf (adjOf m c) i j := by
  have hred : S512x512.Reduces [1] S512 := by decide
  show Ideal.hostReduceAdd reducesTo_S512x512_S512_d1 (maskArr m c) (Ideal.ofBits .f32 0x00000000#32) (ix1 i) = _
  rw [Ideal.hostReduceAdd_single reducesTo_S512x512_S512_d1 hred, Ideal.ofBits_zero_f32, zero_add]
  refine Finset.sum_congr rfl fun j _ => ?_
  have e : hred.lift (ix1 i) j = ix2 i j := funext fun ax => Fin.ext (by
    match ax with
    | ⟨0, _⟩ => rfl
    | ⟨1, _⟩ => rfl)
  rw [e]; exact maskArr_apply m c i j

/-- The reciprocal-count column holds, at row i, one over the row's neighbour count taken as at least one. -/
theorem recip_apply (i : Fin 512) : (V m c main_v8 : S512x1.Idx → EReal) (ix2 i 0) = recipOf (adjOf m c) i := by
  rw [v8_eq]
  refine (shapeCast_a_a1_apply _ _ i 0).trans ?_
  show Ideal.div (Ideal.ofBits .f32 0x3F800000#32)
      (max ((Host.reduceAdd (maskArr m c) (constant (F := Ideal) S_ .f32 0x00000000#32) reducesTo_S512x512_S512_d1 h_S_ : S512.Idx → EReal) (ix1 i))
        (Ideal.ofBits .f32 0x3F800000#32)) = _
  rw [rowSum_apply, ofBits_one_f32]
  rfl

/-! ## The bias rows -/

theorem v9_eq : (V m c main_v9 : S1x128.Idx → EReal)
    = shapeCast S1x128 (m ((c : Thread nD τ).loc main_arg5) : S128.Idx → EReal) shapeCasts_S128_S1x128 := by
  dsimp only [V, V0, hostOps0]; after_results <;> rfl
theorem v10_eq : (V m c main_v10 : S1x128.Idx → EReal)
    = shapeCast S1x128 (m ((c : Thread nD τ).loc main_arg7) : S128.Idx → EReal) shapeCasts_S128_S1x128 := by
  dsimp only [V, V0, hostOps0]; after_results <;> rfl
theorem v11_eq : (V m c main_v11 : S1x128.Idx → EReal)
    = shapeCast S1x128 (m ((c : Thread nD τ).loc main_arg9) : S128.Idx → EReal) shapeCasts_S128_S1x128 := by
  dsimp only [V, V0, hostOps0]; after_results <;> rfl
theorem v12_eq : (V m c main_v12 : S1x128.Idx → EReal)
    = shapeCast S1x128 (m ((c : Thread nD τ).loc main_arg12) : S128.Idx → EReal) shapeCasts_S128_S1x128 := by
  dsimp only [V, V0, hostOps0]; after_results <;> rfl
theorem v13_eq : (V m c main_v13 : S1x128.Idx → EReal)
    = shapeCast S1x128 (m ((c : Thread nD τ).loc main_arg14) : S128.Idx → EReal) shapeCasts_S128_S1x128 := by
  dsimp only [V, V0, hostOps0]; after_results <;> rfl

/-- Each bias row is its bias vector: the 1 x 128 array at (0, e) is the vector at e. -/
theorem bias_v9 (e : Fin 128) : (V m c main_v9 : S1x128.Idx → EReal) (ix2 0 e)
    = (m ((c : Thread nD τ).loc main_arg5) : S128.Idx → EReal) (ix1 e) := by
  rw [v9_eq]; exact shapeCast_a_1a_apply _ _ 0 e
theorem bias_v10 (e : Fin 128) : (V m c main_v10 : S1x128.Idx → EReal) (ix2 0 e)
    = (m ((c : Thread nD τ).loc main_arg7) : S128.Idx → EReal) (ix1 e) := by
  rw [v10_eq]; exact shapeCast_a_1a_apply _ _ 0 e
theorem bias_v11 (e : Fin 128) : (V m c main_v11 : S1x128.Idx → EReal) (ix2 0 e)
    = (m ((c : Thread nD τ).loc main_arg9) : S128.Idx → EReal) (ix1 e) := by
  rw [v11_eq]; exact shapeCast_a_1a_apply _ _ 0 e
theorem bias_v12 (e : Fin 128) : (V m c main_v12 : S1x128.Idx → EReal) (ix2 0 e)
    = (m ((c : Thread nD τ).loc main_arg12) : S128.Idx → EReal) (ix1 e) := by
  rw [v12_eq]; exact shapeCast_a_1a_apply _ _ 0 e
theorem bias_v13 (e : Fin 128) : (V m c main_v13 : S1x128.Idx → EReal) (ix2 0 e)
    = (m ((c : Thread nD τ).loc main_arg14) : S128.Idx → EReal) (ix1 e) := by
  rw [v13_eq]; exact shapeCast_a_1a_apply _ _ 0 e

end Cert.MsgPass.Host

end
-- ==== Proof.SpecArrays.lean ====
/-
  The layer of Spec.lean read off the fifteen argument ARRAYS: features `[2, 512, 128]`, phases `[2, 512, 4]`, the
  adjacency words `[512, 512]`, and the twelve weight arrays, each read by coordinates. `layerOf` is the whole
  result array `[2, 512, 128]` as one function of them, index by index.
-/
import Idealize.ShloMosaic.Lib.ValueIdx
import proofs.«119065_j24043226923414_1_alg».proof.Proof.Spec

noncomputable section

namespace Cert.MsgPass

open Idealize.ShloMosaic Idealize.ShloMosaic.ValueIdx

/-- The message network's and the gate's weights read off their arrays. -/
def msgW (W1r W1s : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (Wg : FVec Ideal ⟨2, ![4, 128]⟩ .f32) (bg : FVec Ideal ⟨1, ![128]⟩ .f32) : MsgWeights where
  W1r d e := W1r (ix2 d e)
  W1s d e := W1s (ix2 d e)
  b1 e := b1 (ix1 e)
  W2 d e := W2 (ix2 d e)
  b2 e := b2 (ix1 e)
  Wg o e := Wg (ix2 o e)
  bg e := bg (ix1 e)

/-- The update network's weights read off their arrays. -/
def updW (Wu1x Wu1a : FVec Ideal ⟨2, ![128, 128]⟩ .f32) (bu1 : FVec Ideal ⟨1, ![128]⟩ .f32)
    (Wu2 : FVec Ideal ⟨2, ![128, 128]⟩ .f32) (bu2 : FVec Ideal ⟨1, ![128]⟩ .f32) : UpdWeights where
  Wu1x d e := Wu1x (ix2 d e)
  Wu1a d e := Wu1a (ix2 d e)
  bu1 e := bu1 (ix1 e)
  Wu2 d e := Wu2 (ix2 d e)
  bu2 e := bu2 (ix1 e)

/-- A rank-3 array by coordinates. -/
def rows3 {A B C : Nat} (a : FVec Ideal ⟨3, ![A, B, C]⟩ .f32) : Fin A → Fin B → Fin C → EReal := fun i j k => a (ix3 i j k)

/-- The adjacency words by coordinates. -/
def words2 (a : IVec ⟨2, ![512, 512]⟩ 32) : Fin 512 → Fin 512 → BitVec 32 := fun i j => a (ix2 i j)

/-- The layer's whole result array as one function of the fifteen argument arrays. -/
def layerOf (x : FVec Ideal ⟨3, ![2, 512, 128]⟩ .f32) (ph : FVec Ideal ⟨3, ![2, 512, 4]⟩ .f32) (adj : IVec ⟨2, ![512, 512]⟩ 32)
    (W1r W1s : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (Wg : FVec Ideal ⟨2, ![4, 128]⟩ .f32) (bg : FVec Ideal ⟨1, ![128]⟩ .f32)
    (Wu1x Wu1a : FVec Ideal ⟨2, ![128, 128]⟩ .f32) (bu1 : FVec Ideal ⟨1, ![128]⟩ .f32)
    (Wu2 : FVec Ideal ⟨2, ![128, 128]⟩ .f32) (bu2 : FVec Ideal ⟨1, ![128]⟩ .f32) :
    FVec Ideal ⟨3, ![2, 512, 128]⟩ .f32 :=
  fun i => layer (msgW W1r W1s b1 W2 b2 Wg bg) (updW Wu1x Wu1a bu1 Wu2 bu2) (rows3 x) (rows3 ph) (words2 adj) (i 0) (i 1) (i 2)

end Cert.MsgPass

end
-- ==== Proof.LibTileLayout.lean ====
/-
  Layout operations, a lane sum and a plain matrix product read at an index given by coordinates, for the rank-3
  tiles a pairwise (receiver x sender x feature) computation goes through. Each lemma is the library's reading of one
  operation (a shape cast by equal row-major positions, a broadcast by coordinates with zero on the unit axes, a
  one-axis sum as a sum over that axis's coordinates, a matrix product into a zero accumulator as the sum over the
  contracted coordinate) with both indices written by coordinates, for any extents.

  * a [a, b, c] array viewed [n, c] with n = a * b, and back: row i * b + j of the flat view is (i, j);
  * a unit axis added in the middle, at the end or twice in front by a shape cast;
  * a broadcast to [a, b, c] of an array whose first, second, first two or last axis is a unit axis, and the column
    broadcast [a, 1] to [a, b];
  * the sum over the middle axis of an [a, b, c] array;
  * the product of an [M, K] by a [K, N] matrix into the zero accumulator.
-/
import Idealize.ShloMosaic.Lib.ValueIdx
import Idealize.ShloMosaic.Lib.ValueLayout
import Idealize.ShloMosaic.Lib.Pipeline.Value
import Idealize.ShloMosaic.PureOps.Ideal.Laws

noncomputable section

namespace Cert.TileLayout

open Idealize.ShloMosaic Idealize.ShloMosaic.ValueIdx

variable {α : Type}

/-! ## Two leading axes flattened into one, and back -/

/-- An [a, b, c] array viewed as [n, c] with n = a * b reads, at row r = i * b + j and column k, the operand
    at (i, j, k). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An [n, c] array with n = a * b viewed as [a, b, c] reads, at (i, j, k), the operand at row r = i * b + j and
    column k. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-! ## A unit axis added by a shape cast -/

/-- An [a, c] array cast to [a, 1, c] reads, at (i, u, k), the operand at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A [c] array cast to [1, 1, c] reads, at (u, u', k), the operand at k. -/
theorem shapeCast_c_11c_apply {c : ℕ} (x : (⟨1, ![c]⟩ : Shape).Idx → α)
    (h : (⟨1, ![c]⟩ : Shape).ShapeCasts ⟨3, ![1, 1, c]⟩) (u u' : Fin 1) (k : Fin c) :
    shapeCast ⟨3, ![1, 1, c]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * c + k.val
    simp only [hu, hu', Nat.zero_mul, Nat.zero_add, Nat.mul_one, Nat.add_zero])

/-! ## Broadcasts along unit axes -/

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A [1, 1, c] array broadcast to [a, b, c] reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1] column broadcast to [a, b] reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The sum over the middle axis -/

/-- At the ideal values the sum over the middle axis of an [a, b, c] array reads, at (i, k), the sum over j of the
    operand at (i, j, k). -/
theorem multiReduction_add_axis1_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-! ## A plain matrix product into the zero accumulator -/

/-- At the ideal values the product of an [M, K] by a [K, N] matrix into the zero accumulator reads, at (p, q), the
    sum over the contracted coordinate k of the left operand at (p, k) times the right one at (k, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun ax => Fin.ext (by
      match ax with
      | ⟨0, _⟩ => exact ((DotDims.plain M K N).rhsIdx_val_of_single rfl _ _).trans hk
      | ⟨1, _⟩ => rfl)
  rw [el, er]

end Cert.TileLayout

end
-- ==== Proof.TilePay.lean ====
/-
  The kernel body's arithmetic read at one element, on the extended reals.

  The body of the message-passing kernel handles one tile: 32 receiver rows against 128 sender rows, 128 features.
  Its stored values are pure terms of the loaded tiles. Read at a coordinate they are the functions of Spec.lean:

  * the value that starts the accumulator is zero at every (p, q);
  * the accumulator step adds, at receiver row p and feature q, the sum over the tile's 128 sender rows of the gated
    message from that sender to that receiver, times the mask entry of the pair. The hidden layer is formed for all
    32 x 128 pairs at once and pushed through the second weight matrix as one 4096-row product, pair (p, j) sitting
    at row 128 * p + j; the phase gate goes the same way through a 4096 x 4 by 4 x 128 product;
  * the output step scales receiver row p of the finished accumulator by that row's reciprocal count and applies the
    update network with its residual.

  Format changes are the identity on the extended reals, a product into the zero accumulator is the plain sum over
  the contracted coordinate, and the lane sum over the sender axis is the plain sum over its 128 coordinates, so each
  reading is a chain of rewrites, one per operation, ending in the definition on the right.
-/
import proofs.«119065_j24043226923414_1_alg».proof.Proof.Spec
import proofs.«119065_j24043226923414_1_alg».proof.Proof.LibTileLayout
import proofs.«119065_j24043226923414_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.MsgPass.Tile

open Idealize.ShloMosaic Idealize.ShloMosaic.ValueIdx Cert.KernelIdeal Cert.KernelIdeal.Gen Cert.TileLayout

/-! ## Words and products at the tile's shapes -/

/-- A scalar float constant is the extended real its word encodes. -/
theorem scalar_ofBits_f32 (b : BitVec 32) : Scalar.ofBits (F := Ideal) .f32 b = Ideal.ofBits .f32 b := rfl

/-- A 32 x 128 by 128 x 128 product into the zero accumulator, at (p, q): the sum over the 128 contracted
    coordinates. -/
theorem mm_32x128 {φ₁ φ₂ : FTy} (lhs : FVec Ideal S32x128 φ₁) (rhs : FVec Ideal S128x128 φ₂) (p : Fin 32) (q : Fin 128) :
    matmul dot_S32x128_S128x128_S32x128_1_0_0_1_n_n none lhs rhs (constant S32x128 .f32 0x00000000#32) (ix2 p q)
      = ∑ k : Fin 128, lhs (ix2 p k) * rhs (ix2 k q) :=
  matmul_plain_zero_apply _ rfl none lhs rhs p q

/-! ## The weights read off the loaded tiles -/

/-- The update network's weights read off the loaded weight tiles; a bias is the one row of its 1 x 128 tile. -/
def updWeights (v83 v87 : Vec Ideal S128x128 .f32) (v90 : Vec Ideal S1x128 .f32) (v100 : Vec Ideal S128x128 .f32)
    (v103 : Vec Ideal S1x128 .f32) : UpdWeights :=
  ⟨fun d e => v83 (ix2 d e), fun d e => v87 (ix2 d e), fun e => v90 (ix2 0 e), fun d e => v100 (ix2 d e),
    fun e => v103 (ix2 0 e)⟩

/-! ## The value that starts the accumulator -/

/-- The accumulator's starting value at (p, q) is the zero word's value … -/
theorem pay2_apply (p : Fin 32) (q : Fin 128) :
    k0_pay2 (F := Ideal) (ix2 p q) = Ideal.ofBits .f32 0x00000000#32 := by
  unfold k0_pay2
  rw [shapeCast_self]
  rfl

/-- … which is zero. -/
theorem pay2_apply_zero (p : Fin 32) (q : Fin 128) : k0_pay2 (F := Ideal) (ix2 p q) = 0 := by
  rw [pay2_apply, Ideal.ofBits_zero_f32]

/-! ## The output step -/

/-- The stored output at receiver row p and feature q: the update network applied to the receiver's feature row and
    to row p of the accumulator scaled by that row's reciprocal count. -/
theorem pay1_apply (v3 : Vec Ideal S1x32x128 .f32) (v78 : Vec Ideal S32x128 .f32) (v79 : Vec Ideal S32x1 .f32)
    (v83 v87 : Vec Ideal S128x128 .f32) (v90 : Vec Ideal S1x128 .f32) (v100 : Vec Ideal S128x128 .f32)
    (v103 : Vec Ideal S1x128 .f32) (p : Fin 32) (q : Fin 128) :
    k0_pay1 (k0_pay3 v3) (k0_pay7 v3) v78 v79 v83 v87 v90 v100 v103 (ix3 0 p q)
      = updTerm (updWeights v83 v87 v90 v100 v103) (fun d => v3 (ix3 0 p d))
          (fun k => v78 (ix2 p k) * v79 (ix2 p 0)) q := by
  unfold k0_pay1 k0_pay7 k0_pay3
  simp only [shapeCast_ab_1ab_apply, shapeCast_1ab_ab_apply, shapeCast_self, shapeCast_1a_a_apply, shapeCast_a_1a_apply,
    broadcastTo_1b_ab_apply, broadcastTo_a1_ab_apply, addf_apply, mulf_apply, maximumf_apply, truncf_apply,
    broadcast_apply, mm_32x128, scalar_ofBits_f32, Ideal.ofBits_zero_f32]
  unfold updTerm lin updWeights
  rfl

/-! ## The accumulator step -/

/-- Pair (p, j) of the tile — receiver row p, sender row j — as a row of the flat 4096-row view: 128 * p + j. -/
def pairRow (p : Fin 32) (j : Fin 128) : Fin 4096 := ⟨p.val * 128 + j.val, by omega⟩

/-- The 32 x 128 x 128 tile viewed as 4096 x 128 reads, at the pair's row, the tile at the pair. -/
theorem cast_pairs_flat {φ : FTy} (x : FVec Ideal S32x128x128 φ) (h : S32x128x128.ShapeCasts S4096x128)
    (p : Fin 32) (j d : Fin 128) : shapeCast S4096x128 x h (ix2 (pairRow p j) d) = x (ix3 p j d) :=
  shapeCast_abc_nc_apply x h p j d (pairRow p j) rfl

/-- The same for the 32 x 128 x 4 tile of phase differences viewed as 4096 x 4. -/
theorem cast_pairs_flat4 {φ : FTy} (x : FVec Ideal S32x128x4 φ) (h : S32x128x4.ShapeCasts S4096x4)
    (p : Fin 32) (j : Fin 128) (o : Fin 4) : shapeCast S4096x4 x h (ix2 (pairRow p j) o) = x (ix3 p j o) :=
  shapeCast_abc_nc_apply x h p j o (pairRow p j) rfl

/-- A 4096 x 128 array viewed as the 32 x 128 x 128 tile reads, at a pair, the array at the pair's row. -/
theorem cast_flat_pairs {φ : FTy} (x : FVec Ideal S4096x128 φ) (h : S4096x128.ShapeCasts S32x128x128)
    (p : Fin 32) (j q : Fin 128) : shapeCast S32x128x128 x h (ix3 p j q) = x (ix2 (pairRow p j) q) :=
  shapeCast_nc_abc_apply x h p j q (pairRow p j) rfl

/-- A 128 x 128 by 128 x 128 product into the zero accumulator, at (j, d). -/
theorem mm_128x128 {φ₁ φ₂ : FTy} (lhs : FVec Ideal S128x128 φ₁) (rhs : FVec Ideal S128x128 φ₂) (j d : Fin 128) :
    matmul dot_S128x128_S128x128_S128x128_1_0_0_1_n_n none lhs rhs (constant S128x128 .f32 0x00000000#32) (ix2 j d)
      = ∑ e : Fin 128, lhs (ix2 j e) * rhs (ix2 e d) :=
  matmul_plain_zero_apply _ rfl none lhs rhs j d

/-- A 4096 x 128 by 128 x 128 product into the zero accumulator, at (r, q). -/
theorem mm_4096x128 {φ₁ φ₂ : FTy} (lhs : FVec Ideal S4096x128 φ₁) (rhs : FVec Ideal S128x128 φ₂) (r : Fin 4096)
    (q : Fin 128) :
    matmul dot_S4096x128_S128x128_S4096x128_1_0_0_1_n_n none lhs rhs (constant S4096x128 .f32 0x00000000#32) (ix2 r q)
      = ∑ d : Fin 128, lhs (ix2 r d) * rhs (ix2 d q) :=
  matmul_plain_zero_apply _ rfl none lhs rhs r q

/-- A 4096 x 4 by 4 x 128 product into the zero accumulator, at (r, q). -/
theorem mm_4096x4 {φ₁ φ₂ : FTy} (lhs : FVec Ideal S4096x4 φ₁) (rhs : FVec Ideal S4x128 φ₂) (r : Fin 4096)
    (q : Fin 128) :
    matmul dot_S4096x4_S4x128_S4096x128_1_0_0_1_n_n none lhs rhs (constant S4096x128 .f32 0x00000000#32) (ix2 r q)
      = ∑ o : Fin 4, lhs (ix2 r o) * rhs (ix2 o q) :=
  matmul_plain_zero_apply _ rfl none lhs rhs r q

/-- The lane sum over the tile's sender axis, at (p, q): the sum over the 128 sender rows. -/
theorem sum_senders (src : FVec Ideal S32x128x128 .f32) (h : S32x128x128.Reduces [1] S32x128) (hφ : FKind.Formats .f32)
    (hacc : (0x00000000#32 : BitVec 32) = 0x00000000#32) (p : Fin 32) (q : Fin 128) :
    multiReduction .add [1] S32x128 src 0x00000000#32 h hφ hacc (ix2 p q) = ∑ j : Fin 128, src (ix3 p j q) :=
  multiReduction_add_axis1_apply src _ h hφ hacc p q

/-- A cosine and a logistic of a vector, at an index. -/
theorem cos_apply {s : Shape} {φ : FTy} (x : FVec Ideal s φ) (i : s.Idx) :
    Idealize.ShloMosaic.cos x i = Ideal.cos (x i) := rfl
theorem logistic_apply {s : Shape} {φ : FTy} (x : FVec Ideal s φ) (i : s.Idx) :
    Idealize.ShloMosaic.logistic x i = Ideal.logistic (x i) := rfl

/-- The message network's and the gate's weights read off the loaded weight tiles. -/
def msgWeights (v15 v18 : Vec Ideal S128x128 .f32) (v21 : Vec Ideal S1x128 .f32) (v36 : Vec Ideal S128x128 .f32)
    (v39 : Vec Ideal S1x128 .f32) (v54 : Vec Ideal S4x128 .f32) (v57 : Vec Ideal S1x128 .f32) : MsgWeights :=
  ⟨fun d e => v15 (ix2 d e), fun d e => v18 (ix2 d e), fun e => v21 (ix2 0 e), fun d e => v36 (ix2 d e),
    fun e => v39 (ix2 0 e), fun o e => v54 (ix2 o e), fun e => v57 (ix2 0 e)⟩

theorem pay4_apply (v7 : Vec Ideal S1x32x4 .f32) (p : Fin 32) (o : Fin 4) : k0_pay4 v7 (ix2 p o) = v7 (ix3 0 p o) := by
  unfold k0_pay4; exact shapeCast_1ab_ab_apply _ _ p o
theorem pay5_apply (v9 : Vec Ideal S1x128x4 .f32) (j : Fin 128) (o : Fin 4) : k0_pay5 v9 (ix2 j o) = v9 (ix3 0 j o) := by
  unfold k0_pay5; exact shapeCast_1ab_ab_apply _ _ j o
theorem pay6_apply (v11 : Vec Ideal S32x128 .f32) (p : Fin 32) (j : Fin 128) : k0_pay6 v11 (ix2 p j) = v11 (ix2 p j) := by
  unfold k0_pay6; rw [shapeCast_self]

/-- The pre-activation of the hidden layer for the pair (p, j), at hidden unit d. -/
theorem pay8_apply (v3 : Vec Ideal S1x32x128 .f32) (v5 : Vec Ideal S1x128x128 .f32) (v15 v18 : Vec Ideal S128x128 .f32)
    (v21 : Vec Ideal S1x128 .f32) (p : Fin 32) (j d : Fin 128) :
    k0_pay8 v3 v5 v15 v18 v21 (ix3 p j d)
      = ((∑ e : Fin 128, v3 (ix3 0 p e) * v15 (ix2 e d)) + ∑ e : Fin 128, v5 (ix3 0 j e) * v18 (ix2 e d))
          + v21 (ix2 0 d) := by
  unfold k0_pay8 k0_pay7 k0_pay3
  simp only [addf_apply, broadcastTo_a1c_abc_apply, broadcastTo_1bc_abc_apply, broadcastTo_11c_abc_apply,
    shapeCast_ac_a1c_apply, shapeCast_ab_1ab_apply, shapeCast_c_11c_apply, shapeCast_1a_a_apply, shapeCast_self,
    shapeCast_1ab_ab_apply, truncf_apply, mm_32x128, mm_128x128]

/-- The accumulator step over any hidden pre-activations, phases and mask. -/
theorem pay9_apply (v8 : FVec Ideal S32x4 .f32) (v10 : FVec Ideal S128x4 .f32) (v12 : FVec Ideal S32x128 .f32)
    (v31 : FVec Ideal S32x128x128 .f32) (v36 : Vec Ideal S128x128 .f32) (v39 : Vec Ideal S1x128 .f32)
    (v54 : Vec Ideal S4x128 .f32) (v57 : Vec Ideal S1x128 .f32) (v70 : Vec Ideal S32x128 .f32) (p : Fin 32) (q : Fin 128) :
    k0_pay9 v8 v10 v12 v31 v36 v39 v54 v57 v70 (ix2 p q)
      = v70 (ix2 p q) + ∑ j : Fin 128,
          (((∑ d : Fin 128, max (v31 (ix3 p j d)) 0 * v36 (ix2 d q)) + v39 (ix2 0 q))
            * Ideal.logistic ((∑ o : Fin 4, Ideal.cos (v8 (ix2 p o) - v10 (ix2 j o)) * v54 (ix2 o q)) + v57 (ix2 0 q)))
          * v12 (ix2 p j) := by
  unfold k0_pay9
  simp only [shapeCast_self, addf_apply]
  rw [sum_senders]
  simp only [shapeCast_self, addf_apply, mulf_apply, subf_apply, maximumf_apply, truncf_apply,
    broadcast_apply, cos_apply, logistic_apply, scalar_ofBits_f32, Ideal.ofBits_zero_f32,
    broadcastTo_ab1_abc_apply, broadcastTo_a1c_abc_apply, broadcastTo_1bc_abc_apply, broadcastTo_1b_ab_apply,
    shapeCast_ab_ab1_apply, shapeCast_ac_a1c_apply, shapeCast_ab_1ab_apply, shapeCast_a_1a_apply, shapeCast_1a_a_apply,
    cast_flat_pairs, cast_pairs_flat, cast_pairs_flat4, mm_4096x128, mm_4096x4]

/-- The accumulator step at receiver row p and feature q: the accumulator plus the sum over the tile's sender rows of
    the gated message from sender to receiver times the pair's mask entry. -/
theorem acc_step (v3 : Vec Ideal S1x32x128 .f32) (v5 : Vec Ideal S1x128x128 .f32) (v7 : Vec Ideal S1x32x4 .f32)
    (v9 : Vec Ideal S1x128x4 .f32) (v11 : Vec Ideal S32x128 .f32) (v15 v18 v36 : Vec Ideal S128x128 .f32)
    (v21 v39 v57 : Vec Ideal S1x128 .f32) (v54 : Vec Ideal S4x128 .f32) (v70 : Vec Ideal S32x128 .f32)
    (p : Fin 32) (q : Fin 128) :
    k0_pay9 (k0_pay4 v7) (k0_pay5 v9) (k0_pay6 v11) (k0_pay8 v3 v5 v15 v18 v21) v36 v39 v54 v57 v70 (ix2 p q)
      = v70 (ix2 p q) + ∑ jj : Fin 128,
          pairTerm (msgWeights v15 v18 v21 v36 v39 v54 v57) (fun d => v3 (ix3 0 p d)) (fun d => v5 (ix3 0 jj d))
            (fun o => v7 (ix3 0 p o)) (fun o => v9 (ix3 0 jj o)) q * v11 (ix2 p jj) := by
  rw [pay9_apply]
  simp only [pay8_apply, pay4_apply, pay5_apply, pay6_apply]
  unfold pairTerm message gate hidden lin msgWeights
  rfl

/-- The same with the lane sum's zero initial value written out, as the zero word's value. -/
theorem acc_step_init (v3 : Vec Ideal S1x32x128 .f32) (v5 : Vec Ideal S1x128x128 .f32) (v7 : Vec Ideal S1x32x4 .f32)
    (v9 : Vec Ideal S1x128x4 .f32) (v11 : Vec Ideal S32x128 .f32) (v15 v18 v36 : Vec Ideal S128x128 .f32)
    (v21 v39 v57 : Vec Ideal S1x128 .f32) (v54 : Vec Ideal S4x128 .f32) (v70 : Vec Ideal S32x128 .f32)
    (p : Fin 32) (q : Fin 128) :
    k0_pay9 (k0_pay4 v7) (k0_pay5 v9) (k0_pay6 v11) (k0_pay8 v3 v5 v15 v18 v21) v36 v39 v54 v57 v70 (ix2 p q)
      = v70 (ix2 p q) + (Ideal.ofBits .f32 0x00000000#32 + ∑ jj : Fin 128,
          pairTerm (msgWeights v15 v18 v21 v36 v39 v54 v57) (fun d => v3 (ix3 0 p d)) (fun d => v5 (ix3 0 jj d))
            (fun o => v7 (ix3 0 p o)) (fun o => v9 (ix3 0 jj o)) q * v11 (ix2 p jj)) := by
  rw [acc_step, Ideal.ofBits_zero_f32, zero_add]

end Cert.MsgPass.Tile

end
-- ==== Proof.LibTileSum.lean ====
/-
  A sum over 512 indices, accumulated tile by tile.

  Cut the indices 0 … 511 into four consecutive tiles of 128. The partial sum after `n` tiles is the sum over the
  indices below 128·n. It starts at zero, each further tile adds the sum of its own 128 entries (entry `jj` of tile `n`
  is index 128·n + jj), and after the fourth tile it is the sum over all 512 indices. Stated in any commutative
  additive monoid, so no property of the summands is used.
-/
import Mathlib

namespace Cert.TileSum

open scoped BigOperators

variable {M : Type*} [AddCommMonoid M]

/-- The sum of `f` over the indices of the first `n` tiles of 128. -/
def partialSum (f : Fin 512 → M) (n : ℕ) : M :=
  ∑ s ∈ Finset.univ.filter (fun s : Fin 512 => s.val < 128 * n), f s

/-- Before the first tile the partial sum is zero. -/
theorem partialSum_zero (f : Fin 512 → M) : partialSum f 0 = 0 := by
  unfold partialSum
  rw [Finset.filter_false_of_mem (fun s _ => by omega), Finset.sum_empty]

/-- One more tile adds the sum of that tile's 128 entries. -/
theorem partialSum_succ (f : Fin 512 → M) (n : ℕ) (hn : n < 4) :
    partialSum f (n + 1) = partialSum f n + ∑ jj : Fin 128, f ⟨128 * n + jj.val, by omega⟩ := by
  unfold partialSum
  have hsplit : Finset.univ.filter (fun s : Fin 512 => s.val < 128 * (n + 1))
      = Finset.univ.filter (fun s : Fin 512 => s.val < 128 * n)
        ∪ Finset.univ.filter (fun s : Fin 512 => 128 * n ≤ s.val ∧ s.val < 128 * (n + 1)) := by
    ext s
    simp only [Finset.mem_filter, Finset.mem_univ, true_and, Finset.mem_union]
    omega
  have hdisj : Disjoint (Finset.univ.filter (fun s : Fin 512 => s.val < 128 * n))
      (Finset.univ.filter (fun s : Fin 512 => 128 * n ≤ s.val ∧ s.val < 128 * (n + 1))) := by
    rw [Finset.disjoint_filter]
    intro s _ h1 h2
    omega
  rw [hsplit, Finset.sum_union hdisj]
  congr 1
  symm
  refine Finset.sum_bij (fun (jj : Fin 128) _ => (⟨128 * n + jj.val, by omega⟩ : Fin 512)) ?_ ?_ ?_ ?_
  · intro jj _
    simp only [Finset.mem_filter, Finset.mem_univ, true_and]
    omega
  · intro a _ b _ h
    have := congrArg Fin.val h
    simp only at this
    exact Fin.ext (by omega)
  · intro s hs
    simp only [Finset.mem_filter, Finset.mem_univ, true_and] at hs
    exact ⟨⟨s.val - 128 * n, by omega⟩, Finset.mem_univ _, Fin.ext (by simp only; omega)⟩
  · intro jj _
    rfl

/-- After the fourth tile the partial sum is the whole sum. -/
theorem partialSum_four (f : Fin 512 → M) : partialSum f 4 = ∑ s : Fin 512, f s := by
  unfold partialSum
  rw [Finset.filter_true_of_mem (fun s _ => by have := s.isLt; omega)]

end Cert.TileSum
-- ==== Proof.KAccum.lean ====
/-
  One grid point of the message-passing kernel, as arithmetic on partial sums.

  Fix a batch b, a receiver tile r (rows 32 r … 32 r + 31) and a feature q. The kernel visits the four sender tiles
  k = 0, 1, 2, 3 (rows 128 k … 128 k + 127) in order and keeps, for every receiver row n of the tile, the sum of the
  gated, masked messages from the senders seen so far. `contrib` is one sender's term of that sum. `acc_tile` says
  one accumulator step takes the partial sum over the first k sender tiles to the one over the first k + 1, whatever
  the loaded tiles are called, provided they hold the rows they should; `out_tile` says that once the sum is whole
  the output step produces Spec.lean's `out` at that receiver row.
-/
import proofs.«119065_j24043226923414_1_alg».proof.Proof.Spec
import proofs.«119065_j24043226923414_1_alg».proof.Proof.SpecArrays
import proofs.«119065_j24043226923414_1_alg».proof.Proof.TilePay
import proofs.«119065_j24043226923414_1_alg».proof.Proof.LibTileSum

noncomputable section

namespace Cert.MsgPass.Accum

open Idealize.ShloMosaic Idealize.ShloMosaic.ValueIdx Cert.KernelIdeal Cert.KernelIdeal.Gen
open Cert.MsgPass Cert.MsgPass.Tile Cert.TileSum

/-- Sender s's gated message into receiver n of batch b at feature q, times the pair's mask entry: one term of the
    aggregation. -/
def contrib (P : MsgWeights) (X : Fin 2 → Fin 512 → Fin 128 → EReal) (PH : Fin 2 → Fin 512 → Fin 4 → EReal)
    (Mk : Fin 512 → Fin 512 → EReal) (b : Fin 2) (n : Fin 512) (q : Fin 128) (s : Fin 512) : EReal :=
  pairTerm P (X b n) (X b s) (PH b n) (PH b s) q * Mk n s

/-- The aggregation of Spec.lean is the sum of the contributions of all 512 senders. -/
theorem aggSum_eq (P : MsgWeights) (X : Fin 2 → Fin 512 → Fin 128 → EReal) (PH : Fin 2 → Fin 512 → Fin 4 → EReal)
    (Mk : Fin 512 → Fin 512 → EReal) (b : Fin 2) (n : Fin 512) (q : Fin 128) :
    aggSum P X PH Mk b n q = ∑ s : Fin 512, contrib P X PH Mk b n q s := rfl

/-- One accumulator step: with the receiver tile r and the sender tile k loaded, the partial sum over the first k
    sender tiles becomes the partial sum over the first k + 1. -/
theorem acc_tile (P : MsgWeights) (X : Fin 2 → Fin 512 → Fin 128 → EReal) (PH : Fin 2 → Fin 512 → Fin 4 → EReal)
    (Mk : Fin 512 → Fin 512 → EReal) (b : Fin 2) (r k : ℕ) (hr : r < 16) (hk : k < 4)
    (x0 : Vec Ideal S1x32x128 .f32) (x1 : Vec Ideal S1x128x128 .f32) (x2 : Vec Ideal S1x32x4 .f32)
    (x3 : Vec Ideal S1x128x4 .f32) (x4 : Vec Ideal S32x128 .f32) (x6 x7 : Vec Ideal S128x128 .f32)
    (x8 : Vec Ideal S1x128 .f32) (x9 : Vec Ideal S128x128 .f32) (x10 : Vec Ideal S1x128 .f32)
    (x11 : Vec Ideal S4x128 .f32) (x12 : Vec Ideal S1x128 .f32) (xs : Vec Ideal S32x128 .f32)
    (h0 : ∀ (p : Fin 32) (d : Fin 128), x0 (ix3 0 p d) = X b ⟨32 * r + p.val, by omega⟩ d)
    (h1 : ∀ (jj d : Fin 128), x1 (ix3 0 jj d) = X b ⟨128 * k + jj.val, by omega⟩ d)
    (h2 : ∀ (p : Fin 32) (o : Fin 4), x2 (ix3 0 p o) = PH b ⟨32 * r + p.val, by omega⟩ o)
    (h3 : ∀ (jj : Fin 128) (o : Fin 4), x3 (ix3 0 jj o) = PH b ⟨128 * k + jj.val, by omega⟩ o)
    (h4 : ∀ (p : Fin 32) (jj : Fin 128), x4 (ix2 p jj) = Mk ⟨32 * r + p.val, by omega⟩ ⟨128 * k + jj.val, by omega⟩)
    (hW : msgWeights x6 x7 x8 x9 x10 x11 x12 = P) (p : Fin 32) (q : Fin 128)
    (hxs : xs (ix2 p q) = partialSum (contrib P X PH Mk b ⟨32 * r + p.val, by omega⟩ q) k) :
    k0_pay9 (k0_pay4 x2) (k0_pay5 x3) (k0_pay6 x4) (k0_pay8 x0 x1 x6 x7 x8) x9 x10 x11 x12 xs (ix2 p q)
      = partialSum (contrib P X PH Mk b ⟨32 * r + p.val, by omega⟩ q) (k + 1) := by
  rw [acc_step x0 x1 x2 x3 x4 x6 x7 x9 x8 x10 x12 x11 xs p q, hW, hxs, partialSum_succ _ k hk]
  refine congrArg _ (Finset.sum_congr rfl fun jj _ => ?_)
  simp only [h0, h1, h2, h3, h4]
  rfl

/-- The output step: with the receiver tile's feature rows, its reciprocal counts and the whole aggregation in the
    accumulator, the stored value at receiver row p and feature q is Spec.lean's `out` at that row. -/
theorem out_tile (P : MsgWeights) (Q : UpdWeights) (X : Fin 2 → Fin 512 → Fin 128 → EReal)
    (PH : Fin 2 → Fin 512 → Fin 4 → EReal) (Mk : Fin 512 → Fin 512 → EReal) (R : Fin 512 → EReal) (b : Fin 2)
    (r : ℕ) (hr : r < 16) (x0 : Vec Ideal S1x32x128 .f32) (acc : Vec Ideal S32x128 .f32) (x5 : Vec Ideal S32x1 .f32)
    (x13 x14 : Vec Ideal S128x128 .f32) (x15 : Vec Ideal S1x128 .f32) (x16 : Vec Ideal S128x128 .f32)
    (x17 : Vec Ideal S1x128 .f32)
    (h0 : ∀ (p : Fin 32) (d : Fin 128), x0 (ix3 0 p d) = X b ⟨32 * r + p.val, by omega⟩ d)
    (h5 : ∀ p : Fin 32, x5 (ix2 p 0) = R ⟨32 * r + p.val, by omega⟩)
    (hQ : updWeights x13 x14 x15 x16 x17 = Q)
    (hacc : ∀ (p : Fin 32) (k : Fin 128), acc (ix2 p k) = ∑ s : Fin 512, contrib P X PH Mk b ⟨32 * r + p.val, by omega⟩ k s)
    (p : Fin 32) (q : Fin 128) :
    k0_pay1 (k0_pay3 x0) (k0_pay7 x0) acc x5 x13 x14 x15 x16 x17 (ix3 0 p q)
      = out P Q X PH Mk R b ⟨32 * r + p.val, by omega⟩ q := by
  rw [pay1_apply x0 acc x5 x13 x14 x15 x16 x17 p q, hQ]
  simp only [h0, h5, hacc]
  rfl

/-- The message weights read off loaded tiles are the weights read off the arrays, when each weight tile is its whole
    array and each bias tile's one row is its bias vector. -/
theorem msgWeights_eq (x6 x7 : Vec Ideal S128x128 .f32) (x8 : Vec Ideal S1x128 .f32) (x9 : Vec Ideal S128x128 .f32)
    (x10 : Vec Ideal S1x128 .f32) (x11 : Vec Ideal S4x128 .f32) (x12 : Vec Ideal S1x128 .f32)
    (A3 A4 : FVec Ideal ⟨2, ![128, 128]⟩ .f32) (A5 : FVec Ideal ⟨1, ![128]⟩ .f32) (A6 : FVec Ideal ⟨2, ![128, 128]⟩ .f32)
    (A7 : FVec Ideal ⟨1, ![128]⟩ .f32) (A8 : FVec Ideal ⟨2, ![4, 128]⟩ .f32) (A9 : FVec Ideal ⟨1, ![128]⟩ .f32)
    (e6 : x6 = A3) (e7 : x7 = A4) (e8 : ∀ e : Fin 128, x8 (ix2 0 e) = A5 (ix1 e)) (e9 : x9 = A6)
    (e10 : ∀ e : Fin 128, x10 (ix2 0 e) = A7 (ix1 e)) (e11 : x11 = A8) (e12 : ∀ e : Fin 128, x12 (ix2 0 e) = A9 (ix1 e)) :
    msgWeights x6 x7 x8 x9 x10 x11 x12 = msgW A3 A4 A5 A6 A7 A8 A9 := by
  subst e6 e7 e9 e11
  unfold msgWeights msgW
  simp only [e8, e10, e12]

/-- The same for the update network's weights. -/
theorem updWeights_eq (x13 x14 : Vec Ideal S128x128 .f32) (x15 : Vec Ideal S1x128 .f32) (x16 : Vec Ideal S128x128 .f32)
    (x17 : Vec Ideal S1x128 .f32) (A10 A11 : FVec Ideal ⟨2, ![128, 128]⟩ .f32) (A12 : FVec Ideal ⟨1, ![128]⟩ .f32)
    (A13 : FVec Ideal ⟨2, ![128, 128]⟩ .f32) (A14 : FVec Ideal ⟨1, ![128]⟩ .f32)
    (e13 : x13 = A10) (e14 : x14 = A11) (e15 : ∀ e : Fin 128, x15 (ix2 0 e) = A12 (ix1 e)) (e16 : x16 = A13)
    (e17 : ∀ e : Fin 128, x17 (ix2 0 e) = A14 (ix1 e)) :
    updWeights x13 x14 x15 x16 x17 = updW A10 A11 A12 A13 A14 := by
  subst e13 e14 e16
  unfold updWeights updW
  simp only [e15, e17]

end Cert.MsgPass.Accum

end
-- ==== Proof.KFinal.lean ====
/-
  The kernel's result array after the run is the layer of the argument arrays.

  The grid is 2 batches x 16 receiver tiles x 4 sender tiles, walked with the sender tile fastest. At every point the
  accumulator holds, for each receiver row of the tile and each feature, the sum of the gated, masked messages from the
  senders of the tiles visited so far in the current group of four: the first sender tile starts from zero, each later
  one adds its own 128 senders, and within a group the batch and the receiver tile do not move. At a last sender tile
  the sum is over all 512 senders, and the block stored there is the update network applied to the receiver rows and to
  that sum scaled by the reciprocal counts: the layer's value at that batch, those 32 receiver rows and every feature.
  Each index (b, n, e) of the result array lies in the block stored at the last sender tile of batch b and receiver
  tile n / 32, so the blocks written back tile the array and the array is the layer, index by index.
-/
import proofs.«119065_j24043226923414_1_alg».proof.Proof.FrameKI.Data
import proofs.«119065_j24043226923414_1_alg».proof.Proof.FrameKI.Run
import proofs.«119065_j24043226923414_1_alg».proof.Proof.FrameKI.Pieces
import proofs.«119065_j24043226923414_1_alg».proof.Proof.KBlocks
import proofs.«119065_j24043226923414_1_alg».proof.Proof.HostArrays
import proofs.«119065_j24043226923414_1_alg».proof.Proof.SpecArrays
import proofs.«119065_j24043226923414_1_alg».proof.Proof.KAccum
import Idealize.ShloMosaic.Lib.Pipeline.Value

set_option maxRecDepth 16384

noncomputable section

namespace Cert.MsgPass.Accum

open Idealize.ShloMosaic Idealize.ShloMosaic.ValueIdx Idealize.ShloMosaic.TcCoe Idealize.SL.Sem
open Cert.KernelIdeal Cert.KernelIdeal.Gen Cert.KernelIdeal.Hand
open Cert.MsgPass Cert.MsgPass.Tile Cert.MsgPass.Host Cert.MsgPass.Blocks Cert.TileSum

variable (m : (ℓ : Loc nD τ sig) → Buf (Elt Ideal) ℓ) (c : Dev nD)

/-! ## The argument arrays, and the layer's ingredients read off them -/

abbrev a0 : FVec Ideal ⟨3, ![2, 512, 128]⟩ .f32 := V m c main_arg0
abbrev a1 : FVec Ideal ⟨3, ![2, 512, 4]⟩ .f32 := V m c main_arg1
abbrev a2 : IVec ⟨2, ![512, 512]⟩ 32 := m ((c : Thread nD τ).loc main_arg2)
abbrev a3 : FVec Ideal ⟨2, ![128, 128]⟩ .f32 := V m c main_arg3
abbrev a4 : FVec Ideal ⟨2, ![128, 128]⟩ .f32 := V m c main_arg4
abbrev a5 : FVec Ideal ⟨1, ![128]⟩ .f32 := m ((c : Thread nD τ).loc main_arg5)
abbrev a6 : FVec Ideal ⟨2, ![128, 128]⟩ .f32 := V m c main_arg6
abbrev a7 : FVec Ideal ⟨1, ![128]⟩ .f32 := m ((c : Thread nD τ).loc main_arg7)
abbrev a8 : FVec Ideal ⟨2, ![4, 128]⟩ .f32 := V m c main_arg8
abbrev a9 : FVec Ideal ⟨1, ![128]⟩ .f32 := m ((c : Thread nD τ).loc main_arg9)
abbrev a10 : FVec Ideal ⟨2, ![128, 128]⟩ .f32 := V m c main_arg10
abbrev a11 : FVec Ideal ⟨2, ![128, 128]⟩ .f32 := V m c main_arg11
abbrev a12 : FVec Ideal ⟨1, ![128]⟩ .f32 := m ((c : Thread nD τ).loc main_arg12)
abbrev a13 : FVec Ideal ⟨2, ![128, 128]⟩ .f32 := V m c main_arg13
abbrev a14 : FVec Ideal ⟨1, ![128]⟩ .f32 := m ((c : Thread nD τ).loc main_arg14)

/-- The message weights, the update weights, the feature rows, the phase rows, the mask and the reciprocal counts of
    the launch's arrays. -/
abbrev PW : MsgWeights := msgW (a3 m c) (a4 m c) (a5 m c) (a6 m c) (a7 m c) (a8 m c) (a9 m c)
abbrev QW : UpdWeights := updW (a10 m c) (a11 m c) (a12 m c) (a13 m c) (a14 m c)
abbrev XR : Fin 2 → Fin 512 → Fin 128 → EReal := rows3 (a0 m c)
abbrev PHR : Fin 2 → Fin 512 → Fin 4 → EReal := rows3 (a1 m c)
abbrev MK : Fin 512 → Fin 512 → EReal := maskOf (words2 (a2 m c))
abbrev RC : Fin 512 → EReal := recipOf (words2 (a2 m c))

/-- The whole result array. -/
abbrev LAYER : FVec Ideal ⟨3, ![2, 512, 128]⟩ .f32 :=
  layerOf (a0 m c) (a1 m c) (a2 m c) (a3 m c) (a4 m c) (a5 m c) (a6 m c) (a7 m c) (a8 m c) (a9 m c) (a10 m c) (a11 m c)
    (a12 m c) (a13 m c) (a14 m c)

/-! ## A grid point's batch, receiver rows and sender rows -/

/-- The batch of grid point t. -/
def batchOf (t : Fin cfg0.N) : Fin 2 := ⟨t.val / 64, by have := tlt t; omega⟩
/-- Receiver row p of grid point t's receiver tile. -/
def recvRow (t : Fin cfg0.N) (p : Fin 32) : Fin 512 := ⟨32 * ((t.val / 4) % 16) + p.val, by omega⟩

/-! ## What the loaded tiles hold at a grid point -/

theorem hb0 (t : Fin cfg0.N) (p : Fin 32) (d : Fin 128) :
    (iblk m c 0 t : S1x32x128.Idx → EReal) (ix3 0 p d) = XR m c (batchOf t) ⟨32 * ((t.val / 4) % 16) + p.val, by omega⟩ d :=
  blk0 m c t p d
theorem hb1 (t : Fin cfg0.N) (jj d : Fin 128) :
    (iblk m c 1 t : S1x128x128.Idx → EReal) (ix3 0 jj d) = XR m c (batchOf t) ⟨128 * (t.val % 4) + jj.val, by omega⟩ d :=
  blk1 m c t jj d
theorem hb2 (t : Fin cfg0.N) (p : Fin 32) (o : Fin 4) :
    (iblk m c 2 t : S1x32x4.Idx → EReal) (ix3 0 p o) = PHR m c (batchOf t) ⟨32 * ((t.val / 4) % 16) + p.val, by omega⟩ o :=
  blk2 m c t p o
theorem hb3 (t : Fin cfg0.N) (jj : Fin 128) (o : Fin 4) :
    (iblk m c 3 t : S1x128x4.Idx → EReal) (ix3 0 jj o) = PHR m c (batchOf t) ⟨128 * (t.val % 4) + jj.val, by omega⟩ o :=
  blk3 m c t jj o
theorem hb4 (t : Fin cfg0.N) (p : Fin 32) (jj : Fin 128) :
    (iblk m c 4 t : S32x128.Idx → EReal) (ix2 p jj)
      = MK m c ⟨32 * ((t.val / 4) % 16) + p.val, by omega⟩ ⟨128 * (t.val % 4) + jj.val, by omega⟩ :=
  (blk4 m c t p jj).trans (mask_apply m c _ _)
theorem hb5 (t : Fin cfg0.N) (p : Fin 32) :
    (iblk m c 5 t : S32x1.Idx → EReal) (ix2 p 0) = RC m c ⟨32 * ((t.val / 4) % 16) + p.val, by omega⟩ :=
  (blk5 m c t p).trans (recip_apply m c _)

/-- The message weights as loaded at any point are the arrays' weights. -/
theorem hW (t : Fin cfg0.N) :
    msgWeights (iblk m c 6 t) (iblk m c 7 t) (iblk m c 8 t) (iblk m c 9 t) (iblk m c 10 t) (iblk m c 11 t) (iblk m c 12 t)
      = PW m c :=
  msgWeights_eq (iblk m c 6 t) (iblk m c 7 t) (iblk m c 8 t) (iblk m c 9 t) (iblk m c 10 t) (iblk m c 11 t) (iblk m c 12 t)
    (a3 m c) (a4 m c) (a5 m c) (a6 m c) (a7 m c) (a8 m c) (a9 m c)
    (blk6 m c t) (blk7 m c t)
    (fun e => (congrFun (blk8 m c t) (ix2 0 e)).trans (bias_v9 m c e))
    (blk9 m c t)
    (fun e => (congrFun (blk10 m c t) (ix2 0 e)).trans (bias_v10 m c e))
    (blk11 m c t)
    (fun e => (congrFun (blk12 m c t) (ix2 0 e)).trans (bias_v11 m c e))

/-- The update weights as loaded at any point are the arrays' weights. -/
theorem hQ (t : Fin cfg0.N) :
    updWeights (iblk m c 13 t) (iblk m c 14 t) (iblk m c 15 t) (iblk m c 16 t) (iblk m c 17 t) = QW m c :=
  updWeights_eq (iblk m c 13 t) (iblk m c 14 t) (iblk m c 15 t) (iblk m c 16 t) (iblk m c 17 t)
    (a10 m c) (a11 m c) (a12 m c) (a13 m c) (a14 m c)
    (blk13 m c t) (blk14 m c t)
    (fun e => (congrFun (blk15 m c t) (ix2 0 e)).trans (bias_v12 m c e))
    (blk16 m c t)
    (fun e => (congrFun (blk17 m c t) (ix2 0 e)).trans (bias_v13 m c e))

/-! ## One grid point -/

/-- The accumulator after grid point t's step, over the accumulator found. -/
def stepAt (t : Fin cfg0.N) (xs : Vec Ideal S32x128 .f32) : Vec Ideal S32x128 .f32 :=
  k0_pay9 (k0_pay4 (iblk m c 2 t)) (k0_pay5 (iblk m c 3 t)) (k0_pay6 (iblk m c 4 t))
    (k0_pay8 (iblk m c 0 t) (iblk m c 1 t) (iblk m c 6 t) (iblk m c 7 t) (iblk m c 8 t))
    (iblk m c 9 t) (iblk m c 10 t) (iblk m c 11 t) (iblk m c 12 t) xs

/-- The output block grid point t stores, over the accumulator found. -/
def outAt (t : Fin cfg0.N) (xs : Vec Ideal S32x128 .f32) : Vec Ideal S1x32x128 .f32 :=
  k0_pay1 (k0_pay3 (iblk m c 0 t)) (k0_pay7 (iblk m c 0 t)) (stepAt m c t xs) (iblk m c 5 t) (iblk m c 13 t)
    (iblk m c 14 t) (iblk m c 15 t) (iblk m c 16 t) (iblk m c 17 t)

/-- One step at grid point t: sender tile t mod 4 joins the partial sum. -/
theorem stepAt_apply (t : Fin cfg0.N) (xs : Vec Ideal S32x128 .f32) (p : Fin 32) (q : Fin 128)
    (hxs : xs (ix2 p q) = partialSum (contrib (PW m c) (XR m c) (PHR m c) (MK m c) (batchOf t) (recvRow t p) q) (t.val % 4)) :
    stepAt m c t xs (ix2 p q) = partialSum (contrib (PW m c) (XR m c) (PHR m c) (MK m c) (batchOf t) (recvRow t p) q) (t.val % 4 + 1) :=
  acc_tile (PW m c) (XR m c) (PHR m c) (MK m c) (batchOf t) ((t.val / 4) % 16) (t.val % 4) (by omega) (by omega)
    (iblk m c 0 t) (iblk m c 1 t) (iblk m c 2 t) (iblk m c 3 t) (iblk m c 4 t) (iblk m c 6 t) (iblk m c 7 t) (iblk m c 8 t)
    (iblk m c 9 t) (iblk m c 10 t) (iblk m c 11 t) (iblk m c 12 t) xs
    (hb0 m c t) (hb1 m c t) (hb2 m c t) (hb3 m c t) (hb4 m c t) (hW m c t) p q hxs

/-! ## The output window's blocks -/

/-- An index of the result array is in grid point t's output block exactly when each coordinate is in the block's
    range on its axis. -/
theorem mem_blk18 (t : Fin cfg0.N) (i : S2x512x128.Idx) :
    i ∈ ((cfg0.win 18).blk t).view.set ↔ ∀ a : Fin 3, win0_18.index t a * S1x32x128.size a ≤ (i a).val
      ∧ (i a).val < win0_18.index t a * S1x32x128.size a + S1x32x128.size a := by
  show i ∈ ((View.whole main_v14).slice (win0_18.rect t)).set ↔ _
  rw [View.set_slice_whole, Rect.mem_set_unit]
  exact Iff.rfl

/-- Every index (b, n, e) of the result array lies in the output block of the last sender tile of batch b and
    receiver tile n / 32. -/
theorem cover (i : S2x512x128.Idx) :
    ∃ t : Fin cfg0.N, (cfg0.win 18).flush t = true ∧ i ∈ ((cfg0.win 18).blk t).view.set := by
  have hi0 : (i 0).val < 2 := (i 0).isLt
  have hi1 : (i 1).val < 512 := (i 1).isLt
  have hi2 : (i 2).val < 128 := (i 2).isLt
  have hN : cfg0.N = 128 := N_0
  have hlt : 64 * (i 0).val + 4 * ((i 1).val / 32) + 3 < cfg0.N := by rw [hN]; omega
  obtain ⟨e0, e1, e2⟩ := idx18 ⟨64 * (i 0).val + 4 * ((i 1).val / 32) + 3, hlt⟩
  have e0' : win0_18.index ⟨64 * (i 0).val + 4 * ((i 1).val / 32) + 3, hlt⟩ (0 : Fin 3)
      = (64 * (i 0).val + 4 * ((i 1).val / 32) + 3) / 64 := e0
  have e1' : win0_18.index ⟨64 * (i 0).val + 4 * ((i 1).val / 32) + 3, hlt⟩ (1 : Fin 3)
      = ((64 * (i 0).val + 4 * ((i 1).val / 32) + 3) / 4) % 16 := e1
  refine ⟨⟨64 * (i 0).val + 4 * ((i 1).val / 32) + 3, hlt⟩,
    (flush0_18 _).mpr (by show (64 * (i 0).val + 4 * ((i 1).val / 32) + 3) % 4 = 3; omega), ?_⟩
  rw [mem_blk18]
  intro a
  match a with
  | ⟨0, _⟩ =>
    show win0_18.index _ (0 : Fin 3) * 1 ≤ (i 0).val ∧ (i 0).val < win0_18.index _ (0 : Fin 3) * 1 + 1
    omega
  | ⟨1, _⟩ =>
    show win0_18.index _ (1 : Fin 3) * 32 ≤ (i 1).val ∧ (i 1).val < win0_18.index _ (1 : Fin 3) * 32 + 32
    omega
  | ⟨2, _⟩ =>
    show win0_18.index _ (2 : Fin 3) * 128 ≤ (i 2).val ∧ (i 2).val < win0_18.index _ (2 : Fin 3) * 128 + 128
    omega

/-! ## The accumulator along the grid -/

section Cases

variable (HA : ∀ (t : Fin cfg0.N) (h0 : t.val % 4 = 0) (h1 : ¬t.val % 4 = 3),
    soutA_at m c t h0 h1 = stepAt m c t (k0_pay2 (F := Ideal)))
  (HB : ∀ (t : Fin cfg0.N) (h0 : ¬t.val % 4 = 0) (h1 : ¬t.val % 4 = 3) (xs : Vec Ideal S32x128 .f32),
    soutB_at m c t h0 h1 xs = stepAt m c t xs)
  (HC : ∀ (t : Fin cfg0.N) (h0 : ¬t.val % 4 = 0) (h1 : t.val % 4 = 3) (xs : Vec Ideal S32x128 .f32),
    soutC_at m c t h0 h1 xs = stepAt m c t xs)
  (HO : ∀ (t : Fin cfg0.N) (h0 : ¬t.val % 4 = 0) (h1 : t.val % 4 = 3) (xs : Vec Ideal S32x128 .f32),
    outC_at m c t h0 h1 xs = outAt m c t xs)

include HA HB HC in
/-- After grid point n the accumulator holds, at receiver row p and feature q, the partial sum over the sender tiles
    visited so far in the current group of four. -/
theorem inv : ∀ (n : ℕ) (hn : n < cfg0.N) (p : Fin 32) (q : Fin 128),
    (outsAt m c n hn).2 (ix2 p q)
      = partialSum (contrib (PW m c) (XR m c) (PHR m c) (MK m c) (batchOf ⟨n, hn⟩) (recvRow ⟨n, hn⟩ p) q) (n % 4 + 1) := by
  intro n
  induction n with
  | zero =>
    intro hn p q
    have h00 : (⟨0, hn⟩ : Fin cfg0.N).val % 4 = 0 := Nat.zero_mod _
    have h01 : ¬(⟨0, hn⟩ : Fin cfg0.N).val % 4 = 3 := by show ¬0 % 4 = 3; decide
    have e := outsAt_A m c ⟨0, hn⟩ h00 h01
    have es : (outsAt m c 0 hn).2 = soutA_at m c ⟨0, hn⟩ h00 h01 := by rw [e]
    have hc := HA ⟨0, hn⟩ h00 h01
    rw [es, hc]
    refine stepAt_apply m c ⟨0, hn⟩ (k0_pay2 (F := Ideal)) p q ?_
    show k0_pay2 (F := Ideal) (ix2 p q) = partialSum _ 0
    rw [partialSum_zero]; exact pay2_apply_zero p q
  | succ n ih =>
    intro hn p q
    have hn' : n < cfg0.N := Nat.lt_of_succ_lt hn
    by_cases h0 : (n + 1) % 4 = 0
    · have h1 : ¬(n + 1) % 4 = 3 := by omega
      have e := outsAt_A m c ⟨n + 1, hn⟩ h0 h1
      have es : (outsAt m c (n + 1) hn).2 = soutA_at m c ⟨n + 1, hn⟩ h0 h1 := by rw [e]
      have hc := HA ⟨n + 1, hn⟩ h0 h1
      rw [es, hc]
      refine stepAt_apply m c ⟨n + 1, hn⟩ (k0_pay2 (F := Ideal)) p q ?_
      show k0_pay2 (F := Ideal) (ix2 p q) = partialSum _ ((n + 1) % 4)
      rw [h0, partialSum_zero]; exact pay2_apply_zero p q
    · have hprev : (outsAt m c n hn').2 (ix2 p q)
          = partialSum (contrib (PW m c) (XR m c) (PHR m c) (MK m c) (batchOf ⟨n + 1, hn⟩) (recvRow ⟨n + 1, hn⟩ p) q) ((n + 1) % 4) := by
        have eb : batchOf ⟨n, hn'⟩ = batchOf ⟨n + 1, hn⟩ := Fin.ext (by show n / 64 = (n + 1) / 64; omega)
        have er : recvRow ⟨n, hn'⟩ p = recvRow ⟨n + 1, hn⟩ p :=
          Fin.ext (by show 32 * ((n / 4) % 16) + p.val = 32 * (((n + 1) / 4) % 16) + p.val; omega)
        have ek : n % 4 + 1 = (n + 1) % 4 := by omega
        rw [ih hn' p q, eb, er, ek]
      by_cases h1 : (n + 1) % 4 = 3
      · have e : outsAt m c (n + 1) hn = (outC_at m c ⟨n + 1, hn⟩ h0 h1 (outsAt m c n hn').2,
            soutC_at m c ⟨n + 1, hn⟩ h0 h1 (outsAt m c n hn').2) := (dif_neg h0).trans ((dif_pos h1).trans rfl)
        have es : (outsAt m c (n + 1) hn).2 = soutC_at m c ⟨n + 1, hn⟩ h0 h1 (outsAt m c n hn').2 := by rw [e]
        have hc := HC ⟨n + 1, hn⟩ h0 h1 (outsAt m c n hn').2
        rw [es, hc]
        exact stepAt_apply m c ⟨n + 1, hn⟩ (outsAt m c n hn').2 p q hprev
      · have e : outsAt m c (n + 1) hn = (idleOut, soutB_at m c ⟨n + 1, hn⟩ h0 h1 (outsAt m c n hn').2) :=
          (dif_neg h0).trans ((dif_neg h1).trans rfl)
        have es : (outsAt m c (n + 1) hn).2 = soutB_at m c ⟨n + 1, hn⟩ h0 h1 (outsAt m c n hn').2 := by rw [e]
        have hc := HB ⟨n + 1, hn⟩ h0 h1 (outsAt m c n hn').2
        rw [es, hc]
        exact stepAt_apply m c ⟨n + 1, hn⟩ (outsAt m c n hn').2 p q hprev

/-! ## The output block at a last sender tile -/

include HA HB HC HO in
/-- At a last sender tile the stored block holds, at receiver row p and feature q, the layer's value at that batch,
    that receiver and that feature. -/
theorem out_blk (t : Fin cfg0.N) (h1 : t.val % 4 = 3) (p : Fin 32) (q : Fin 128) :
    (outsAt m c t.val t.isLt).1 (ix3 0 p q) = LAYER m c (ix3 (batchOf t) (recvRow t p) q) := by
  have h0 : ¬t.val % 4 = 0 := by omega
  have e := outsAt_C m c t h0 h1
  have ef : (outsAt m c t.val t.isLt).1 = outC_at m c t h0 h1 (outsAt m c (t.val - 1) (Nat.lt_of_le_of_lt (Nat.sub_le _ _) t.isLt)).2 := by rw [e]
  have es : (outsAt m c t.val t.isLt).2 = soutC_at m c t h0 h1 (outsAt m c (t.val - 1) (Nat.lt_of_le_of_lt (Nat.sub_le _ _) t.isLt)).2 := by rw [e]
  have ho := HO t h0 h1 (outsAt m c (t.val - 1) (Nat.lt_of_le_of_lt (Nat.sub_le _ _) t.isLt)).2
  have hc := HC t h0 h1 (outsAt m c (t.val - 1) (Nat.lt_of_le_of_lt (Nat.sub_le _ _) t.isLt)).2
  have e2 : (outsAt m c t.val t.isLt).2 = stepAt m c t (outsAt m c (t.val - 1) (Nat.lt_of_le_of_lt (Nat.sub_le _ _) t.isLt)).2 := es.trans hc
  rw [ef, ho]
  unfold outAt
  refine (out_tile (PW m c) (QW m c) (XR m c) (PHR m c) (MK m c) (RC m c) (batchOf t) ((t.val / 4) % 16) (by omega)
    (iblk m c 0 t) (stepAt m c t (outsAt m c (t.val - 1) (Nat.lt_of_le_of_lt (Nat.sub_le _ _) t.isLt)).2) (iblk m c 5 t)
    (iblk m c 13 t) (iblk m c 14 t) (iblk m c 15 t) (iblk m c 16 t) (iblk m c 17 t)
    (hb0 m c t) (hb5 m c t) (hQ m c t) ?_ p q).trans rfl
  intro p' k
  rw [← e2, inv m c HA HB HC t.val t.isLt p' k, show t.val % 4 + 1 = 4 by omega]
  exact partialSum_four _

/-! ## From the stored blocks to the array -/

include HA HB HC HO in
/-- What a last sender tile writes back is its block of the layer's result array. -/
theorem flushed_eq (t : Fin cfg0.N) (hf : (cfg0.win 18).flush t = true) :
    (dats m 0 c).flushed 18 t = ((cfg0.win 18).blk t).view.read (Elt Ideal) (LAYER m c) := by
  have h1 : t.val % 4 = 3 := (flush0_18 t).mp hf
  obtain ⟨e0, e1, e2⟩ := idx18 t
  have ht := tlt t
  show (cfg0.win 18).cut (grid0.coords t) ((dats m 0 c).after 18 t) = _
  rw [after18]
  funext j
  obtain ⟨a, p, q, rfl⟩ : ∃ (a : Fin 1) (p : Fin 32) (q : Fin 128), j = ix3 a p q := ⟨j 0, j 1, j 2, eq_ix3 j⟩
  obtain rfl : a = 0 := Subsingleton.elim _ _
  show (outsAt m c t.val t.isLt).1 (ix3 0 p q) = LAYER m c (((cfg0.win 18).blk t).view.emb (ix3 0 p q))
  rw [out_blk m c HA HB HC HO t h1 p q]
  refine congrArg (LAYER m c) (funext fun ax => Fin.ext ?_)
  match ax with
  | ⟨0, _⟩ => show t.val / 64 = win0_18.index t (0 : Fin 3) * 1 + 1 * 0; omega
  | ⟨1, _⟩ => show 32 * ((t.val / 4) % 16) + p.val = win0_18.index t (1 : Fin 3) * 32 + 1 * p.val; omega
  | ⟨2, _⟩ => show q.val = win0_18.index t (2 : Fin 3) * 128 + 1 * q.val; omega

include HA HB HC HO in
/-- The result array after the run is the layer of the arrays the region finds. -/
theorem final_of_cases : (dats m 0 c).arrAt 18 cfg0.N = LAYER m c :=
  (dats m 0 c).arrAt_eq_of_cover 18 (LAYER m c) (fun t ht => flushed_eq m c HA HB HC HO t ht) cover

include HA HB HC HO in
/-- The same with every argument array as the launch left it. -/
theorem final_of_cases_launch :
    (dats m 0 c).arrAt 18 cfg0.N = layerOf
      (m ((c : Thread nD τ).loc main_arg0) : FVec Ideal ⟨3, ![2, 512, 128]⟩ .f32)
      (m ((c : Thread nD τ).loc main_arg1) : FVec Ideal ⟨3, ![2, 512, 4]⟩ .f32)
      (m ((c : Thread nD τ).loc main_arg2) : IVec ⟨2, ![512, 512]⟩ 32)
      (m ((c : Thread nD τ).loc main_arg3) : FVec Ideal ⟨2, ![128, 128]⟩ .f32)
      (m ((c : Thread nD τ).loc main_arg4) : FVec Ideal ⟨2, ![128, 128]⟩ .f32)
      (m ((c : Thread nD τ).loc main_arg5) : FVec Ideal ⟨1, ![128]⟩ .f32)
      (m ((c : Thread nD τ).loc main_arg6) : FVec Ideal ⟨2, ![128, 128]⟩ .f32)
      (m ((c : Thread nD τ).loc main_arg7) : FVec Ideal ⟨1, ![128]⟩ .f32)
      (m ((c : Thread nD τ).loc main_arg8) : FVec Ideal ⟨2, ![4, 128]⟩ .f32)
      (m ((c : Thread nD τ).loc main_arg9) : FVec Ideal ⟨1, ![128]⟩ .f32)
      (m ((c : Thread nD τ).loc main_arg10) : FVec Ideal ⟨2, ![128, 128]⟩ .f32)
      (m ((c : Thread nD τ).loc main_arg11) : FVec Ideal ⟨2, ![128, 128]⟩ .f32)
      (m ((c : Thread nD τ).loc main_arg12) : FVec Ideal ⟨1, ![128]⟩ .f32)
      (m ((c : Thread nD τ).loc main_arg13) : FVec Ideal ⟨2, ![128, 128]⟩ .f32)
      (m ((c : Thread nD τ).loc main_arg14) : FVec Ideal ⟨1, ![128]⟩ .f32) := by
  have h : (dats m 0 c).arrAt 18 cfg0.N = layerOf
      (V m c main_arg0 : FVec Ideal ⟨3, ![2, 512, 128]⟩ .f32)
      (V m c main_arg1 : FVec Ideal ⟨3, ![2, 512, 4]⟩ .f32)
      (m ((c : Thread nD τ).loc main_arg2) : IVec ⟨2, ![512, 512]⟩ 32)
      (V m c main_arg3 : FVec Ideal ⟨2, ![128, 128]⟩ .f32)
      (V m c main_arg4 : FVec Ideal ⟨2, ![128, 128]⟩ .f32)
      (m ((c : Thread nD τ).loc main_arg5) : FVec Ideal ⟨1, ![128]⟩ .f32)
      (V m c main_arg6 : FVec Ideal ⟨2, ![128, 128]⟩ .f32)
      (m ((c : Thread nD τ).loc main_arg7) : FVec Ideal ⟨1, ![128]⟩ .f32)
      (V m c main_arg8 : FVec Ideal ⟨2, ![4, 128]⟩ .f32)
      (m ((c : Thread nD τ).loc main_arg9) : FVec Ideal ⟨1, ![128]⟩ .f32)
      (V m c main_arg10 : FVec Ideal ⟨2, ![128, 128]⟩ .f32)
      (V m c main_arg11 : FVec Ideal ⟨2, ![128, 128]⟩ .f32)
      (m ((c : Thread nD τ).loc main_arg12) : FVec Ideal ⟨1, ![128]⟩ .f32)
      (V m c main_arg13 : FVec Ideal ⟨2, ![128, 128]⟩ .f32)
      (m ((c : Thread nD τ).loc main_arg14) : FVec Ideal ⟨1, ![128]⟩ .f32) :=
    final_of_cases m c HA HB HC HO
  rw [V_main_arg0 m c, V_main_arg1 m c, V_main_arg3 m c, V_main_arg4 m c, V_main_arg6 m c, V_main_arg8 m c,
    V_main_arg10 m c, V_main_arg11 m c, V_main_arg13 m c] at h
  exact h

end Cases

/-! ## The case equations at a grid point -/

/-- A first sender tile leaves the step over the zero accumulator. -/
theorem soutA_at_eq (t : Fin cfg0.N) (h0 : t.val % 4 = 0) (h1 : ¬t.val % 4 = 3) :
    soutA_at m c t h0 h1 = stepAt m c t (k0_pay2 (F := Ideal)) := by
  unfold soutA_at stepAt
  exact sout_A_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- A middle sender tile leaves the step over the accumulator found. -/
theorem soutB_at_eq (t : Fin cfg0.N) (h0 : ¬t.val % 4 = 0) (h1 : ¬t.val % 4 = 3) (xs : Vec Ideal S32x128 .f32) :
    soutB_at m c t h0 h1 xs = stepAt m c t xs := by
  unfold soutB_at stepAt
  exact sout_B_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs

/-- A last sender tile leaves the step over the accumulator found … -/
theorem soutC_at_eq (t : Fin cfg0.N) (h0 : ¬t.val % 4 = 0) (h1 : t.val % 4 = 3) (xs : Vec Ideal S32x128 .f32) :
    soutC_at m c t h0 h1 xs = stepAt m c t xs := by
  unfold soutC_at stepAt
  exact sout_C_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs

/-- … and stores the output step of that accumulator. -/
theorem outC_at_eq (t : Fin cfg0.N) (h0 : ¬t.val % 4 = 0) (h1 : t.val % 4 = 3) (xs : Vec Ideal S32x128 .f32) :
    outC_at m c t h0 h1 xs = outAt m c t xs := by
  unfold outC_at outAt stepAt
  exact out_C_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs

/-! ## The result -/

/-- The result array after the run is the layer of the fifteen argument arrays as the launch left them. -/
theorem final_out :
    (dats m 0 c).arrAt 18 cfg0.N = layerOf
      (m ((c : Thread nD τ).loc main_arg0) : FVec Ideal ⟨3, ![2, 512, 128]⟩ .f32)
      (m ((c : Thread nD τ).loc main_arg1) : FVec Ideal ⟨3, ![2, 512, 4]⟩ .f32)
      (m ((c : Thread nD τ).loc main_arg2) : IVec ⟨2, ![512, 512]⟩ 32)
      (m ((c : Thread nD τ).loc main_arg3) : FVec Ideal ⟨2, ![128, 128]⟩ .f32)
      (m ((c : Thread nD τ).loc main_arg4) : FVec Ideal ⟨2, ![128, 128]⟩ .f32)
      (m ((c : Thread nD τ).loc main_arg5) : FVec Ideal ⟨1, ![128]⟩ .f32)
      (m ((c : Thread nD τ).loc main_arg6) : FVec Ideal ⟨2, ![128, 128]⟩ .f32)
      (m ((c : Thread nD τ).loc main_arg7) : FVec Ideal ⟨1, ![128]⟩ .f32)
      (m ((c : Thread nD τ).loc main_arg8) : FVec Ideal ⟨2, ![4, 128]⟩ .f32)
      (m ((c : Thread nD τ).loc main_arg9) : FVec Ideal ⟨1, ![128]⟩ .f32)
      (m ((c : Thread nD τ).loc main_arg10) : FVec Ideal ⟨2, ![128, 128]⟩ .f32)
      (m ((c : Thread nD τ).loc main_arg11) : FVec Ideal ⟨2, ![128, 128]⟩ .f32)
      (m ((c : Thread nD τ).loc main_arg12) : FVec Ideal ⟨1, ![128]⟩ .f32)
      (m ((c : Thread nD τ).loc main_arg13) : FVec Ideal ⟨2, ![128, 128]⟩ .f32)
      (m ((c : Thread nD τ).loc main_arg14) : FVec Ideal ⟨1, ![128]⟩ .f32) :=
  final_of_cases_launch m c (soutA_at_eq m c) (soutB_at_eq m c) (soutC_at_eq m c) (outC_at_eq m c)

end Cert.MsgPass.Accum

end
-- ==== Proof.LibIntCount.lean ====
/-
  Counting by a 32-bit sum.

  A count of the true entries of an array of one-bit words can be taken in two ways: widen each word to 32 bits and add
  them up as machine integers (wrapping), then read the total as a signed integer; or read each word as the real number
  0 or 1 and add those up exactly. The two agree as long as there are fewer than 2^31 entries, since the machine sum of
  at most that many ones never wraps and never reaches the sign bit. Stated over a list that enumerates the index type.
-/
import Mathlib
import Idealize.ShloMosaic.PureOps.Ideal

namespace Idealize.ShloMosaic.LibIntCount

/-- A one-bit word is 0 or 1. -/
theorem bit_cases (v : BitVec 1) : v = 0#1 ∨ v = 1#1 := by
  revert v; decide

/-- A one-bit word widened to 32 bits is the numeral 0 or 1. -/
theorem setWidth_bit (v : BitVec 1) : v.setWidth 32 = BitVec.ofNat 32 (if v = 1#1 then 1 else 0) := by
  rcases bit_cases v with rfl | rfl <;> decide

/-- The machine sum of widened bits over a list, from any start, is the start plus the number of ones. -/
theorem foldl_addi_bits {ι : Type} (b : ι → BitVec 1) :
    ∀ (l : List ι) (acc : BitVec 32),
      l.foldl (fun r i => IntOp.addi r ((b i).setWidth 32)) acc = acc + BitVec.ofNat 32 (l.countP fun i => b i = 1#1)
  | [], acc => by simp
  | a :: l, acc => by
    rw [List.foldl_cons, foldl_addi_bits b l, List.countP_cons, setWidth_bit]
    unfold IntOp.addi
    by_cases h : b a = 1#1
    · simp only [h, if_true, decide_true]
      rw [BitVec.add_assoc, ← BitVec.ofNat_add, Nat.add_comm]
    · simp only [h, if_false, decide_false]
      simp

/-- A numeral below 2^31 reads back as itself, signed. -/
theorem toInt_ofNat_small (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- The exact sum of the bits read as 0 / 1 over a list is the number of ones. -/
theorem sum_map_bits {ι : Type} (b : ι → BitVec 1) :
    ∀ l : List ι, (l.map fun i => (((((b i).setWidth 32).toInt : ℤ) : ℝ) : EReal)).sum = ((l.countP fun i => b i = 1#1 : ℕ) : EReal)
  | [] => by simp
  | a :: l => by
    rw [List.map_cons, List.sum_cons, sum_map_bits b l, List.countP_cons]
    rcases bit_cases (b a) with h | h
    · rw [h]; simp
    · rw [h]
      have : ((1#1 : BitVec 1).setWidth 32).toInt = 1 := by decide
      rw [this]; simp [add_comm]

/-- THE COUNT: over a list that enumerates a finite index type with fewer than 2^31 entries, the machine sum of the widened
    bits read as a signed integer is the exact sum of the bits read as 0 / 1. -/
theorem toInt_foldl_eq_sum {ι : Type} [Fintype ι] [DecidableEq ι] (b : ι → BitVec 1) (l : List ι) (hnd : l.Nodup)
    (hall : ∀ i, i ∈ l) (hlen : l.length < 2 ^ 31) :
    ((((l.foldl (fun r i => IntOp.addi r ((b i).setWidth 32)) 0#32).toInt : ℤ) : ℝ) : EReal)
      = ∑ i : ι, (((((b i).setWidth 32).toInt : ℤ) : ℝ) : EReal) := by
  have hfin : (Finset.univ : Finset ι) = l.toFinset := by
    ext i; simp [hall i]
  rw [foldl_addi_bits, BitVec.zero_add, toInt_ofNat_small _ (lt_of_le_of_lt (List.countP_le_length) hlen), hfin,
    List.sum_toFinset _ hnd, sum_map_bits]
  simp

/-- The same for any fold whose summand at each index is the widened bit and whose start is zero, however spelt. -/
theorem toInt_foldl_eq_sum_of {ι : Type} [Fintype ι] [DecidableEq ι] (b : ι → BitVec 1) (g : ι → BitVec 32)
    (hg : ∀ i, g i = (b i).setWidth 32) (init : BitVec 32) (hinit : init = 0#32) (l : List ι) (hnd : l.Nodup)
    (hall : ∀ i, i ∈ l) (hlen : l.length < 2 ^ 31) :
    ((((l.foldl (fun r i => IntOp.addi r (g i)) init).toInt : ℤ) : ℝ) : EReal)
      = ∑ i : ι, (((((b i).setWidth 32).toInt : ℤ) : ℝ) : EReal) := by
  have e : g = fun i => (b i).setWidth 32 := funext hg
  subst e
  subst hinit
  exact toInt_foldl_eq_sum b l hnd hall hlen

end Idealize.ShloMosaic.LibIntCount
-- ==== Proof.RefLaws.lean ====
/-
  The small laws that join the reference program's spelling to the layer's mathematics.

  The reference writes the logistic gate as 1 / (1 + exp (-z)); it turns the nonzero test of an adjacency word into a
  real flag 0 or 1; it counts a receiver's neighbours in 32-bit integers (widen each one-bit test, add them up with
  wrapping addition, take the signed maximum with one, convert to a real) and then DIVIDES the masked sum by that count,
  where the layer multiplies by the reciprocal of the real count. Each of these meets the layer's own spelling here:
  the logistic by definition; the flag by cases on the word; the integer count because 512 ones never wrap and never
  reach the sign bit, so the machine sum read as a signed integer is the exact number of nonzero words; the signed
  maximum because the integers embed in the reals monotonically; and the quotient because for a divisor that is not
  zero x / y is x times 1 / y on all of the extended reals. None of these needs an input to be finite.
-/
import Idealize.ShloMosaic.Lib.IdealHost
import Idealize.ShloMosaic.PureOps.Reduce
import proofs.«119065_j24043226923414_1_alg».proof.Proof.Spec
import proofs.«119065_j24043226923414_1_alg».proof.Proof.LibIntCount

noncomputable section

namespace Cert.MsgPass.Ref

open Idealize.ShloMosaic

/-- The f32 word of one, as the reference's host constant reads it. -/
theorem one_word : FloatOps.ofBits (F := Ideal) .f32 0x3F800000#32 = (1 : EReal) := Ideal.ofBits_one_f32

/-- The f32 word of zero. -/
theorem zero_word : FloatOps.ofBits (F := Ideal) .f32 0x00000000#32 = (0 : EReal) := Ideal.ofBits_zero_f32

/-- The logistic spelt out with the host's quotient, exponential and negation is the logistic. -/
theorem sigmoid_spelt (z : EReal) :
    FloatOps.hostDivf (F := Ideal) (φ := .f32) (1 : EReal)
      (FloatOps.addf (F := Ideal) (φ := .f32) (1 : EReal) (FloatOps.hostUnary (F := Ideal) (φ := .f32) .exp (FloatOps.hostNegf (F := Ideal) (φ := .f32) z)))
      = Ideal.logistic z := rfl

/-- The nonzero test of a word, read as a real flag: 0 for the zero word, 1 otherwise. -/
theorem flag_real (w : BitVec 32) :
    (FloatOps.uitofp (F := Ideal) .f32 (IntOp.cmpi .ne w 0#32) : EReal) = if w = 0#32 then 0 else 1 := by
  show ((((IntOp.cmpi .ne w 0#32).toNat : ℕ) : ℝ) : EReal) = _
  by_cases h : w = 0#32
  · subst h
    rw [if_pos rfl]
    have : IntOp.cmpi .ne (0#32 : BitVec 32) 0#32 = 0#1 := by decide
    rw [this]; simp
  · rw [if_neg h]
    have : IntOp.cmpi .ne w 0#32 = 1#1 := by
      unfold IntOp.cmpi
      have hb : (w != 0#32) = true := bne_iff_ne.mpr h
      simp only [hb]
      rfl
    rw [this]; simp

/-- The same test widened to 32 bits and read as a signed integer is the same flag. -/
theorem flag_int (w : BitVec 32) :
    (((((IntOp.cmpi .ne w 0#32).setWidth 32).toInt : ℤ) : ℝ) : EReal) = if w = 0#32 then 0 else 1 := by
  by_cases h : w = 0#32
  · subst h
    rw [if_pos rfl]
    have : ((IntOp.cmpi .ne (0#32 : BitVec 32) 0#32).setWidth 32).toInt = 0 := by decide
    rw [this]; simp
  · rw [if_neg h]
    have : IntOp.cmpi .ne w 0#32 = 1#1 := by
      unfold IntOp.cmpi
      have hb : (w != 0#32) = true := bne_iff_ne.mpr h
      simp only [hb]
      rfl
    rw [this]
    have : ((1#1 : BitVec 1).setWidth 32).toInt = 1 := by decide
    rw [this]; simp

/-- A fold of the machine addition over all of `Fin n` is the left fold along the increasing enumeration. -/
theorem fold_univ_eq_foldl {n : ℕ} (f : Fin n → BitVec 32) (init : BitVec 32) :
    (Finset.univ : Finset (Fin n)).fold IntOp.addi init f
      = (List.finRange n).foldl (fun r i => IntOp.addi r (f i)) init := by
  unfold Finset.fold
  rw [Fin.univ_val_map, Multiset.coe_fold_l, List.ofFn_eq_map, List.foldl_map]

/-- THE COUNT: the wrapping 32-bit sum of receiver `n`'s 512 widened nonzero tests, read as a signed integer, is the
    exact number of its nonzero adjacency words — the sum of the real flags. -/
theorem count_eq (adj : Fin 512 → Fin 512 → BitVec 32) (n : Fin 512) :
    (((((Finset.univ : Finset (Fin 512)).fold IntOp.addi 0#32
        (fun k => (IntOp.cmpi .ne (adj n k) 0#32).setWidth 32)).toInt : ℤ) : ℝ) : EReal)
      = ∑ j : Fin 512, maskOf adj n j := by
  rw [fold_univ_eq_foldl,
    LibIntCount.toInt_foldl_eq_sum (fun k => IntOp.cmpi .ne (adj n k) 0#32) (List.finRange 512)
      (List.nodup_finRange 512) (fun i => List.mem_finRange i) (by rw [List.length_finRange]; norm_num)]
  exact Finset.sum_congr rfl fun j _ => flag_int (adj n j)

/-- The signed maximum with one, read as a signed integer, is the integers' maximum with one. -/
theorem maxsi_one_toInt (c : BitVec 32) : (IntOp.maxsi c 1#32).toInt = max c.toInt 1 := by
  unfold IntOp.maxsi
  have h1 : (1#32 : BitVec 32).toInt = 1 := by decide
  by_cases h : (1#32 : BitVec 32).slt c
  · rw [if_pos h]
    have := BitVec.slt_iff_toInt_lt.mp h
    rw [h1] at this
    exact (max_eq_left (le_of_lt this)).symm
  · rw [if_neg h, h1]
    have : ¬ (1#32 : BitVec 32).toInt < c.toInt := fun hh => h (BitVec.slt_iff_toInt_lt.mpr hh)
    rw [h1] at this
    exact (max_eq_right (not_lt.mp this)).symm

/-- The count floored at one and converted to a real is the real count floored at one. -/
theorem count_floor (c : BitVec 32) (s : EReal) (h : (((c.toInt : ℤ) : ℝ) : EReal) = s) :
    (FloatOps.sitofp (F := Ideal) .f32 (IntOp.maxsi c 1#32) : EReal) = max s 1 := by
  show ((((IntOp.maxsi c 1#32).toInt : ℤ) : ℝ) : EReal) = max s 1
  rw [maxsi_one_toInt, ← h, Int.cast_max, Int.cast_one, EReal.coe_strictMono.monotone.map_max, EReal.coe_one]

/-- A count floored at one is not zero. -/
theorem floor_ne_zero (s : EReal) : max s 1 ≠ 0 :=
  ne_of_gt (lt_of_lt_of_le zero_lt_one (le_max_right s 1))

/-- THE QUOTIENT: dividing by a count floored at one is multiplying by its reciprocal, for every extended real. -/
theorem div_floor (a s : EReal) : Ideal.div a (max s 1) = a * Ideal.div 1 (max s 1) :=
  (Ideal.mul_one_div (floor_ne_zero s)).symm

end Cert.MsgPass.Ref

end
-- ==== Proof.RefMsg.lean ====
/-
  The reference program's gated, masked message at one (batch, receiver, sender, feature) index.

  The reference forms, over the whole [2, 512, 512, 128] array at once, the receiver and sender projections of the
  features, their sum with the bias floored at zero (the hidden layer), its image under the second weight matrix plus
  bias (the message), the cosine of the receiver-minus-sender phase differences pushed through the gate's weights and
  the logistic (the gate), their product, and the product with the 0/1 flag of the adjacency word. Read at one index,
  every broadcast only selects coordinates, every contraction is a plain sum over its one contracted coordinate, and
  the entry is the layer's own `pairTerm` of the receiver's and the sender's rows times `maskOf` of the adjacency.
-/
import Idealize.ShloMosaic.Lib.ValueIdx
import Idealize.ShloMosaic.PureOps.Ideal.Laws
import proofs.«119065_j24043226923414_1_alg».proof.Proof.SpecArrays
import proofs.«119065_j24043226923414_1_alg».proof.Proof.RefLaws
import proofs.«119065_j24043226923414_1_alg».proof.Proof.Gen.ReferenceIdeal.Read

noncomputable section

namespace Cert.MsgPass.Ref

open Idealize.ShloMosaic Idealize.ShloMosaic.ValueIdx Cert.ReferenceIdeal Cert.ReferenceIdeal.Read

/-- The argument arrays' types, as the reference program's stages take them. -/
abbrev Feat : Type := (⟨S2x512x128, .f32⟩ : BufTy).Contents (Elt Ideal)
abbrev Phase : Type := (⟨S2x512x4, .f32⟩ : BufTy).Contents (Elt Ideal)
abbrev Adj : Type := (⟨S512x512, .i32⟩ : BufTy).Contents (Elt Ideal)
abbrev Mat : Type := (⟨S128x128, .f32⟩ : BufTy).Contents (Elt Ideal)
abbrev Row : Type := (⟨S128, .f32⟩ : BufTy).Contents (Elt Ideal)
abbrev GMat : Type := (⟨S4x128, .f32⟩ : BufTy).Contents (Elt Ideal)

/-- A feature row times a weight matrix, as the reference contracts it: the layer's `lin` of that row. -/
theorem proj_apply (y : Feat) (w : Mat) (i : S2x512x128.Idx) :
    (∑ k : Fin 128, y (lidx_main_v2 i k) * w (ridx_main_v2 i k))
      = lin (fun d e => w (ix2 d e)) (fun d => y (ix3 (i 0) (i 1) d)) (i 2) := by
  unfold lin
  refine Finset.sum_congr rfl fun k _ => ?_
  rw [show lidx_main_v2 i k = ix3 (i 0) (i 1) k from by funext a; fin_cases a <;> rfl,
    show ridx_main_v2 i k = ix2 k (i 2) from by funext a; fin_cases a <;> rfl]
  rfl

/-- The receiver projection at (batch, node, feature). -/
theorem recv_apply (x0 : Feat) (x3 : Mat) (i : S2x512x128.Idx) :
    val_main_v2 (F := Ideal) x0 x3 i = lin (fun d e => x3 (ix2 d e)) (rows3 x0 (i 0) (i 1)) (i 2) := by
  rw [val_main_v2_apply]; exact proj_apply x0 x3 i

/-- The sender projection at (batch, node, feature). -/
theorem send_apply (x0 : Feat) (x4 : Mat) (i : S2x512x128.Idx) :
    val_main_v3 (F := Ideal) x0 x4 i = lin (fun d e => x4 (ix2 d e)) (rows3 x0 (i 0) (i 1)) (i 2) := by
  rw [val_main_v3_apply]; exact proj_apply x0 x4 i

variable (x0 : Feat) (x1 : Phase) (x2 : Adj) (x3 x4 : Mat) (x5 : Row) (x6 : Mat) (x7 : Row) (x8 : GMat) (x9 : Row)

/-- The hidden layer at (batch, receiver, sender, unit). -/
theorem hidden_apply (i : S2x512x512x128.Idx) :
    val_main_v12 (F := Ideal) x0 x3 x4 x5 i
      = hidden (msgW x3 x4 x5 x6 x7 x8 x9) (rows3 x0 (i 0) (i 1)) (rows3 x0 (i 0) (i 2)) (i 3) := by
  rw [val_main_v12_apply, val_main_v11_apply, val_main_v8_apply, val_main_v6_apply, val_main_v4_apply, val_main_v7_apply,
    val_main_v5_apply, val_main_v10_apply, val_main_v9_apply, val_main_call0_v0_apply, val_main_call0_cst_apply,
    recv_apply, send_apply, zero_word,
    show idx_main_v9 (idx_main_v10 i) = ix1 (i 3) from by funext a; fin_cases a; rfl]
  rfl

/-- The message before gating at (batch, receiver, sender, feature). -/
theorem message_apply (i : S2x512x512x128.Idx) :
    val_main_v16 (F := Ideal) x0 x3 x4 x5 x6 x7 i
      = message (msgW x3 x4 x5 x6 x7 x8 x9) (rows3 x0 (i 0) (i 1)) (rows3 x0 (i 0) (i 2)) (i 3) := by
  rw [val_main_v16_apply, val_main_v15_apply, val_main_v14_apply, val_main_v13_apply,
    show idx_main_v14 (idx_main_v15 i) = ix1 (i 3) from by funext a; fin_cases a; rfl]
  unfold message lin
  refine congrArg (· + x7 (ix1 (i 3))) (Finset.sum_congr rfl fun k _ => ?_)
  rw [hidden_apply x0 x3 x4 x5 x6 x7 x8 x9,
    show ridx_main_v13 i k = ix2 k (i 3) from by funext a; fin_cases a <;> rfl]
  rfl

/-- The phase coherence at (batch, receiver, sender, phase): the cosine of the difference of the two phases. -/
theorem coherence_apply (i : S2x512x512x4.Idx) :
    val_main_v22 (F := Ideal) x1 i = Ideal.cos (rows3 x1 (i 0) (i 1) (i 3) - rows3 x1 (i 0) (i 2) (i 3)) := by
  rw [val_main_v22_apply, val_main_v21_apply, val_main_v19_apply, val_main_v17_apply, val_main_v20_apply, val_main_v18_apply,
    show idx_main_v17 (idx_main_v19 i) = ix3 (i 0) (i 1) (i 3) from by funext a; fin_cases a <;> rfl,
    show idx_main_v18 (idx_main_v20 i) = ix3 (i 0) (i 2) (i 3) from by funext a; fin_cases a <;> rfl]
  rfl

/-- The gate at (batch, receiver, sender, feature). -/
theorem gate_apply (i : S2x512x512x128.Idx) :
    val_main_v32 (F := Ideal) x1 x8 x9 i
      = gate (msgW x3 x4 x5 x6 x7 x8 x9) (rows3 x1 (i 0) (i 1)) (rows3 x1 (i 0) (i 2)) (i 3) := by
  rw [val_main_v32_apply, val_main_v31_apply, val_main_cst_0_apply, val_main_v30_apply, val_main_v29_apply,
    val_main_cst_apply, val_main_v28_apply, val_main_v27_apply, val_main_v26_apply, val_main_v25_apply, val_main_v24_apply,
    val_main_v23_apply, one_word, sigmoid_spelt,
    show idx_main_v24 (idx_main_v25 i) = ix1 (i 3) from by funext a; fin_cases a; rfl]
  unfold gate
  refine congrArg Ideal.logistic (congrArg (· + x9 (ix1 (i 3))) (Finset.sum_congr rfl fun k _ => ?_))
  rw [coherence_apply x1, show ridx_main_v23 i k = ix2 k (i 3) from by funext a; fin_cases a <;> rfl]
  rfl

/-- The adjacency's real flag at (batch, receiver, sender, feature): the layer's mask of the receiver-sender word. -/
theorem mask_apply (i : S2x512x512x128.Idx) :
    val_main_v36 (F := Ideal) x2 i = maskOf (words2 x2) (i 1) (i 2) := by
  rw [val_main_v36_apply, val_main_v35_apply, val_main_v34_apply, val_main_v1_apply, val_main_v0_apply, val_main_c_apply,
    flag_real,
    show idx_main_v34 (idx_main_v36 i) = ix2 (i 1) (i 2) from by funext a; fin_cases a <;> rfl]
  rfl

/-- The gated and masked message at (batch, receiver, sender, feature). -/
theorem masked_apply (i : S2x512x512x128.Idx) :
    val_main_v37 (F := Ideal) x0 x1 x2 x3 x4 x5 x6 x7 x8 x9 i
      = pairTerm (msgW x3 x4 x5 x6 x7 x8 x9) (rows3 x0 (i 0) (i 1)) (rows3 x0 (i 0) (i 2)) (rows3 x1 (i 0) (i 1))
          (rows3 x1 (i 0) (i 2)) (i 3) * maskOf (words2 x2) (i 1) (i 2) := by
  rw [val_main_v37_apply, val_main_v33_apply, message_apply x0 x3 x4 x5 x6 x7 x8 x9, gate_apply x1 x3 x4 x5 x6 x7 x8 x9,
    mask_apply x2]
  rfl

end Cert.MsgPass.Ref

end
-- ==== Proof.RefAgg.lean ====
/-
  The reference program's aggregation: the masked sum over the 512 senders, the neighbour count, and their quotient.

  The sum over senders starts from the zero word and adds the 512 gated, masked messages of one receiver: the layer's
  `aggSum`. The count is taken in 32-bit integers: the nonzero tests of the receiver's 512 adjacency words, widened,
  added up with wrapping addition from zero, floored at one by the signed maximum, and converted to a real; since 512
  ones neither wrap nor reach the sign bit this is the real number of nonzero words floored at one. The reference then
  divides the sum by the count, which is the layer's product with the reciprocal `recipOf` because the count is not zero.
-/
import Idealize.ShloMosaic.PureOps.Reduce
import proofs.«119065_j24043226923414_1_alg».proof.Proof.RefMsg

noncomputable section

namespace Cert.MsgPass.Ref

open Idealize.ShloMosaic Idealize.ShloMosaic.ValueIdx Cert.ReferenceIdeal Cert.ReferenceIdeal.Gen Cert.ReferenceIdeal.Read

variable (x0 : Feat) (x1 : Phase) (x2 : Adj) (x3 x4 : Mat) (x5 : Row) (x6 : Mat) (x7 : Row) (x8 : GMat) (x9 : Row)

/-- The masked sum over senders at (batch, receiver, feature). -/
theorem aggsum_apply (i : S2x512x128.Idx) :
    val_main_v38 (F := Ideal) x0 x1 x2 x3 x4 x5 x6 x7 x8 x9 i
      = aggSum (msgW x3 x4 x5 x6 x7 x8 x9) (rows3 x0) (rows3 x1) (maskOf (words2 x2)) (i 0) (i 1) (i 2) := by
  rw [val_main_v38_apply, val_main_cst_1_apply, zero_word, zero_add]
  unfold aggSum
  refine Finset.sum_congr rfl fun k _ => ?_
  rw [masked_apply x0 x1 x2 x3 x4 x5 x6 x7 x8 x9]
  rfl

/-- The widened nonzero tests of receiver `n`'s adjacency words, along the reduced axis. -/
theorem tests_along (h : S512x512.Reduces [1] S512) (i : S512.Idx) :
    (val_main_v39 (F := Ideal) x2 ∘ h.lift i)
      = fun k : Fin 512 => (IntOp.cmpi .ne (words2 x2 (i 0) k) 0#32).setWidth 32 := by
  funext k
  show val_main_v39 (F := Ideal) x2 (h.lift i k) = _
  rw [val_main_v39_apply, val_main_v1_apply, val_main_v0_apply, val_main_c_apply,
    show h.lift i k = ix2 (i 0) k from by funext a; fin_cases a <;> exact Fin.ext rfl]
  rfl

/-- The neighbour count floored at one, as a real, at receiver `n`. -/
theorem count_apply (i : S512.Idx) :
    val_main_v43 (F := Ideal) x2 i = max (∑ j : Fin 512, maskOf (words2 x2) (i 0) j) 1 := by
  rw [val_main_v43_apply, val_main_v42_apply, val_main_v41_apply, val_main_c_3_apply]
  refine count_floor _ _ ?_
  have h : S512x512.Reduces [1] S512 := by decide
  unfold val_main_v40
  rw [Host.reduce_eq_fold_single IntOp.addi _ _ reducesTo_S512x512_S512_d1 h h_S_ i, tests_along x2 h i]
  exact count_eq (words2 x2) (i 0)

/-- The aggregated row at (batch, receiver, feature): the masked sum times the reciprocal count. -/
theorem aggregated_apply (i : S2x512x128.Idx) :
    val_main_v46 (F := Ideal) x0 x1 x2 x3 x4 x5 x6 x7 x8 x9 i
      = aggSum (msgW x3 x4 x5 x6 x7 x8 x9) (rows3 x0) (rows3 x1) (maskOf (words2 x2)) (i 0) (i 1) (i 2)
          * recipOf (words2 x2) (i 1) := by
  rw [val_main_v46_apply, val_main_v45_apply, val_main_v44_apply, aggsum_apply x0 x1 x2 x3 x4 x5 x6 x7 x8 x9,
    count_apply x2]
  exact div_floor _ _

end Cert.MsgPass.Ref

end
-- ==== Proof.RefLayer.lean ====
/-
  The reference program is the layer.

  After the aggregation the reference pushes the receiver's own row and its aggregated row through the update network
  (two contractions, a bias, the floor at zero, a third contraction and a bias) and adds the result to the receiver's
  row. Read at one (batch, node, feature) index, with the aggregated row already identified as the masked sum times the
  reciprocal count, this is the layer's `updTerm`, and the whole result array is `layerOf` of the fifteen arguments.
-/
import proofs.«119065_j24043226923414_1_alg».proof.Proof.RefAgg

noncomputable section

namespace Cert.MsgPass.Ref

open Idealize.ShloMosaic Idealize.ShloMosaic.ValueIdx Cert.ReferenceIdeal Cert.ReferenceIdeal.Read

/-- A sum of products of a row's entries with a weight matrix's column is the layer's `lin` of that row. -/
theorem lin_of_sum (w : Mat) (f : Fin 128 → EReal) (r : Fin 128 → S128x128.Idx) (v : Fin 128 → EReal) (e : Fin 128)
    (hf : ∀ k, f k = v k) (hr : ∀ k, r k = ix2 k e) :
    (∑ k : Fin 128, f k * w (r k)) = lin (fun d e => w (ix2 d e)) v e := by
  unfold lin
  refine Finset.sum_congr rfl fun k _ => ?_
  rw [hf k, hr k]

section Stages

variable (x0 : Feat) (x1 : Phase) (x2 : Adj) (x3 x4 : Mat) (x5 : Row) (x6 : Mat) (x7 : Row) (x8 : GMat) (x9 : Row)
  (x10 x11 : Mat) (x12 : Row) (x13 : Mat) (x14 : Row)

/-- The receiver's own row through the update network's first matrix, at (batch, node, unit). -/
theorem own_apply (i : S2x512x128.Idx) :
    val_main_v47 (F := Ideal) x0 x10 i = lin (fun d e => x10 (ix2 d e)) (rows3 x0 (i 0) (i 1)) (i 2) := by
  rw [val_main_v47_apply]
  exact lin_of_sum x10 (fun k => x0 (lidx_main_v47 i k)) (fun k => ridx_main_v47 i k) (rows3 x0 (i 0) (i 1)) (i 2)
    (fun k => congrArg x0 (by funext a; fin_cases a <;> rfl)) (fun k => by funext a; fin_cases a <;> rfl)

/-- The aggregated row through the update network's second matrix, at (batch, node, unit). -/
theorem agg_apply (i : S2x512x128.Idx) :
    val_main_v48 (F := Ideal) x0 x1 x2 x3 x4 x5 x6 x7 x8 x9 x11 i
      = lin (fun d e => x11 (ix2 d e))
          (fun k => aggSum (msgW x3 x4 x5 x6 x7 x8 x9) (rows3 x0) (rows3 x1) (maskOf (words2 x2)) (i 0) (i 1) k
            * recipOf (words2 x2) (i 1)) (i 2) := by
  rw [val_main_v48_apply]
  exact lin_of_sum x11 (fun k => val_main_v46 (F := Ideal) x0 x1 x2 x3 x4 x5 x6 x7 x8 x9 (lidx_main_v48 i k))
    (fun k => ridx_main_v48 i k) _ (i 2)
    (fun k => aggregated_apply x0 x1 x2 x3 x4 x5 x6 x7 x8 x9 (lidx_main_v48 i k))
    (fun k => by funext a; fin_cases a <;> rfl)

/-- The update network's hidden unit at (batch, node, unit). -/
theorem upd_hidden_apply (i : S2x512x128.Idx) :
    val_main_v53 (F := Ideal) x0 x1 x2 x3 x4 x5 x6 x7 x8 x9 x10 x11 x12 i
      = max ((lin (fun d e => x10 (ix2 d e)) (rows3 x0 (i 0) (i 1)) (i 2)
            + lin (fun d e => x11 (ix2 d e))
                (fun k => aggSum (msgW x3 x4 x5 x6 x7 x8 x9) (rows3 x0) (rows3 x1) (maskOf (words2 x2)) (i 0) (i 1) k
                  * recipOf (words2 x2) (i 1)) (i 2))
          + x12 (ix1 (i 2))) 0 := by
  rw [val_main_v53_apply, val_main_v52_apply, val_main_v49_apply, val_main_v51_apply, val_main_v50_apply,
    val_main_call1_v0_apply, val_main_call1_cst_apply, zero_word, own_apply x0 x10,
    agg_apply x0 x1 x2 x3 x4 x5 x6 x7 x8 x9 x11,
    show idx_main_v50 (idx_main_v51 i) = ix1 (i 2) from by funext a; fin_cases a; rfl]
  rfl

end Stages

/-- THE REFERENCE IS THE LAYER: its result array is `layerOf` of its fifteen arguments. -/
theorem ref_layer (x0 : (⟨S2x512x128, .f32⟩ : BufTy).Contents (Elt Ideal)) (x1 : (⟨S2x512x4, .f32⟩ : BufTy).Contents (Elt Ideal))
    (x2 : (⟨S512x512, .i32⟩ : BufTy).Contents (Elt Ideal)) (x3 x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S4x128, .f32⟩ : BufTy).Contents (Elt Ideal))
    (x9 : (⟨S128, .f32⟩ : BufTy).Contents (Elt Ideal)) (x10 x11 : (⟨S128x128, .f32⟩ : BufTy).Contents (Elt Ideal))
    (x12 : (⟨S128, .f32⟩ : BufTy).Contents (Elt Ideal)) (x13 : (⟨S128x128, .f32⟩ : BufTy).Contents (Elt Ideal))
    (x14 : (⟨S128, .f32⟩ : BufTy).Contents (Elt Ideal)) :
    Cert.ReferenceIdeal.Read.val_main_v58 (F := Ideal) x0 x1 x2 x3 x4 x5 x6 x7 x8 x9 x10 x11 x12 x13 x14
      = Cert.MsgPass.layerOf x0 x1 x2 x3 x4 x5 x6 x7 x8 x9 x10 x11 x12 x13 x14 := by
  funext i
  rw [val_main_v58_apply, val_main_v57_apply, val_main_v56_apply, val_main_v55_apply, val_main_v54_apply,
    show idx_main_v55 (idx_main_v56 i) = ix1 (i 2) from by funext a; fin_cases a; rfl,
    lin_of_sum x13 (fun k => val_main_v53 (F := Ideal) x0 x1 x2 x3 x4 x5 x6 x7 x8 x9 x10 x11 x12 (lidx_main_v54 i k))
      (fun k => ridx_main_v54 i k)
      (fun d => max ((lin (fun d e => x10 (ix2 d e)) (rows3 x0 (i 0) (i 1)) d
            + lin (fun d e => x11 (ix2 d e))
                (fun k => aggSum (msgW x3 x4 x5 x6 x7 x8 x9) (rows3 x0) (rows3 x1) (maskOf (words2 x2)) (i 0) (i 1) k
                  * recipOf (words2 x2) (i 1)) d)
          + x12 (ix1 d)) 0) (i 2)
      (fun k => upd_hidden_apply x0 x1 x2 x3 x4 x5 x6 x7 x8 x9 x10 x11 x12 (lidx_main_v54 i k))
      (fun k => by funext a; fin_cases a <;> rfl),
    show x0 i = rows3 x0 (i 0) (i 1) (i 2) from congrArg x0 (eq_ix3 i)]
  rfl

end Cert.MsgPass.Ref

end
-- ==== Proof.RefRun.lean ====
/-
  The reference program's run, read as the layer.

  Every weakly fair execution of the reference program terminates with its result array at the composed term of its
  69 operations and its fifteen argument arrays unchanged; that term is the last stage of the reference read one
  operation at a time, which is the layer's whole result array `layerOf` of the arguments. The run with the result
  dropped is the reference program's frame.
-/
import proofs.«119065_j24043226923414_1_alg».proof.Defs
import proofs.«119065_j24043226923414_1_alg».proof.Proof.RefLayer
import proofs.«119065_j24043226923414_1_alg».proof.Proof.Gen.ReferenceIdeal.Run
import proofs.«119065_j24043226923414_1_alg».proof.Proof.Gen.Pre_finite_inputs

noncomputable section

namespace Cert.MsgPass.RefRun

open Idealize.ShloMosaic Idealize.ShloMosaic.TcCoe Idealize.SL.Sem Cert.ReferenceIdeal Cert.ReferenceIdeal.Gen

/-- The reference program runs, ends with its result array at the layer of its arguments, and leaves them unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v58)
        = Cert.MsgPass.layerOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)) :=
  (θ_run defs _ _).mono (fun _ h c =>
      ⟨(h c).1.trans ((Read.val_main_v58_eq (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14))).trans
          (Cert.MsgPass.Ref.ref_layer (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)))),
        (h c).2⟩)
    (Cert.ReferenceIdeal.Value.run (F := Ideal) m' ρ')

/-- The reference program's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.MsgPass.RefRun

end
-- ==== Proof.lean ====
/- One message-passing layer with a phase gate: the kernel, tiled over (batch, 32 receivers, 128 senders) with the masked sum
   accumulated over the four sender tiles, and the jnp reference, which forms the whole [2, 512, 512, 128] message array and
   divides by an integer neighbour count, both compute `Cert.MsgPass.layerOf` of the fifteen argument arrays on the extended reals. -/
import proofs.«119065_j24043226923414_1_alg».proof.Defs
import proofs.«119065_j24043226923414_1_alg».proof.Proof.Gen.Kernel
import proofs.«119065_j24043226923414_1_alg».proof.Proof.Gen.Kernel.Skeleton
import proofs.«119065_j24043226923414_1_alg».proof.Proof.Gen.Kernel.Launch
import proofs.«119065_j24043226923414_1_alg».proof.Proof.Gen.Kernel.Points
import proofs.«119065_j24043226923414_1_alg».proof.Proof.Gen.KernelIdeal
import proofs.«119065_j24043226923414_1_alg».proof.Proof.Gen.KernelIdeal.Skeleton
import proofs.«119065_j24043226923414_1_alg».proof.Proof.Gen.KernelIdeal.Launch
import proofs.«119065_j24043226923414_1_alg».proof.Proof.Gen.KernelIdeal.Points
import proofs.«119065_j24043226923414_1_alg».proof.Proof.Gen.ReferenceIdeal
import proofs.«119065_j24043226923414_1_alg».proof.Proof.Gen.Pre_finite_inputs
import proofs.«119065_j24043226923414_1_alg».proof.Proof.Gen.ReferenceIdeal.Run
import proofs.«119065_j24043226923414_1_alg».proof.Proof.Gen.ReferenceIdeal.Read
import proofs.«119065_j24043226923414_1_alg».proof.Proof.FrameK.Run
import proofs.«119065_j24043226923414_1_alg».proof.Proof.FrameKI.Run
import proofs.«119065_j24043226923414_1_alg».proof.Proof.KFinal
import proofs.«119065_j24043226923414_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-! ## The frames -/

/-- The kernel as printed runs and leaves its fifteen arguments unchanged. -/
theorem frame_k : Cert.frame_Kernel := fun m ρ _ => Cert.Kernel.Hand.frame (F := Bits) m ρ

/-- So does the kernel read on the extended reals. -/
theorem frame_ki : Cert.frame_KernelIdeal := fun m ρ _ => Cert.KernelIdeal.Hand.frame (F := Ideal) m ρ

/-! ## The kernel's run, read as the layer -/

section KernelRun

open Cert.KernelIdeal Cert.KernelIdeal.Gen Cert.KernelIdeal.Hand

/-- The kernel runs, ends with its result array at the layer of its arguments — the output window's array after the
    last grid point —, and leaves the arguments unchanged: a staged one because an input array is never written, the
    others because they bypass the region. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
        = Cert.MsgPass.layerOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨((h c).1 18).trans (Cert.MsgPass.Accum.final_out m c),
        ((h c).1 0).trans (((dats m 0 c).arrAt_in 0 rfl _).trans ((A_eq m c 0).trans (V_main_arg0 m c))),
        ((h c).1 2).trans (((dats m 0 c).arrAt_in 2 rfl _).trans ((A_eq m c 2).trans (V_main_arg1 m c))),
        ((h c).2 main_arg2 (Pipeline.mem_restRefs_of main_arg2 (by decide) (by decide))).trans (V_main_arg2 m c),
        ((h c).1 6).trans (((dats m 0 c).arrAt_in 6 rfl _).trans ((A_eq m c 6).trans (V_main_arg3 m c))),
        ((h c).1 7).trans (((dats m 0 c).arrAt_in 7 rfl _).trans ((A_eq m c 7).trans (V_main_arg4 m c))),
        ((h c).2 main_arg5 (Pipeline.mem_restRefs_of main_arg5 (by decide) (by decide))).trans (V_main_arg5 m c),
        ((h c).1 9).trans (((dats m 0 c).arrAt_in 9 rfl _).trans ((A_eq m c 9).trans (V_main_arg6 m c))),
        ((h c).2 main_arg7 (Pipeline.mem_restRefs_of main_arg7 (by decide) (by decide))).trans (V_main_arg7 m c),
        ((h c).1 11).trans (((dats m 0 c).arrAt_in 11 rfl _).trans ((A_eq m c 11).trans (V_main_arg8 m c))),
        ((h c).2 main_arg9 (Pipeline.mem_restRefs_of main_arg9 (by decide) (by decide))).trans (V_main_arg9 m c),
        ((h c).1 13).trans (((dats m 0 c).arrAt_in 13 rfl _).trans ((A_eq m c 13).trans (V_main_arg10 m c))),
        ((h c).1 14).trans (((dats m 0 c).arrAt_in 14 rfl _).trans ((A_eq m c 14).trans (V_main_arg11 m c))),
        ((h c).2 main_arg12 (Pipeline.mem_restRefs_of main_arg12 (by decide) (by decide))).trans (V_main_arg12 m c),
        ((h c).1 16).trans (((dats m 0 c).arrAt_in 16 rfl _).trans ((A_eq m c 16).trans (V_main_arg13 m c))),
        ((h c).2 main_arg14 (Pipeline.mem_restRefs_of main_arg14 (by decide) (by decide))).trans (V_main_arg14 m c)⟩)
    (run_main (F := Ideal) m ρ)

end KernelRun

/-! ## The two programs agree -/

/-- From memories that agree on the fifteen arguments both programs end with the layer of those arguments. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.MsgPass.RefRun.ref_run m' ρ')
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, Cert.MsgPass.RefRun.frame_ri, trivial, algebraic⟩

end Cert.Proof

end
